-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S1 .f32) (main_arg7 : FVec F S128x128 .f32) (main_arg8 : FVec F S128 .f32) (main_arg9 : FVec F S128 .f32) (main_arg10 : FVec F S128 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S1 .f32) (main_arg7 : FVec F S128x128 .f32) (main_arg8 : FVec F S128 .f32) (main_arg9 : FVec F S128 .f32) (main_arg10 : FVec F S128 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x1 : Shape := ⟨2, ![1, 1]⟩

abbrev nBuf : Space → Nat
  | .hbm => 130
  | .vmem => 40
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S1, .f32⟩
  | 7 => ⟨S128x128, .f32⟩
  | 8 => ⟨S128, .f32⟩
  | 9 => ⟨S128, .f32⟩
  | 10 => ⟨S128, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x128, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S1x1, .f32⟩
  | 92 => ⟨S50000x128, .f32⟩
  | 93 => ⟨S50000x128, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x128, .f32⟩
  | 103 => ⟨S850000x1, .f32⟩
  | 104 => ⟨S850000x128, .f32⟩
  | 105 => ⟨S850000x128, .f32⟩
  | 106 => ⟨S_, .f32⟩
  | 107 => ⟨S50000x128, .f32⟩
  | 108 => ⟨S850000x1, .i32⟩
  | 109 => ⟨S50000x128, .f32⟩
  | 110 => ⟨S1x128, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S50000x128, .f32⟩

abbrev hbmTy0_1 (i : Nat) : BufTy := match i % 128 with
  | 0 => ⟨S1x1, .f32⟩
  | 1 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x1, .f32⟩
  | .local _ .vmem, ⟨38, _⟩ => ⟨S5000x128, .f32⟩
  | .local _ .vmem, ⟨39, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48_0 : Ref sig .tc := ⟨.hbm, 74, rfl⟩
abbrev main_v48_1 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78_0 : Ref sig .tc := ⟨.hbm, 111, rfl⟩
abbrev main_v78_1 : Ref sig .tc := ⟨.hbm, 112, rfl⟩
abbrev main_cst_16 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_18 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg6_0 : Ref sig .tc := ⟨.vmem, 37, rfl⟩
abbrev cc5_stg7_0 : Ref sig .tc := ⟨.vmem, 38, rfl⟩
abbrev cc5_stg7_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem4_0 : DmaSem sig := 35
abbrev cc5_sem5_0 : DmaSem sig := 36
abbrev cc5_sem6_0 : DmaSem sig := 37
abbrev cc5_sem7_0 : DmaSem sig := 38
abbrev cc5_sem7_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v76) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v88) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v87) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v91) S1x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v92) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x1 : Shape := ⟨2, ![1, 1]⟩

abbrev nBuf : Space → Nat
  | .hbm => 170
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S1, .f32⟩
  | 7 => ⟨S128x128, .f32⟩
  | 8 => ⟨S128, .f32⟩
  | 9 => ⟨S128, .f32⟩
  | 10 => ⟨S128, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x128, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S128, .f32⟩
  | 87 => ⟨S_, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .i1⟩
  | 109 => ⟨S1x1, .f32⟩
  | 110 => ⟨S50000x128, .f32⟩
  | 111 => ⟨S50000x128, .f32⟩
  | 112 => ⟨S50000x128, .f32⟩
  | 113 => ⟨S50000x128, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x128, .f32⟩
  | 123 => ⟨S850000x1, .f32⟩
  | 124 => ⟨S850000x128, .f32⟩
  | 125 => ⟨S850000x128, .f32⟩
  | 126 => ⟨S_, .f32⟩
  | 127 => ⟨S50000x128, .f32⟩
  | _ => ⟨S50000x128, .f32⟩

abbrev hbmTy0_1 (i : Nat) : BufTy := match i % 128 with
  | 0 => ⟨S850000x1, .i32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S128, .f32⟩
  | 24 => ⟨S128, .f32⟩
  | 25 => ⟨S128, .f32⟩
  | 26 => ⟨S1x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .i1⟩
  | 38 => ⟨S1x1, .f32⟩
  | 39 => ⟨S50000x128, .f32⟩
  | 40 => ⟨S50000x128, .f32⟩
  | 41 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_18 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_19 : Ref sig .tc := ⟨.hbm, 133, rfl⟩
abbrev main_v98 : Ref sig .tc := ⟨.hbm, 134, rfl⟩
abbrev main_cst_20 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_21 : Ref sig .tc := ⟨.hbm, 142, rfl⟩
abbrev main_v105 : Ref sig .tc := ⟨.hbm, 143, rfl⟩
abbrev main_cst_22 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_23 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_24 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named.  Every weakly fair execution of the kernel program ends with
  each unscoped buffer holding the last boundary's contents: the fold of the host stretches and of the six
  regions' write-backs from the launch memory.  Read at the result's buffer this gives the result array as that
  fold's value there; read at the arguments it gives them unchanged.
-/
import proofs.«139484_j50294067036840_1_alg».proof.Proof.Gen.KernelIdeal.Frame

-- membership in a rectangle of production extents (`View.cover_of_tiled`): the elaborator's structural look
-- recurses once per coordinate of the long axes
set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the launch theorem's implicit arguments are found by unifying its conclusion with this one, which takes unfolding
-- plain definitions in a metavariable's type
set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v92) = W13 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v92 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.RunValue

end
-- ==== Proof.Spec.lean ====
/-
  The mathematics of the two-layer graph convolution, on the extended reals (the values a float denotes when
  every operation is exact).

  One layer takes the aggregated features `A` (one row per node, 128 columns), adds the bias row `b`, and
  normalises every column by its batch statistics over the 50000 nodes: with `v n = A n j + b j` the column's
  mean is `μ = (Σₙ v n) / N`, its variance is the mean of the squared deviations `(Σₙ (v n - μ)²) / N`, and the
  entry becomes `(v n - μ) · (var + ε)^(-1/2) · g j + be j`, then the parametric rectifier `x ↦ x` for `x ≥ 0`
  and `a · x` otherwise.  The second way of computing the variance, the mean of the squares minus the square
  of the mean, `(Σₙ (v n)²) / N - μ²`, gives the same number when every `v n` is a real number; on the extended
  reals the two may differ at an infinity, which is why realness is tracked.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- Nodes × features, features × features, one row of features, one scalar as a 1×1 array. -/
abbrev SNF : Shape := ⟨2, ![50000, 128]⟩
abbrev SFF : Shape := ⟨2, ![128, 128]⟩
abbrev SRow : Shape := ⟨2, ![1, 128]⟩
abbrev S11 : Shape := ⟨2, ![1, 1]⟩
abbrev SF : Shape := ⟨1, ![128]⟩
abbrev SOne : Shape := ⟨1, ![1]⟩

/-- An extended real that is a real number (neither infinity). -/
def IsReal (x : EReal) : Prop := ∃ r : ℝ, x = (r : EReal)

/-- The number of nodes, the variance's ε and zero, as the single-precision words the programs carry. -/
abbrev cN : EReal := Ideal.ofBits .f32 0x47435000#32
abbrev cEps : EReal := Ideal.ofBits .f32 0x3727C5AC#32
abbrev cZero : EReal := Ideal.ofBits .f32 0x00000000#32

/-- The dense projection: entry `(n, j)` of `x · w` is `Σₖ x (n, k) · w (k, j)`. -/
def mm (x : FVec Ideal SNF .f32) (w : FVec Ideal SFF .f32) : FVec Ideal SNF .f32 :=
  fun i => ∑ k : Fin 128, x (ix2 ⟨(i 0).val, idx2_lt0 i⟩ k) * w (ix2 k ⟨(i 1).val, idx2_lt1 i⟩)

/-- Column `j` of the aggregate plus the column's bias, as a function of the node. -/
def col (A : FVec Ideal SNF .f32) (b : EReal) (j : Fin 128) : Fin 50000 → EReal := fun n => A (ix2 n j) + b

/-- A column's mean: its sum divided by the number of nodes. -/
def muOf (v : Fin 50000 → EReal) : EReal := Ideal.div (∑ n, v n) cN
/-- A column's variance as the mean of the squared deviations from the mean. -/
def varDev (v : Fin 50000 → EReal) : EReal := Ideal.div (∑ n, (v n - muOf v) * (v n - muOf v)) cN
/-- A column's variance as the mean of the squares minus the square of the mean. -/
def varSq (v : Fin 50000 → EReal) : EReal := Ideal.div (∑ n, v n * v n) cN - muOf v * muOf v

/-- One entry's normalisation and rectifier, from the entry `A`, its column's bias, mean and inverse standard
    deviation, scale `g`, shift `be` and the rectifier's slope `a`. -/
def npElt (A b mean invstd g be a : EReal) : EReal :=
  Scalar.select (Ideal.cmp .oge ((A + b - mean) * invstd * g + be) cZero)
    ((A + b - mean) * invstd * g + be) (a * ((A + b - mean) * invstd * g + be))

/-- One layer after the aggregation, the variance taken as the mean of the squared deviations. -/
def layerDev (A : FVec Ideal SNF .f32) (b g be : Fin 128 → EReal) (a : EReal) : FVec Ideal SNF .f32 := fun i =>
  npElt (A i) (b ⟨(i 1).val, idx2_lt1 i⟩) (muOf (col A (b ⟨(i 1).val, idx2_lt1 i⟩) ⟨(i 1).val, idx2_lt1 i⟩))
    (Ideal.rsqrt (varDev (col A (b ⟨(i 1).val, idx2_lt1 i⟩) ⟨(i 1).val, idx2_lt1 i⟩) + cEps))
    (g ⟨(i 1).val, idx2_lt1 i⟩) (be ⟨(i 1).val, idx2_lt1 i⟩) a

/-- One layer after the aggregation, the variance taken as the mean of the squares minus the squared mean. -/
def layerSq (A : FVec Ideal SNF .f32) (b g be : Fin 128 → EReal) (a : EReal) : FVec Ideal SNF .f32 := fun i =>
  npElt (A i) (b ⟨(i 1).val, idx2_lt1 i⟩) (muOf (col A (b ⟨(i 1).val, idx2_lt1 i⟩) ⟨(i 1).val, idx2_lt1 i⟩))
    (Ideal.rsqrt (varSq (col A (b ⟨(i 1).val, idx2_lt1 i⟩) ⟨(i 1).val, idx2_lt1 i⟩) + cEps))
    (g ⟨(i 1).val, idx2_lt1 i⟩) (be ⟨(i 1).val, idx2_lt1 i⟩) a

end Cert.Gcn

end
-- ==== Proof.Graph.lean ====
/-
  The graph side of the layer, which both programs compute with the same host operations: from the edge list
  (two rows of 800000 node numbers) the sources and targets with one self-loop per node appended, every node's
  degree `deg` as a sum of ones over the edges that end in it, `dinv = deg^(-1/2)` where the degree is positive,
  the edge weight `nrm e = dinv (src e) · 1 · dinv (dst e)`, and the aggregation
  `agg h n = Σ_{e : dst e = n} h (src e) · nrm e` of a feature array `h` (a gather of rows, a scaling, a
  scatter-add into zeros).
-/
import proofs.«139484_j50294067036840_1_alg».proof.Proof.Gen.KernelIdeal
import proofs.«139484_j50294067036840_1_alg».proof.Proof.Spec

noncomputable section

namespace Cert.Gcn

open Idealize.ShloMosaic Cert.KernelIdeal Cert.KernelIdeal.Facts₀ Cert.KernelIdeal.Facts

/-- The edges' sources followed by every node once (the self-loops). -/
def srcA (ei : IVec S2x800000 32) : IVec S850000 32 :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

/-- The edges' targets followed by every node once. -/
def dstA (ei : IVec S2x800000 32) : IVec S850000 32 :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- Node numbers as a column of gather indices, a negative number counted from the end. -/
def wrapIdx (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Node numbers as a column of scatter indices. -/
def colIdx (v : IVec S850000 32) : IVec S850000x1 32 := broadcastInDim S850000x1 ![0] bcast_S850000_S850000x1_0 v

/-- A one per edge. -/
def ones : FVec Ideal S850000 .f32 := broadcastInDim S850000 ![] bcast_S_S850000 (constant S_ .f32 0x3F800000#32)

/-- Every node's degree: the ones of the edges ending in it, summed into zeros. -/
def deg (ei : IVec S2x800000 32) : FVec Ideal S50000 .f32 :=
  Host.scatterAdd scatter_S50000_S850000x1_S850000_n_0_0_1 (broadcastInDim S50000 ![] bcast_S_S50000 (constant S_ .f32 0x00000000#32)) (colIdx (dstA ei)) ones

/-- `deg^(-1/2)` where the degree is positive, else zero. -/
def dinv (ei : IVec S2x800000 32) : FVec Ideal S50000 .f32 :=
  select (cmpf .ogt (deg ei) (broadcastInDim S50000 ![] bcast_S_S50000 (constant S_ .f32 0x00000000#32)))
    (Host.rsqrt (maximumf (deg ei) (broadcastInDim S50000 ![] bcast_S_S50000 (constant S_ .f32 0x3F800000#32))))
    (broadcastInDim S50000 ![] bcast_S_S50000 (id (constant S_ .f32 0x00000000#32)))

/-- The weight of every edge. -/
def nrm (ei : IVec S2x800000 32) : FVec Ideal S850000 .f32 :=
  mulf (mulf (Host.gather gather_S50000_S850000x1_S850000_n_0_n_n_0_1_1 (dinv ei) (wrapIdx (srcA ei))) ones)
    (Host.gather gather_S50000_S850000x1_S850000_n_0_n_n_0_1_1 (dinv ei) (wrapIdx (dstA ei)))

/-- The aggregation of a feature array over the weighted edges. -/
def agg (ei : IVec S2x800000 32) (h : FVec Ideal S50000x128 .f32) : FVec Ideal S50000x128 .f32 :=
  Host.scatterAdd scatter_S50000x128_S850000x1_S850000x128_1_0_0_1
    (broadcastInDim S50000x128 ![] bcast_S_S50000x128 (constant S_ .f32 0x00000000#32)) (colIdx (dstA ei))
    (mulf (Host.gather gather_S50000x128_S850000x1_S850000x128_1_0_n_n_0_1_1128 h (wrapIdx (srcA ei)))
      (broadcastInDim S850000x128 ![0, 1] bcast_S850000x1_S850000x128_0_1 (broadcastInDim S850000x1 ![0] bcast_S850000_S850000x1_0 (nrm ei))))

/-- A vector of 128 numbers as a function of the column. -/
def vecOf (x : FVec Ideal S128 .f32) : Fin 128 → EReal := fun j => x (ValueIdx.ix1 j)
/-- The one number of a one-element vector. -/
def scalOf (x : FVec Ideal S1 .f32) : EReal := x (ValueIdx.ix1 0)

/-- The whole network on the extended reals, the variances taken as means of squared deviations: the dense
    projection, the aggregation, the normalisation and rectifier, twice. -/
def net (x : FVec Ideal S50000x128 .f32) (ei : IVec S2x800000 32) (w1 : FVec Ideal S128x128 .f32) (b1 g1 be1 : FVec Ideal S128 .f32) (a1 : FVec Ideal S1 .f32)
    (w2 : FVec Ideal S128x128 .f32) (b2 g2 be2 : FVec Ideal S128 .f32) (a2 : FVec Ideal S1 .f32) : FVec Ideal S50000x128 .f32 :=
  layerDev (agg ei (mm (layerDev (agg ei (mm x w1)) (vecOf b1) (vecOf g1) (vecOf be1) (scalOf a1)) w2)) (vecOf b2) (vecOf g2) (vecOf be2) (scalOf a2)

end Cert.Gcn

end
-- ==== Proof.KernelKeep.lean ====
/-
  Read-backs through the kernel program's run. The buffer contents at each boundary of the run are a fold from the
  launch memory through the host stretches and the regions. An argument's buffer is written by no host operation
  and by no region (a region reads it through an input window or not at all), so at every boundary it holds what
  was launched. The edge sources, edge targets and edge weights are written by the first host stretches and by
  nothing after them, so they hold the graph chain's values of the launched edge list. An input window's array
  leaves its region as it entered.
-/
import proofs.«139484_j50294067036840_1_alg».proof.Proof.Gen.KernelIdeal.Frame
import proofs.«139484_j50294067036840_1_alg».proof.Proof.Graph

set_option maxRecDepth 16384

noncomputable section

namespace Cert.KernelIdeal.KV

section GraphWords
open Idealize.ShloMosaic Cert.KernelIdeal Cert.KernelIdeal.Facts₀ Cert.KernelIdeal.Facts

/-- Where the degree is positive. -/
def degPos (ei : IVec S2x800000 32) : IVec S50000 1 :=
  cmpf .ogt (Cert.Gcn.deg ei) (broadcastInDim S50000 ![] bcast_S_S50000 (constant S_ .f32 0x00000000#32))

/-- The inverse square root of the larger of the degree and one. -/
def degRsqrt (ei : IVec S2x800000 32) : FVec Ideal S50000 .f32 :=
  Host.rsqrt (maximumf (Cert.Gcn.deg ei) (broadcastInDim S50000 ![] bcast_S_S50000 (constant S_ .f32 0x3F800000#32)))

/-- Zero at every node. -/
def zeroN : FVec Ideal S50000 .f32 := broadcastInDim S50000 ![] bcast_S_S50000 (id (constant S_ .f32 0x00000000#32))

/-- `dinv` is the selection between the inverse square root and zero by the comparison. -/
theorem dinv_eq (ei : IVec S2x800000 32) : Cert.Gcn.dinv ei = select (degPos ei) (degRsqrt ei) zeroN := rfl

end GraphWords

end Cert.KernelIdeal.KV

namespace Cert.KernelIdeal.KV

open Cert.KernelIdeal Cert.KernelIdeal.Gen Cert.KernelIdeal.Facts₀ Cert.KernelIdeal.Facts Idealize.ShloMosaic.StableHlo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The arguments, back to the launch memory -/

/-- Argument 0 at boundary 3 is as launched: nothing before that boundary writes it. -/
theorem keep3_a0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 2 at boundary 3 is as launched: nothing before that boundary writes it. -/
theorem keep3_a2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 at boundary 4 is as launched: nothing before that boundary writes it. -/
theorem keep4_a3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 3 at boundary 6 is as launched: nothing before that boundary writes it. -/
theorem keep6_a3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := keep4_a3 m ρ c

/-- Argument 4 at boundary 6 is as launched: nothing before that boundary writes it. -/
theorem keep6_a4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 at boundary 6 is as launched: nothing before that boundary writes it. -/
theorem keep6_a5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Argument 6 at boundary 6 is as launched: nothing before that boundary writes it. -/
theorem keep6_a6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Argument 7 at boundary 8 is as launched: nothing before that boundary writes it. -/
theorem keep8_a7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Argument 8 at boundary 9 is as launched: nothing before that boundary writes it. -/
theorem keep9_a8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Argument 8 at boundary 11 is as launched: nothing before that boundary writes it. -/
theorem keep11_a8 (c : Dev nD) : W11 m ρ c (Proc.devRef .tc main_arg8) = m ((c : Thread nD τ).loc main_arg8) :=
  calc W11 m ρ c (Proc.devRef .tc main_arg8)
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := keep9_a8 m ρ c

/-- Argument 9 at boundary 11 is as launched: nothing before that boundary writes it. -/
theorem keep11_a9 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- Argument 10 at boundary 11 is as launched: nothing before that boundary writes it. -/
theorem keep11_a10 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- Argument 11 at boundary 11 is as launched: nothing before that boundary writes it. -/
theorem keep11_a11 (c : Dev nD) : W11 m ρ c (Proc.devRef .tc main_arg11) = m ((c : Thread nD τ).loc main_arg11) :=
  calc W11 m ρ c (Proc.devRef .tc main_arg11)
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-! ## The graph buffers: written by the first host stretches, by nothing after them -/

/-- Region 0 does not write this buffer. -/
theorem keep4_v5 (c : Dev nD) : W4 m ρ c (Proc.devRef .tc main_v5) = W3 m ρ c (Proc.devRef .tc main_v5) :=
  W4_of_ne m ρ c main_v5 (by decide)

/-- Nothing between region 0's entry and region 3's exit writes this buffer. -/
theorem keep9_v5 (c : Dev nD) : W9 m ρ c (Proc.devRef .tc main_v5) = W3 m ρ c (Proc.devRef .tc main_v5) :=
  calc W9 m ρ c (Proc.devRef .tc main_v5)
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := keep4_v5 m ρ c

/-- Region 0 does not write this buffer. -/
theorem keep4_v6 (c : Dev nD) : W4 m ρ c (Proc.devRef .tc main_v6) = W3 m ρ c (Proc.devRef .tc main_v6) :=
  W4_of_ne m ρ c main_v6 (by decide)

/-- Nothing between region 0's entry and region 3's exit writes this buffer. -/
theorem keep9_v6 (c : Dev nD) : W9 m ρ c (Proc.devRef .tc main_v6) = W3 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := keep4_v6 m ρ c

/-- Region 0 does not write this buffer. -/
theorem keep4_v32 (c : Dev nD) : W4 m ρ c (Proc.devRef .tc main_v32) = W3 m ρ c (Proc.devRef .tc main_v32) :=
  W4_of_ne m ρ c main_v32 (by decide)

/-- Nothing between region 0's entry and region 3's exit writes this buffer. -/
theorem keep9_v32 (c : Dev nD) : W9 m ρ c (Proc.devRef .tc main_v32) = W3 m ρ c (Proc.devRef .tc main_v32) :=
  calc W9 m ρ c (Proc.devRef .tc main_v32)
    _ = W8 m ρ c (Proc.devRef .tc main_v32) := W9_of_ne m ρ c main_v32 (by decide)
    _ = W7 m ρ c (Proc.devRef .tc main_v32) := W8_of_ne m ρ c main_v32 (by decide)
    _ = W6 m ρ c (Proc.devRef .tc main_v32) := StableHlo.after_of_forall_not_mem (b := Proc.devRef .tc main_v32) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v32) := W6_of_ne m ρ c main_v32 (by decide)
    _ = W4 m ρ c (Proc.devRef .tc main_v32) := StableHlo.after_of_forall_not_mem (b := Proc.devRef .tc main_v32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v32) := keep4_v32 m ρ c

/-- At region 0's entry this buffer holds the graph chain's `srcA` of the launched edge list. -/
theorem w3_v5 (c : Dev nD) : W3 m ρ c (Proc.devRef .tc main_v5) = Cert.Gcn.srcA (m ((c : Thread nD τ).loc main_arg1)) := by
  show StableHlo.after hostOps0_2 (StableHlo.after hostOps0_1 (StableHlo.after hostOps0 (W0 m ρ c))) (Proc.devRef .tc main_v5) = _
  after_results
  rfl

/-- At region 0's entry this buffer holds the graph chain's `dstA` of the launched edge list. -/
theorem w3_v6 (c : Dev nD) : W3 m ρ c (Proc.devRef .tc main_v6) = Cert.Gcn.dstA (m ((c : Thread nD τ).loc main_arg1)) := by
  show StableHlo.after hostOps0_2 (StableHlo.after hostOps0_1 (StableHlo.after hostOps0 (W0 m ρ c))) (Proc.devRef .tc main_v6) = _
  after_results
  rfl

/-! ### The second host stretch (the selection's three operations), on an arbitrary valuation -/

/-- The stretch is its first two operations, then the selection. -/
theorem where_split (V : Valuation τ sig (Elt Ideal)) :
    StableHlo.after hostOps0_1 V = StableHlo.after [StableHlo.TRef.ternary (.of main_v12 : StableHlo.TRef sig ⟨S50000, .i1⟩) (.of main_v15 : StableHlo.TRef sig ⟨S50000, .f32⟩) (.of main_call0_v1 : StableHlo.TRef sig ⟨S50000, .f32⟩) (.of main_v16 : StableHlo.TRef sig ⟨S50000, .f32⟩) select]
      (StableHlo.after [StableHlo.TRef.unary (.of main_cst_3 : StableHlo.TRef sig ⟨S_, .f32⟩) (.of main_call0_v0 : StableHlo.TRef sig ⟨S_, .f32⟩) id,
      StableHlo.TRef.unary (.of main_call0_v0 : StableHlo.TRef sig ⟨S_, .f32⟩) (.of main_call0_v1 : StableHlo.TRef sig ⟨S50000, .f32⟩) (broadcastInDim S50000 ![] Cert.KernelIdeal.Gen.bcast_S_S50000)] V) := by
  simp only [after_cons, after_nil]

/-- The first two operations leave the comparison's buffer alone. -/
theorem where_keep12 (V : Valuation τ sig (Elt Ideal)) :
    StableHlo.after [StableHlo.TRef.unary (.of main_cst_3 : StableHlo.TRef sig ⟨S_, .f32⟩) (.of main_call0_v0 : StableHlo.TRef sig ⟨S_, .f32⟩) id,
      StableHlo.TRef.unary (.of main_call0_v0 : StableHlo.TRef sig ⟨S_, .f32⟩) (.of main_call0_v1 : StableHlo.TRef sig ⟨S50000, .f32⟩) (broadcastInDim S50000 ![] Cert.KernelIdeal.Gen.bcast_S_S50000)] V (Proc.devRef .tc main_v12) = V (Proc.devRef .tc main_v12) := by
  after_results

/-- The first two operations leave the inverse square roots' buffer alone. -/
theorem where_keep15 (V : Valuation τ sig (Elt Ideal)) :
    StableHlo.after [StableHlo.TRef.unary (.of main_cst_3 : StableHlo.TRef sig ⟨S_, .f32⟩) (.of main_call0_v0 : StableHlo.TRef sig ⟨S_, .f32⟩) id,
      StableHlo.TRef.unary (.of main_call0_v0 : StableHlo.TRef sig ⟨S_, .f32⟩) (.of main_call0_v1 : StableHlo.TRef sig ⟨S50000, .f32⟩) (broadcastInDim S50000 ![] Cert.KernelIdeal.Gen.bcast_S_S50000)] V (Proc.devRef .tc main_v15) = V (Proc.devRef .tc main_v15) := by
  after_results

/-- The first two operations spread the scalar zero over the nodes. -/
theorem where_zero (V : Valuation τ sig (Elt Ideal))
    (hc3 : V (Proc.devRef .tc main_cst_3) = (constant (F := Ideal) S_ .f32 0x00000000#32 : FVec Ideal S_ .f32)) :
    StableHlo.after [StableHlo.TRef.unary (.of main_cst_3 : StableHlo.TRef sig ⟨S_, .f32⟩) (.of main_call0_v0 : StableHlo.TRef sig ⟨S_, .f32⟩) id,
      StableHlo.TRef.unary (.of main_call0_v0 : StableHlo.TRef sig ⟨S_, .f32⟩) (.of main_call0_v1 : StableHlo.TRef sig ⟨S50000, .f32⟩) (broadcastInDim S50000 ![] Cert.KernelIdeal.Gen.bcast_S_S50000)] V (Proc.devRef .tc main_call0_v1) = zeroN := by
  after_results
  rw [hc3]
  rfl

/-- The selection, on arrays that are variables. -/
theorem where_select (V : Valuation τ sig (Elt Ideal)) (C : IVec S50000 1) (A Z : FVec Ideal S50000 .f32)
    (h12 : V (Proc.devRef .tc main_v12) = C) (h15 : V (Proc.devRef .tc main_v15) = A)
    (hc1 : V (Proc.devRef .tc main_call0_v1) = Z) :
    StableHlo.after [StableHlo.TRef.ternary (.of main_v12 : StableHlo.TRef sig ⟨S50000, .i1⟩) (.of main_v15 : StableHlo.TRef sig ⟨S50000, .f32⟩) (.of main_call0_v1 : StableHlo.TRef sig ⟨S50000, .f32⟩) (.of main_v16 : StableHlo.TRef sig ⟨S50000, .f32⟩) select] V (Proc.devRef .tc main_v16) = select C A Z := by
  after_results
  rw [h12, h15, hc1]
  rfl

/-! ### The edge weights, stretch by stretch -/

/-- After the first host stretch this buffer holds every node's degree. -/
theorem w1_v10 (c : Dev nD) : W1 m ρ c (Proc.devRef .tc main_v10) = Cert.Gcn.deg (m ((c : Thread nD τ).loc main_arg1)) := by
  show StableHlo.after hostOps0 (W0 m ρ c) (Proc.devRef .tc main_v10) = _
  after_results
  rfl

/-- After the first host stretch this buffer holds the comparison of the degrees with zero. -/
theorem w1_v12 (c : Dev nD) : W1 m ρ c (Proc.devRef .tc main_v12) = degPos (m ((c : Thread nD τ).loc main_arg1)) := by
  have e : W1 m ρ c (Proc.devRef .tc main_v12) = (cmpf .ogt (Cert.Gcn.deg (m ((c : Thread nD τ).loc main_arg1))) (broadcastInDim S50000 ![] Cert.KernelIdeal.Gen.bcast_S_S50000 (constant (F := Ideal) S_ .f32 0x00000000#32)) : IVec S50000 1) := by
    show StableHlo.after hostOps0 (W0 m ρ c) (Proc.devRef .tc main_v12) = _
    after_results
    rfl
  exact e.trans rfl

/-- After the first host stretch this buffer holds the inverse square roots of the degrees raised to at least one. -/
theorem w1_v15 (c : Dev nD) : W1 m ρ c (Proc.devRef .tc main_v15) = degRsqrt (m ((c : Thread nD τ).loc main_arg1)) := by
  have e : W1 m ρ c (Proc.devRef .tc main_v15) = (Host.rsqrt (maximumf (Cert.Gcn.deg (m ((c : Thread nD τ).loc main_arg1))) (broadcastInDim S50000 ![] Cert.KernelIdeal.Gen.bcast_S_S50000 (constant (F := Ideal) S_ .f32 0x3F800000#32))) : FVec Ideal S50000 .f32) := by
    show StableHlo.after hostOps0 (W0 m ρ c) (Proc.devRef .tc main_v15) = _
    after_results
    rfl
  exact e.trans rfl

/-- After the first host stretch this buffer holds the scalar zero. -/
theorem w1_cst3 (c : Dev nD) : W1 m ρ c (Proc.devRef .tc main_cst_3) = (constant (F := Ideal) S_ .f32 0x00000000#32 : FVec Ideal S_ .f32) := by
  show StableHlo.after hostOps0 (W0 m ρ c) (Proc.devRef .tc main_cst_3) = _
  after_results

/-- After the second host stretch this buffer holds the graph chain's `dinv` of the launched edge list: the
    selection between the inverse square roots and zero by the comparison. -/
theorem w2_v16 (c : Dev nD) : W2 m ρ c (Proc.devRef .tc main_v16) = Cert.Gcn.dinv (m ((c : Thread nD τ).loc main_arg1)) := by
  show StableHlo.after hostOps0_1 (W1 m ρ c) (Proc.devRef .tc main_v16) = _
  rw [where_split, dinv_eq]
  exact where_select _ _ _ _ ((where_keep12 _).trans (w1_v12 m ρ c)) ((where_keep15 _).trans (w1_v15 m ρ c))
    (where_zero _ (w1_cst3 m ρ c))

/-- After the second host stretch this buffer holds a one per edge. -/
theorem w2_v7 (c : Dev nD) : W2 m ρ c (Proc.devRef .tc main_v7) = Cert.Gcn.ones := by
  show StableHlo.after hostOps0_1 (StableHlo.after hostOps0 (W0 m ρ c)) (Proc.devRef .tc main_v7) = _
  after_results
  rfl

/-- After the second host stretch this buffer holds the edge sources. -/
theorem w2_v5 (c : Dev nD) : W2 m ρ c (Proc.devRef .tc main_v5) = Cert.Gcn.srcA (m ((c : Thread nD τ).loc main_arg1)) := by
  show StableHlo.after hostOps0_1 (StableHlo.after hostOps0 (W0 m ρ c)) (Proc.devRef .tc main_v5) = _
  after_results
  rfl

/-- After the second host stretch this buffer holds the edge targets. -/
theorem w2_v6 (c : Dev nD) : W2 m ρ c (Proc.devRef .tc main_v6) = Cert.Gcn.dstA (m ((c : Thread nD τ).loc main_arg1)) := by
  show StableHlo.after hostOps0_1 (StableHlo.after hostOps0 (W0 m ρ c)) (Proc.devRef .tc main_v6) = _
  after_results
  rfl

set_option maxHeartbeats 2000000 in
/-- At region 0's entry this buffer holds the graph chain's `nrm` of the launched edge list: the third host
    stretch's operations applied to `dinv`, the ones, the sources and the targets. -/
theorem w3_v32 (c : Dev nD) : W3 m ρ c (Proc.devRef .tc main_v32) = Cert.Gcn.nrm (m ((c : Thread nD τ).loc main_arg1)) := by
  have h16 : W2 m ρ c (Proc.devRef .tc main_v16) = _ := w2_v16 m ρ c
  have h7 : W2 m ρ c (Proc.devRef .tc main_v7) = _ := w2_v7 m ρ c
  have h5 : W2 m ρ c (Proc.devRef .tc main_v5) = _ := w2_v5 m ρ c
  have h6 : W2 m ρ c (Proc.devRef .tc main_v6) = _ := w2_v6 m ρ c
  show StableHlo.after hostOps0_2 (W2 m ρ c) (Proc.devRef .tc main_v32) = _
  generalize W2 m ρ c = V2 at h16 h7 h5 h6 ⊢
  after_results
  rw [h16, h7, h5, h6]
  rfl

/-! ## An input window's array leaves its region as it entered -/

/-- Region 1 reads this array through an input window and leaves it as it was. -/
theorem keep6_v46 (c : Dev nD) : W6 m ρ c (Proc.devRef .tc main_v46) = W5 m ρ c (Proc.devRef .tc main_v46) :=
  (W6_arr m ρ c 0).trans (((dat1 (V5 m ρ) c).arrAt_in 0 rfl _).trans (A_eq1 (V5 m ρ) c 0))

/-- The host stretch after region 1 does not write it either. -/
theorem keep7_v46 (c : Dev nD) : W7 m ρ c (Proc.devRef .tc main_v46) = W5 m ρ c (Proc.devRef .tc main_v46) :=
  calc W7 m ρ c (Proc.devRef .tc main_v46)
    _ = W6 m ρ c (Proc.devRef .tc main_v46) := StableHlo.after_of_forall_not_mem (b := Proc.devRef .tc main_v46) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v46) := keep6_v46 m ρ c

/-- Region 4 reads this array through an input window and leaves it as it was. -/
theorem keep11_v76 (c : Dev nD) : W11 m ρ c (Proc.devRef .tc main_v76) = W10 m ρ c (Proc.devRef .tc main_v76) :=
  (W11_arr m ρ c 0).trans (((dat4 (V10 m ρ) c).arrAt_in 0 rfl _).trans (A_eq4 (V10 m ρ) c 0))

/-- The host stretch after region 4 does not write it either. -/
theorem keep12_v76 (c : Dev nD) : W12 m ρ c (Proc.devRef .tc main_v76) = W10 m ρ c (Proc.devRef .tc main_v76) :=
  calc W12 m ρ c (Proc.devRef .tc main_v76)
    _ = W11 m ρ c (Proc.devRef .tc main_v76) := StableHlo.after_of_forall_not_mem (b := Proc.devRef .tc main_v76) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v76) := keep11_v76 m ρ c

end Cert.KernelIdeal.KV

end
-- ==== Proof.RegionMM.lean ====
/-
  The two dense projections of the network, each computed block by block over ten blocks of 5000 rows: every
  block of the output is the product of the same rows of the left array with the whole 128 × 128 weight array,
  accumulated from zero, the roundings of the operands to the narrower format being the identity on the extended
  reals.  Entry `(n, j)` of a block's product is `Σₖ x (n, k) · w (k, j)` with `n` the row inside the block; row
  `r` of the output lies in block `r / 5000`, at row `r % 5000` of it, so the ten blocks together are the product
  `mm x w` of the whole arrays.
-/
import proofs.«139484_j50294067036840_1_alg».proof.Proof.Gen.KernelIdeal.Frame
import proofs.«139484_j50294067036840_1_alg».proof.Proof.Spec
import Idealize.ShloMosaic.Lib.Pipeline.Value
import Idealize.ShloMosaic.Lib.ValueIdx
import Idealize.ShloMosaic.PureOps.Ideal.Laws

noncomputable section

namespace Cert.Gcn

open Cert.KernelIdeal Cert.KernelIdeal.Gen Idealize.ShloMosaic Idealize.ShloMosaic.TcCoe Idealize.SL.Sem
open Idealize.ShloMosaic.ValueIdx
open Idealize.ShloMosaic.Pipeline (Dat)

/-! ## One block's product at an entry -/

/-- The contraction of a 5000 × 128 block with the 128 × 128 weights: rows times columns over one shared axis. -/
abbrev dotBlock := dot_S5000x128_S128x128_S5000x128_1_0_0_1_n_n

/-- The left operand's row is the output's row. -/
theorem dotBlock_lhs_0 (i : S5000x128.Idx) (q : dotBlock.contr.Idx) : (dotBlock.lhsIdx i q 0).val = (i 0).val := by
  unfold DotDims.lhsIdx
  rw [dif_neg (show ¬(0 : Fin S5000x128.rank) ∈ dotBlock.lhsBatch by decide), dif_pos (show (0 : Fin S5000x128.rank) ∈ dotBlock.lhsNonContracting by decide)]
  rfl
/-- The left operand's column is the contraction index. -/
theorem dotBlock_lhs_1 (i : S5000x128.Idx) (q : dotBlock.contr.Idx) : (dotBlock.lhsIdx i q 1).val = (q ⟨0, by decide⟩).val :=
  dotBlock.lhsIdx_val_of_single rfl i q
/-- The right operand's row is the contraction index. -/
theorem dotBlock_rhs_0 (i : S5000x128.Idx) (q : dotBlock.contr.Idx) : (dotBlock.rhsIdx i q 0).val = (q ⟨0, by decide⟩).val :=
  dotBlock.rhsIdx_val_of_single rfl i q
/-- The right operand's column is the output's column. -/
theorem dotBlock_rhs_1 (i : S5000x128.Idx) (q : dotBlock.contr.Idx) : (dotBlock.rhsIdx i q 1).val = (i 1).val := by
  unfold DotDims.rhsIdx
  rw [dif_neg (show ¬(1 : Fin S128x128.rank) ∈ dotBlock.rhsBatch by decide), dif_pos (show (1 : Fin S128x128.rank) ∈ dotBlock.rhsNonContracting by decide)]
  rfl

/-- The product of a block of 5000 rows with the weights, accumulated from zero, entry by entry:
    `Σₖ x (p, k) · w (k, q)`, the sum over the contraction index re-indexed by its one coordinate. -/
theorem mmBlock_apply (x : FVec Ideal S5000x128 .bf16) (w : FVec Ideal S128x128 .bf16) (p : Fin 5000) (q : Fin 128) :
    FloatOps.matmul dotBlock none x w (constant S5000x128 .f32 0x00000000#32) (ix2 p q) = ∑ k : Fin 128, x (ix2 p k) * w (ix2 k q) := by
  refine (Ideal.matmul_constant_zero_apply dotBlock none _ _ (ix2 p q)).trans ?_
  rw [← Equiv.sum_comp (ValueIdx.contrEquiv1 dotBlock 128 rfl rfl).symm]
  refine Finset.sum_congr rfl fun k _ => ?_
  have hk := ValueIdx.contrEquiv1_symm_val dotBlock 128 rfl rfl k
  have el : dotBlock.lhsIdx (ix2 p q) ((ValueIdx.contrEquiv1 dotBlock 128 rfl rfl).symm k) = ix2 p k := funext fun a => Fin.ext (by
    match a with
    | ⟨0, _⟩ => exact dotBlock_lhs_0 _ _
    | ⟨1, _⟩ => exact (dotBlock_lhs_1 _ _).trans hk)
  have er : dotBlock.rhsIdx (ix2 p q) ((ValueIdx.contrEquiv1 dotBlock 128 rfl rfl).symm k) = ix2 k q := funext fun a => Fin.ext (by
    match a with
    | ⟨0, _⟩ => exact (dotBlock_rhs_0 _ _).trans hk
    | ⟨1, _⟩ => exact dotBlock_rhs_1 _ _)
  rw [el, er]

/-- What the first projection's body stores, at an entry: the block's product. -/
theorem pay0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact mmBlock_apply _ _ p q

/-- What the second projection's body stores, at an entry: the same product (its extra reshape to the same shape
    is the identity). -/
theorem pay3_apply (x : Vec Ideal S5000x128 .f32) (w : Vec Ideal S128x128 .f32) (p : Fin 5000) (q : Fin 128) :
    k3_pay1 (F := Ideal) x w (ix2 p q) = ∑ k : Fin 128, x (ix2 p k) * w (ix2 k q) := by
  unfold k3_pay1
  refine (mmBlock_apply _ _ p q).trans ?_
  simp only [shapeCast_self, truncf_apply]

/-- One entry of a block's product is the entry of the whole product `mm A W` at the row and column where the
    block's entry sits, when the block's rows are those rows of `A` and the weights are read whole. -/
theorem mm_entry (P : Vec Ideal S5000x128 .f32 → Vec Ideal S128x128 .f32 → FVec Ideal S5000x128 .f32)
    (hP : ∀ x w (p : Fin 5000) (q : Fin 128), P x w (ix2 p q) = ∑ k : Fin 128, x (ix2 p k) * w (ix2 k q))
    (x : Vec Ideal S5000x128 .f32) (w : Vec Ideal S128x128 .f32) (A : FVec Ideal SNF .f32) (W : FVec Ideal SFF .f32)
    (j : S5000x128.Idx) (i : S50000x128.Idx)
    (hx : ∀ k : Fin 128, x (ix2 ⟨(j 0).val, idx2_lt0 j⟩ k) = A (ix2 ⟨(i 0).val, idx2_lt0 i⟩ k))
    (hw : ∀ k : Fin 128, w (ix2 k ⟨(j 1).val, idx2_lt1 j⟩) = W (ix2 k ⟨(i 1).val, idx2_lt1 i⟩)) :
    P x w j = mm A W i := by
  obtain ⟨p, q, rfl⟩ : ∃ (p : Fin 5000) (q : Fin 128), j = ix2 p q := ⟨j 0, j 1, eq_ix2 j⟩
  refine (hP x w p q).trans ?_
  unfold mm
  exact Finset.sum_congr rfl fun k _ => by rw [← hx k, ← hw k]

theorem zero2 : (![0, 0] : Fin 2 → Nat) = fun _ => 0 := funext fun a => by fin_cases a <;> rfl

variable (V : (c : Dev nD) → (b : Ref sig .tc) → Buf (Elt Ideal) ((c : Thread nD τ).loc b))

/-! ## Region 0: from the ten blocks to the whole product -/

/-- Where the blocks sit, decided over the ten grid points: the left array's and the output's block at point `t`
    is the `t`-th block of 5000 rows (all 128 columns); the weights' block is the whole array at every point. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them: the body's
    store covers its whole buffer with the product of the two loaded blocks, and entry `(p, q)` of the left block
    is entry `(5000 t + p, q)` of the left array. -/
theorem flushed0_eq (c : Dev nD) (t : Fin cfg0.N) :
    (dat0 (F := Ideal) V c).flushed 2 t = ((cfg0.win 2).blk t).view.read (Elt Ideal) (mm (V c (Pipeline.arrRef spec0 0)) (V c (Pipeline.arrRef spec0 1))) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x128) zero2]
  obtain ⟨e0, e1, e2, e3, e4, e5⟩ := blockIdx0 t
  funext j
  show k0_pay1 (F := Ideal) (iblk0 V c 0 t) (iblk0 V c 1 t) j = mm (V c (Pipeline.arrRef spec0 0)) (V c (Pipeline.arrRef spec0 1)) (((cfg0.win 2).blk t).view.emb j)
  refine mm_entry (k0_pay1 (F := Ideal)) pay0_apply _ _ _ _ j _ (fun k => ?_) (fun k => ?_)
  · show V c (Pipeline.arrRef spec0 0) (((cfg0.win 0).blk t).view.emb (ix2 ⟨(j 0).val, idx2_lt0 j⟩ k)) = _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c (Pipeline.arrRef spec0 1) (((cfg0.win 1).blk t).view.emb (ix2 k ⟨(j 1).val, idx2_lt1 j⟩)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An entry of the output lies in point `t`'s block iff each coordinate lies in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Every entry of the output is written: row `r` by the point `r / 5000`. -/
theorem cover0 (i : S50000x128.Idx) : ∃ t : Fin cfg0.N, (cfg0.win 2).flush t = true ∧ i ∈ ((cfg0.win 2).blk t).view.set := by
  have hi0 : (i 0).val < 50000 := idx2_lt0 i
  have hi1 : (i 1).val < 128 := idx2_lt1 i
  have hN : grid0.N = 10 := N_0
  obtain ⟨t, ht⟩ : ∃ t : Fin cfg0.N, t.val = (i 0).val / 5000 := ⟨⟨(i 0).val / 5000, by show _ < grid0.N; rw [hN]; omega⟩, rfl⟩
  obtain ⟨e0, e1, e2, e3, e4, e5⟩ := blockIdx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the whole grid is the product of the two input arrays as the region finds them. -/
theorem arrAt0 (c : Dev nD) :
    (dat0 (F := Ideal) V c).arrAt 2 cfg0.N = mm (V c (Pipeline.arrRef spec0 0)) (V c (Pipeline.arrRef spec0 1)) :=
  (dat0 (F := Ideal) V c).arrAt_eq_of_cover 2 _ (fun t _ => flushed0_eq V c t) (cover0)

/-! ## Region 3: from the ten blocks to the whole product -/

/-- Where the blocks sit, decided over the ten grid points: the left array's and the output's block at point `t`
    is the `t`-th block of 5000 rows (all 128 columns); the weights' block is the whole array at every point. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the two arrays as the region finds them: the body's
    store covers its whole buffer with the product of the two loaded blocks, and entry `(p, q)` of the left block
    is entry `(5000 t + p, q)` of the left array. -/
theorem flushed3_eq (c : Dev nD) (t : Fin cfg3.N) :
    (dat3 (F := Ideal) V c).flushed 2 t = ((cfg3.win 2).blk t).view.read (Elt Ideal) (mm (V c (Pipeline.arrRef spec3 0)) (V c (Pipeline.arrRef spec3 1))) := by
  show (cfg3.win 2).cut (grid3.coords t) ((dat3 V c).after 2 t) = _
  rw [after3_2]
  unfold out3_2
  rw [View.canon_unit_zero zero2]
  simp only [View.ld_unit_zero (S := S5000x128) zero2, View.ld_unit_zero (S := S128x128) zero2]
  obtain ⟨e0, e1, e2, e3, e4, e5⟩ := blockIdx3 t
  funext j
  show k3_pay1 (F := Ideal) (iblk3 V c 0 t) (iblk3 V c 1 t) j = mm (V c (Pipeline.arrRef spec3 0)) (V c (Pipeline.arrRef spec3 1)) (((cfg3.win 2).blk t).view.emb j)
  refine mm_entry (k3_pay1 (F := Ideal)) pay3_apply _ _ _ _ j _ (fun k => ?_) (fun k => ?_)
  · show V c (Pipeline.arrRef spec3 0) (((cfg3.win 0).blk t).view.emb (ix2 ⟨(j 0).val, idx2_lt0 j⟩ k)) = _
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  · show V c (Pipeline.arrRef spec3 1) (((cfg3.win 1).blk t).view.emb (ix2 k ⟨(j 1).val, idx2_lt1 j⟩)) = _
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega

/-- An entry of the output lies in point `t`'s block iff each coordinate lies in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Every entry of the output is written: row `r` by the point `r / 5000`. -/
theorem cover3 (i : S50000x128.Idx) : ∃ t : Fin cfg3.N, (cfg3.win 2).flush t = true ∧ i ∈ ((cfg3.win 2).blk t).view.set := by
  have hi0 : (i 0).val < 50000 := idx2_lt0 i
  have hi1 : (i 1).val < 128 := idx2_lt1 i
  have hN : grid3.N = 10 := N_3
  obtain ⟨t, ht⟩ : ∃ t : Fin cfg3.N, t.val = (i 0).val / 5000 := ⟨⟨(i 0).val / 5000, by show _ < grid3.N; rw [hN]; omega⟩, rfl⟩
  obtain ⟨e0, e1, e2, e3, e4, e5⟩ := blockIdx3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the whole grid is the product of the two input arrays as the region finds them. -/
theorem arrAt3 (c : Dev nD) :
    (dat3 (F := Ideal) V c).arrAt 2 cfg3.N = mm (V c (Pipeline.arrRef spec3 0)) (V c (Pipeline.arrRef spec3 1)) :=
  (dat3 (F := Ideal) V c).arrAt_eq_of_cover 2 _ (fun t _ => flushed3_eq V c t) (cover3)

end Cert.Gcn

end
-- ==== Proof.RegionStats.lean ====
/-
  The two batch-statistics passes of the network.  Each runs over a grid of ten points.  Point `t` is handed rows
  `5000 t … 5000 t + 4999` of the aggregate `A` (one row per node, 128 columns) and the bias row `b`, and adds into two
  resident rows of 128 numbers the tile's column sums `Σ_r (A (5000 t + r, j) + b j)` and the column sums of the
  squares of the same terms; the first point first sets both rows to zero, and each row is written to its array once,
  after the last point.

  Read on the extended reals.  What a point stores is the old row plus the tile's sum (the reduction over the tile's
  rows is a sum over the 5000 row numbers).  By induction on the point, after point `n` a row holds in column `j` the
  sum of the terms of the rows below `5000 (n + 1)`, written as a sum over a range of naturals so that one more tile
  appends one more stretch of the range.  After the last point that range is all 50000 nodes.  Addition on the
  extended reals is commutative and associative and `0 + x = x`, so nothing here needs a term to be finite.

  The second pass is the first with other arrays: its lemmas are those of the first, word for word.
-/
import proofs.«139484_j50294067036840_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.Gcn

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)

/-! ## Two facts both passes use -/

/-- The zero offsets of a whole-buffer access, as the constant function. -/
theorem statsOff_zero : (![0, 0] : Fin 2 → Nat) = fun _ => 0 := funext fun a => by fin_cases a <;> rfl

/-- A sum over the rows of a tile, at column `j`: the sum over the 5000 row numbers. -/
theorem statsColSum_apply (src : FVec Ideal S5000x128 .f32) (h : S5000x128.Reduces [0] S128) (hφ : FKind.Formats .f32)
    (hacc : (0x00000000#32 : BitVec 32) = FKind.add.neutral .f32 hφ) (j : Fin 128) :
    multiReduction .add [0] S128 src 0x00000000#32 h hφ hacc (ix1 j) = ∑ r : Fin 5000, src (ix2 r j) := by
  refine (Ideal.multiReduction_add_single src 0x00000000#32 h hφ hacc (ix1 j)).trans ?_
  show ∑ k : Fin 5000, src (h.lift (ix1 j) k) = _
  refine Finset.sum_congr rfl fun k _ => congrArg src ?_
  funext a
  apply Fin.ext
  match a with
  | ⟨0, _⟩ => rfl
  | ⟨1, _⟩ => rfl

/-! ## The first pass -/

section Pieces1
variable {F : FTy → Type} [FloatOps F]

/-- A later point leaves in the first output its running contents plus the tile's column sums. -/
theorem piece1_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero statsOff_zero]
  simp only [View.readAt_eq_ld, h1.read_unread, h2.read_unread, h3.read_unread, View.ld_unit_zero (S := S5000x128) statsOff_zero,
    View.ld_unit_zero (S := S1x128) statsOff_zero]

/-- A later point leaves in the second output its running contents plus the tile's column sums of squares. -/
theorem piece1_B_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero statsOff_zero]
  simp only [View.readAt_eq_ld, h1.read_unread, h2.read_unread, h4.read_unread, View.ld_unit_zero (S := S5000x128) statsOff_zero,
    View.ld_unit_zero (S := S1x128) statsOff_zero]

/-- The first point zeroes the first output, reads the zeros back and adds the tile's column sums. -/
theorem piece1_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) statsOff_zero, View.readCov_unit_zero (S := S1x128) _ statsOff_zero]
  simp only [View.readAt_eq_ld, h1.read_unread, h2.read_unread, View.ld_unit_zero (S := S5000x128) statsOff_zero,
    View.ld_unit_zero (S := S1x128) statsOff_zero]

/-- The first point zeroes the second output, reads the zeros back and adds the tile's column sums of squares. -/
theorem piece1_A_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) statsOff_zero, View.readCov_unit_zero (S := S1x128) _ statsOff_zero]
  simp only [View.readAt_eq_ld, h1.read_unread, h2.read_unread, View.ld_unit_zero (S := S5000x128) statsOff_zero,
    View.ld_unit_zero (S := S1x128) statsOff_zero]

end Pieces1

section Payloads1

/-- The tile plus the bias row, at row `r` and column `j`. -/
theorem pay1_3_apply (x0 : Vec Ideal S5000x128 .f32) (x1 : Vec Ideal S1x128 .f32) (r : Fin 5000) (j : Fin 128) :
    k1_pay3 (F := Ideal) x0 x1 (ix2 r j) = x0 (ix2 r j) + x1 (ix2 (0 : Fin 1) j) := by
  unfold k1_pay3
  refine (addf_apply _ _ _).trans ?_
  refine congrArg₂ (· + ·) ?_ ?_
  · exact congrFun (shapeCast_self x0 _) _
  · refine (broadcastTo_1b_ab_apply _ _ r j).trans ?_
    exact congrFun (shapeCast_self x1 _) _

/-- The first output's new contents at column `j`: the old contents plus the tile's column sum. -/
theorem pay1_4_apply (x0 : Vec Ideal S5000x128 .f32) (x1 acc : Vec Ideal S1x128 .f32) (u : Fin 1) (j : Fin 128) :
    k1_pay4 (F := Ideal) x0 x1 acc (ix2 u j)
      = acc (ix2 u j) + ∑ r : Fin 5000, (x0 (ix2 r j) + x1 (ix2 (0 : Fin 1) j)) := by
  unfold k1_pay4
  refine (addf_apply _ _ _).trans ?_
  refine congrArg₂ (· + ·) ?_ ?_
  · exact congrFun (shapeCast_self acc _) _
  · refine (shapeCast_a_1a_apply _ _ u j).trans ?_
    refine (statsColSum_apply _ _ _ _ j).trans ?_
    exact Finset.sum_congr rfl fun r _ => pay1_3_apply x0 x1 r j

/-- The second output's new contents at column `j`: the old contents plus the tile's column sum of squares. -/
theorem pay1_5_apply (x0 : Vec Ideal S5000x128 .f32) (x1 acc : Vec Ideal S1x128 .f32) (u : Fin 1) (j : Fin 128) :
    k1_pay5 (F := Ideal) x0 x1 acc (ix2 u j)
      = acc (ix2 u j) + ∑ r : Fin 5000, (x0 (ix2 r j) + x1 (ix2 (0 : Fin 1) j)) * (x0 (ix2 r j) + x1 (ix2 (0 : Fin 1) j)) := by
  unfold k1_pay5
  refine (addf_apply _ _ _).trans ?_
  refine congrArg₂ (· + ·) ?_ ?_
  · exact congrFun (shapeCast_self acc _) _
  · refine (shapeCast_a_1a_apply _ _ u j).trans ?_
    refine (statsColSum_apply _ _ _ _ j).trans ?_
    refine Finset.sum_congr rfl fun r _ => ?_
    refine (mulf_apply _ _ _).trans ?_
    rw [pay1_3_apply x0 x1 r j]

/-- The zeros the first point stores. -/
theorem pay1_1_apply (i : S1x128.Idx) : k1_pay1 (F := Ideal) i = 0 := by
  unfold k1_pay1
  exact Ideal.ofBits_zero_f32
theorem pay1_2_apply (i : S1x128.Idx) : k1_pay2 (F := Ideal) i = 0 := by
  unfold k1_pay2
  exact Ideal.ofBits_zero_f32

end Payloads1

section Invariant1

variable (V : (c : Dev nD) → (b : Ref sig .tc) → Buf (Elt Ideal) ((c : Thread nD τ).loc b))

/-- The region's two input arrays as it finds them — the aggregate (one row per node) and the bias row — and their
    blocks at a grid point, typed as arrays of extended reals. -/
abbrev aggArr1 (c : Dev nD) : Vec Ideal S50000x128 .f32 := V c (Pipeline.arrRef spec1 0)
abbrev biasArr1 (c : Dev nD) : Vec Ideal S1x128 .f32 := V c (Pipeline.arrRef spec1 1)
abbrev aggBlk1 (c : Dev nD) (t : Fin cfg1.N) : Vec Ideal S5000x128 .f32 := iblk1 (F := Ideal) V c 0 t
abbrev biasBlk1 (c : Dev nD) (t : Fin cfg1.N) : Vec Ideal S1x128 .f32 := iblk1 (F := Ideal) V c 1 t

/-- Where the windows' blocks sit: the aggregate's block at point `t` starts at row block `t`; the bias row's
    block is the whole row at every point. -/
theorem index1_0 : ∀ t : Fin cfg1.N, win1_0.index t 0 = t.val ∧ win1_0.index t 1 = 0 :=
  (by decide +kernel : ∀ t : Fin grid1.N, win1_0.index t 0 = t.val ∧ win1_0.index t 1 = 0)
theorem index1_1 : ∀ t : Fin cfg1.N, win1_1.index t 0 = 0 ∧ win1_1.index t 1 = 0 :=
  (by decide +kernel : ∀ t : Fin grid1.N, win1_1.index t 0 = 0 ∧ win1_1.index t 1 = 0)

/-- Row `r` of the aggregate's block at point `t` is row `5000 t + r` of the aggregate. -/
theorem aggBlk1_apply (c : Dev nD) (t : Fin cfg1.N) (r : Fin 5000) (j : Fin 128) (h : 5000 * t.val + r.val < 50000) :
    aggBlk1 V c t (ix2 r j) = aggArr1 V c (ix2 ⟨5000 * t.val + r.val, h⟩ j) := by
  have hi := index1_0 t
  unfold aggBlk1 aggArr1 iblk1
  rw [View.read_apply]
  show V c (Pipeline.arrRef spec1 0) _ = V c (Pipeline.arrRef spec1 0) _
  refine congrArg _ ?_
  funext a
  apply Fin.ext
  match a with
  | ⟨0, _⟩ => show win1_0.index t 0 * 5000 + 1 * r.val = 5000 * t.val + r.val; rw [hi.1]; omega
  | ⟨1, _⟩ => show win1_0.index t 1 * 128 + 1 * j.val = j.val; rw [hi.2]; omega

/-- The bias row's block at any point is the bias row. -/
theorem biasBlk1_apply (c : Dev nD) (t : Fin cfg1.N) (u : Fin 1) (j : Fin 128) :
    biasBlk1 V c t (ix2 u j) = biasArr1 V c (ix2 (0 : Fin 1) j) := by
  have hi := index1_1 t
  unfold biasBlk1 biasArr1 iblk1
  rw [View.read_apply]
  show V c (Pipeline.arrRef spec1 1) _ = V c (Pipeline.arrRef spec1 1) _
  refine congrArg _ ?_
  funext a
  apply Fin.ext
  match a with
  | ⟨0, _⟩ => show win1_1.index t 0 * 1 + 1 * u.val = 0; rw [hi.1]; omega
  | ⟨1, _⟩ => show win1_1.index t 1 * 128 + 1 * j.val = j.val; rw [hi.2]; omega

/-- Entry `(k, j)` of the aggregate plus the bias of column `j`, as a function of a natural number `k` (zero past
    the last row, which no sum below reaches). -/
def rowTerm1 (c : Dev nD) (j : Fin 128) (k : ℕ) : EReal :=
  if h : k < 50000 then aggArr1 V c (ix2 ⟨k, h⟩ j) + biasArr1 V c (ix2 (0 : Fin 1) j) else 0

/-- The column sum of the block at point `t` is the sum of the terms of rows `5000 t … 5000 t + 4999`. -/
theorem tile1_sum (c : Dev nD) (t : Fin cfg1.N) (j : Fin 128) :
    ∑ r : Fin 5000, (aggBlk1 V c t (ix2 r j) + biasBlk1 V c t (ix2 (0 : Fin 1) j))
      = ∑ r ∈ Finset.range 5000, rowTerm1 V c j (5000 * t.val + r) := by
  have hN : t.val < 10 := lt_of_lt_of_eq t.isLt N_1
  rw [Finset.sum_range]
  refine Finset.sum_congr rfl fun r _ => ?_
  have hr : 5000 * t.val + r.val < 50000 := by have := r.isLt; omega
  unfold rowTerm1
  rw [dif_pos hr, aggBlk1_apply V c t r j hr, biasBlk1_apply V c t 0 j]

theorem tile1_sq (c : Dev nD) (t : Fin cfg1.N) (j : Fin 128) :
    ∑ r : Fin 5000, (aggBlk1 V c t (ix2 r j) + biasBlk1 V c t (ix2 (0 : Fin 1) j))
        * (aggBlk1 V c t (ix2 r j) + biasBlk1 V c t (ix2 (0 : Fin 1) j))
      = ∑ r ∈ Finset.range 5000, rowTerm1 V c j (5000 * t.val + r) * rowTerm1 V c j (5000 * t.val + r) := by
  have hN : t.val < 10 := lt_of_lt_of_eq t.isLt N_1
  rw [Finset.sum_range]
  refine Finset.sum_congr rfl fun r _ => ?_
  have hr : 5000 * t.val + r.val < 50000 := by have := r.isLt; omega
  unfold rowTerm1
  rw [dif_pos hr, aggBlk1_apply V c t r j hr, biasBlk1_apply V c t 0 j]

/-- After point `n` the first output holds, in column `j`, the sum of the terms of the rows below `5000 (n + 1)`. -/
theorem outsAt1_sum (c : Dev nD) : ∀ (n : ℕ) (h : n < cfg1.N) (u : Fin 1) (j : Fin 128),
    ((outsAt1 (F := Ideal) V c n h).1 : Vec Ideal S1x128 .f32) (ix2 u j) = ∑ k ∈ Finset.range (5000 * (n + 1)), rowTerm1 V c j k
  | 0, h, u, j => by
    refine (congrFun (congrArg Prod.fst (outsAt1_A (F := Ideal) V c ⟨0, h⟩ rfl)) (ix2 u j)).trans ?_
    refine (congrFun (piece1_A_2 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) ((hcond1_0 ⟨0, h⟩).mpr rfl) (iblk1 V c 0 ⟨0, h⟩) (iblk1 V c 1 ⟨0, h⟩)) (ix2 u j)).trans ?_
    refine (pay1_4_apply _ _ _ u j).trans ?_
    rw [pay1_1_apply, zero_add]
    refine (tile1_sum V c ⟨0, h⟩ j).trans ?_
    show ∑ r ∈ Finset.range 5000, rowTerm1 V c j (5000 * 0 + r) = _
    simp only [Nat.mul_zero, Nat.zero_add, Nat.mul_one]
  | n + 1, h, u, j => by
    have hN : n + 1 < 10 := lt_of_lt_of_eq h N_1
    have hB : ¬(⟨n + 1, h⟩ : Fin cfg1.N).val % 10 = 0 := by dsimp only; omega
    refine (congrFun (congrArg Prod.fst (outsAt1_B (F := Ideal) V c ⟨n + 1, h⟩ hB)) (ix2 u j)).trans ?_
    refine (congrFun (piece1_B_2 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun h' => hB ((hcond1_0 ⟨n + 1, h⟩).mp h')) (iblk1 V c 0 ⟨n + 1, h⟩) (iblk1 V c 1 ⟨n + 1, h⟩)
      (outsAt1 V c n (Nat.lt_of_succ_lt h)).1 (outsAt1 V c n (Nat.lt_of_succ_lt h)).2) (ix2 u j)).trans ?_
    refine (pay1_4_apply _ _ _ u j).trans ?_
    rw [show 5000 * (n + 1 + 1) = 5000 * (n + 1) + 5000 by ring, Finset.sum_range_add]
    exact congrArg₂ (· + ·) (outsAt1_sum c n (Nat.lt_of_succ_lt h) u j) (tile1_sum V c ⟨n + 1, h⟩ j)

/-- After point `n` the second output holds, in column `j`, the sum of the squared terms of those rows. -/
theorem outsAt1_sq (c : Dev nD) : ∀ (n : ℕ) (h : n < cfg1.N) (u : Fin 1) (j : Fin 128),
    ((outsAt1 (F := Ideal) V c n h).2 : Vec Ideal S1x128 .f32) (ix2 u j)
      = ∑ k ∈ Finset.range (5000 * (n + 1)), rowTerm1 V c j k * rowTerm1 V c j k
  | 0, h, u, j => by
    refine (congrFun (congrArg Prod.snd (outsAt1_A (F := Ideal) V c ⟨0, h⟩ rfl)) (ix2 u j)).trans ?_
    refine (congrFun (piece1_A_3 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) ((hcond1_0 ⟨0, h⟩).mpr rfl) (iblk1 V c 0 ⟨0, h⟩) (iblk1 V c 1 ⟨0, h⟩)) (ix2 u j)).trans ?_
    refine (pay1_5_apply _ _ _ u j).trans ?_
    rw [pay1_2_apply, zero_add]
    refine (tile1_sq V c ⟨0, h⟩ j).trans ?_
    show ∑ r ∈ Finset.range 5000, rowTerm1 V c j (5000 * 0 + r) * rowTerm1 V c j (5000 * 0 + r) = _
    simp only [Nat.mul_zero, Nat.zero_add, Nat.mul_one]
  | n + 1, h, u, j => by
    have hN : n + 1 < 10 := lt_of_lt_of_eq h N_1
    have hB : ¬(⟨n + 1, h⟩ : Fin cfg1.N).val % 10 = 0 := by dsimp only; omega
    refine (congrFun (congrArg Prod.snd (outsAt1_B (F := Ideal) V c ⟨n + 1, h⟩ hB)) (ix2 u j)).trans ?_
    refine (congrFun (piece1_B_3 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun h' => hB ((hcond1_0 ⟨n + 1, h⟩).mp h')) (iblk1 V c 0 ⟨n + 1, h⟩) (iblk1 V c 1 ⟨n + 1, h⟩)
      (outsAt1 V c n (Nat.lt_of_succ_lt h)).1 (outsAt1 V c n (Nat.lt_of_succ_lt h)).2) (ix2 u j)).trans ?_
    refine (pay1_5_apply _ _ _ u j).trans ?_
    rw [show 5000 * (n + 1 + 1) = 5000 * (n + 1) + 5000 by ring, Finset.sum_range_add]
    exact congrArg₂ (· + ·) (outsAt1_sq c n (Nat.lt_of_succ_lt h) u j) (tile1_sq V c ⟨n + 1, h⟩ j)

end Invariant1

section Final1

variable (V : (c : Dev nD) → (b : Ref sig .tc) → Buf (Elt Ideal) ((c : Thread nD τ).loc b))

/-- The sum of the row terms over the first 50000 naturals is the sum over the node numbers. -/
theorem range1_sum (c : Dev nD) (j : Fin 128) :
    ∑ k ∈ Finset.range 50000, rowTerm1 V c j k
      = ∑ n : Fin 50000, (aggArr1 V c (ix2 n j) + biasArr1 V c (ix2 (0 : Fin 1) j)) := by
  rw [Finset.sum_range]
  refine Finset.sum_congr rfl fun n _ => ?_
  unfold rowTerm1
  rw [dif_pos n.isLt]

theorem range1_sq (c : Dev nD) (j : Fin 128) :
    ∑ k ∈ Finset.range 50000, rowTerm1 V c j k * rowTerm1 V c j k
      = ∑ n : Fin 50000, (aggArr1 V c (ix2 n j) + biasArr1 V c (ix2 (0 : Fin 1) j))
          * (aggArr1 V c (ix2 n j) + biasArr1 V c (ix2 (0 : Fin 1) j)) := by
  rw [Finset.sum_range]
  refine Finset.sum_congr rfl fun n _ => ?_
  unfold rowTerm1
  rw [dif_pos n.isLt]

/-- Every column's sum over all the rows of the aggregate plus the bias, and the sum of the squares. -/
def colSums1 (c : Dev nD) : Vec Ideal S1x128 .f32 := fun i =>
  ∑ n : Fin 50000, (aggArr1 V c (ix2 n ⟨(i 1).val, idx2_lt1 i⟩) + biasArr1 V c (ix2 (0 : Fin 1) ⟨(i 1).val, idx2_lt1 i⟩))
def colSqs1 (c : Dev nD) : Vec Ideal S1x128 .f32 := fun i =>
  ∑ n : Fin 50000, (aggArr1 V c (ix2 n ⟨(i 1).val, idx2_lt1 i⟩) + biasArr1 V c (ix2 (0 : Fin 1) ⟨(i 1).val, idx2_lt1 i⟩))
    * (aggArr1 V c (ix2 n ⟨(i 1).val, idx2_lt1 i⟩) + biasArr1 V c (ix2 (0 : Fin 1) ⟨(i 1).val, idx2_lt1 i⟩))

/-- After the last point the outputs' buffers hold the sums over all 50000 rows. -/
theorem outsAt1_last_sum (c : Dev nD) (n : ℕ) (h : n < cfg1.N) (hn : n = 9) :
    (outsAt1 (F := Ideal) V c n h).1 = colSums1 V c := by
  subst hn
  funext i
  obtain ⟨u, j, rfl⟩ : ∃ (u : Fin 1) (j : Fin 128), i = ix2 u j := ⟨i 0, i 1, eq_ix2 i⟩
  exact (outsAt1_sum V c 9 h u j).trans (range1_sum V c j)
theorem outsAt1_last_sq (c : Dev nD) (n : ℕ) (h : n < cfg1.N) (hn : n = 9) :
    (outsAt1 (F := Ideal) V c n h).2 = colSqs1 V c := by
  subst hn
  funext i
  obtain ⟨u, j, rfl⟩ : ∃ (u : Fin 1) (j : Fin 128), i = ix2 u j := ⟨i 0, i 1, eq_ix2 i⟩
  exact (outsAt1_sq V c 9 h u j).trans (range1_sq V c j)

/-- The one write-back of the first output, at the last point, writes the column sums: its block is the whole array. -/
theorem flushed1_2_eq (c : Dev nD) (t : Fin cfg1.N) (hf : (cfg1.win 2).flush t = true) :
    (dat1 (F := Ideal) V c).flushed 2 t = ((cfg1.win 2).blk t).view.read (Elt Ideal) (colSums1 V c) := by
  have hN : t.val < 10 := lt_of_lt_of_eq t.isLt N_1
  have h9 : t.val = 9 := by have := (flush1_2 t).mp hf; omega
  obtain rfl : t = t1_9 := Fin.ext h9
  show (cfg1.win 2).cut (grid1.coords t1_9) ((dat1 V c).after 2 t1_9) = _
  rw [after1_2, outsAt1_last_sum V c t1_9.val t1_9.isLt rfl]
  have hz' : (fun a => win1_2.index t1_9 a * main_v48_0.ty.shape.size a) = fun _ => 0 := funext fun a => by fin_cases a <;> decide
  exact (Memref.read_access_unit_zero (Elt Ideal) main_v48_0 hz' (fun a => by rw [congrFun hz' a]; simp) (colSums1 V c)).symm

theorem flushed1_3_eq (c : Dev nD) (t : Fin cfg1.N) (hf : (cfg1.win 3).flush t = true) :
    (dat1 (F := Ideal) V c).flushed 3 t = ((cfg1.win 3).blk t).view.read (Elt Ideal) (colSqs1 V c) := by
  have hN : t.val < 10 := lt_of_lt_of_eq t.isLt N_1
  have h9 : t.val = 9 := by have := (flush1_3 t).mp hf; omega
  obtain rfl : t = t1_9 := Fin.ext h9
  show (cfg1.win 3).cut (grid1.coords t1_9) ((dat1 V c).after 3 t1_9) = _
  rw [after1_3, outsAt1_last_sq V c t1_9.val t1_9.isLt rfl]
  have hz' : (fun a => win1_3.index t1_9 a * main_v48_1.ty.shape.size a) = fun _ => 0 := funext fun a => by fin_cases a <;> decide
  exact (Memref.read_access_unit_zero (Elt Ideal) main_v48_1 hz' (fun a => by rw [congrFun hz' a]; simp) (colSqs1 V c)).symm

/-- So the first output's array ends holding every column's sum over all the rows. -/
theorem arrAt1_colSums (c : Dev nD) : (dat1 (F := Ideal) V c).arrAt 2 cfg1.N = colSums1 V c :=
  (dat1 V c).arrAt_eq_of_cover 2 (colSums1 V c) (flushed1_2_eq V c) fun i =>
    ⟨t1_9, (flush1_2 t1_9).mpr rfl, by
      show i ∈ ((View.whole main_v48_0).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

/-- And the second output's array ends holding every column's sum of squares. -/
theorem arrAt1_colSqs (c : Dev nD) : (dat1 (F := Ideal) V c).arrAt 3 cfg1.N = colSqs1 V c :=
  (dat1 V c).arrAt_eq_of_cover 3 (colSqs1 V c) (flushed1_3_eq V c) fun i =>
    ⟨t1_9, (flush1_3 t1_9).mpr rfl, by
      show i ∈ ((View.whole main_v48_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

end Final1

section Statement1

variable (V : (c : Dev nD) → (b : Ref sig .tc) → Buf (Elt Ideal) ((c : Thread nD τ).loc b))

/-- The first output's array after the region, entry by entry: column `i 1`'s sum over the 50000 nodes of the
    aggregate's entry plus the column's bias. -/
theorem arrAt1_sum (c : Dev nD) : (dat1 (F := Ideal) V c).arrAt 2 cfg1.N = fun (i : S1x128.Idx) =>
    ∑ n : Fin 50000, (aggArr1 V c (ix2 n ⟨(i 1).val, idx2_lt1 i⟩) + biasArr1 V c (ix2 (0 : Fin 1) ⟨(i 1).val, idx2_lt1 i⟩)) :=
  arrAt1_colSums V c

/-- The second output's array after the region, entry by entry: the sum of the squares of the same terms. -/
theorem arrAt1_sq (c : Dev nD) : (dat1 (F := Ideal) V c).arrAt 3 cfg1.N = fun (i : S1x128.Idx) =>
    ∑ n : Fin 50000, (aggArr1 V c (ix2 n ⟨(i 1).val, idx2_lt1 i⟩) + biasArr1 V c (ix2 (0 : Fin 1) ⟨(i 1).val, idx2_lt1 i⟩))
      * (aggArr1 V c (ix2 n ⟨(i 1).val, idx2_lt1 i⟩) + biasArr1 V c (ix2 (0 : Fin 1) ⟨(i 1).val, idx2_lt1 i⟩)) :=
  arrAt1_colSqs V c

end Statement1

/-! ## The second pass -/

section Pieces4
variable {F : FTy → Type} [FloatOps F]

/-- A later point leaves in the first output its running contents plus the tile's column sums. -/
theorem piece4_B_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 xo2 xo3 : Vec F S1x128 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  sl_unfold_words
  rw [View.canon_unit_zero statsOff_zero]
  simp only [View.readAt_eq_ld, h1.read_unread, h2.read_unread, h3.read_unread, View.ld_unit_zero (S := S5000x128) statsOff_zero,
    View.ld_unit_zero (S := S1x128) statsOff_zero]

/-- A later point leaves in the second output its running contents plus the tile's column sums of squares. -/
theorem piece4_B_3 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 xo2 xo3 : Vec F S1x128 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  sl_unfold_words
  rw [View.canon_unit_zero statsOff_zero]
  simp only [View.readAt_eq_ld, h1.read_unread, h2.read_unread, h4.read_unread, View.ld_unit_zero (S := S5000x128) statsOff_zero,
    View.ld_unit_zero (S := S1x128) statsOff_zero]

/-- The first point zeroes the first output, reads the zeros back and adds the tile's column sums. -/
theorem piece4_A_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S1x128 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x128) statsOff_zero, View.readCov_unit_zero (S := S1x128) _ statsOff_zero]
  simp only [View.readAt_eq_ld, h1.read_unread, h2.read_unread, View.ld_unit_zero (S := S5000x128) statsOff_zero,
    View.ld_unit_zero (S := S1x128) statsOff_zero]

/-- The first point zeroes the second output, reads the zeros back and adds the tile's column sums of squares. -/
theorem piece4_A_3 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S1x128 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x128) statsOff_zero, View.readCov_unit_zero (S := S1x128) _ statsOff_zero]
  simp only [View.readAt_eq_ld, h1.read_unread, h2.read_unread, View.ld_unit_zero (S := S5000x128) statsOff_zero,
    View.ld_unit_zero (S := S1x128) statsOff_zero]

end Pieces4

section Payloads4

/-- The tile plus the bias row, at row `r` and column `j`. -/
theorem pay4_3_apply (x0 : Vec Ideal S5000x128 .f32) (x1 : Vec Ideal S1x128 .f32) (r : Fin 5000) (j : Fin 128) :
    k4_pay3 (F := Ideal) x0 x1 (ix2 r j) = x0 (ix2 r j) + x1 (ix2 (0 : Fin 1) j) := by
  unfold k4_pay3
  refine (addf_apply _ _ _).trans ?_
  refine congrArg₂ (· + ·) ?_ ?_
  · exact congrFun (shapeCast_self x0 _) _
  · refine (broadcastTo_1b_ab_apply _ _ r j).trans ?_
    exact congrFun (shapeCast_self x1 _) _

/-- The first output's new contents at column `j`: the old contents plus the tile's column sum. -/
theorem pay4_4_apply (x0 : Vec Ideal S5000x128 .f32) (x1 acc : Vec Ideal S1x128 .f32) (u : Fin 1) (j : Fin 128) :
    k4_pay4 (F := Ideal) x0 x1 acc (ix2 u j)
      = acc (ix2 u j) + ∑ r : Fin 5000, (x0 (ix2 r j) + x1 (ix2 (0 : Fin 1) j)) := by
  unfold k4_pay4
  refine (addf_apply _ _ _).trans ?_
  refine congrArg₂ (· + ·) ?_ ?_
  · exact congrFun (shapeCast_self acc _) _
  · refine (shapeCast_a_1a_apply _ _ u j).trans ?_
    refine (statsColSum_apply _ _ _ _ j).trans ?_
    exact Finset.sum_congr rfl fun r _ => pay4_3_apply x0 x1 r j

/-- The second output's new contents at column `j`: the old contents plus the tile's column sum of squares. -/
theorem pay4_5_apply (x0 : Vec Ideal S5000x128 .f32) (x1 acc : Vec Ideal S1x128 .f32) (u : Fin 1) (j : Fin 128) :
    k4_pay5 (F := Ideal) x0 x1 acc (ix2 u j)
      = acc (ix2 u j) + ∑ r : Fin 5000, (x0 (ix2 r j) + x1 (ix2 (0 : Fin 1) j)) * (x0 (ix2 r j) + x1 (ix2 (0 : Fin 1) j)) := by
  unfold k4_pay5
  refine (addf_apply _ _ _).trans ?_
  refine congrArg₂ (· + ·) ?_ ?_
  · exact congrFun (shapeCast_self acc _) _
  · refine (shapeCast_a_1a_apply _ _ u j).trans ?_
    refine (statsColSum_apply _ _ _ _ j).trans ?_
    refine Finset.sum_congr rfl fun r _ => ?_
    refine (mulf_apply _ _ _).trans ?_
    rw [pay4_3_apply x0 x1 r j]

/-- The zeros the first point stores. -/
theorem pay4_1_apply (i : S1x128.Idx) : k4_pay1 (F := Ideal) i = 0 := by
  unfold k4_pay1
  exact Ideal.ofBits_zero_f32
theorem pay4_2_apply (i : S1x128.Idx) : k4_pay2 (F := Ideal) i = 0 := by
  unfold k4_pay2
  exact Ideal.ofBits_zero_f32

end Payloads4

section Invariant4

variable (V : (c : Dev nD) → (b : Ref sig .tc) → Buf (Elt Ideal) ((c : Thread nD τ).loc b))

/-- The region's two input arrays as it finds them — the aggregate (one row per node) and the bias row — and their
    blocks at a grid point, typed as arrays of extended reals. -/
abbrev aggArr4 (c : Dev nD) : Vec Ideal S50000x128 .f32 := V c (Pipeline.arrRef spec4 0)
abbrev biasArr4 (c : Dev nD) : Vec Ideal S1x128 .f32 := V c (Pipeline.arrRef spec4 1)
abbrev aggBlk4 (c : Dev nD) (t : Fin cfg4.N) : Vec Ideal S5000x128 .f32 := iblk4 (F := Ideal) V c 0 t
abbrev biasBlk4 (c : Dev nD) (t : Fin cfg4.N) : Vec Ideal S1x128 .f32 := iblk4 (F := Ideal) V c 1 t

/-- Where the windows' blocks sit: the aggregate's block at point `t` starts at row block `t`; the bias row's
    block is the whole row at every point. -/
theorem index4_0 : ∀ t : Fin cfg4.N, win4_0.index t 0 = t.val ∧ win4_0.index t 1 = 0 :=
  (by decide +kernel : ∀ t : Fin grid4.N, win4_0.index t 0 = t.val ∧ win4_0.index t 1 = 0)
theorem index4_1 : ∀ t : Fin cfg4.N, win4_1.index t 0 = 0 ∧ win4_1.index t 1 = 0 :=
  (by decide +kernel : ∀ t : Fin grid4.N, win4_1.index t 0 = 0 ∧ win4_1.index t 1 = 0)

/-- Row `r` of the aggregate's block at point `t` is row `5000 t + r` of the aggregate. -/
theorem aggBlk4_apply (c : Dev nD) (t : Fin cfg4.N) (r : Fin 5000) (j : Fin 128) (h : 5000 * t.val + r.val < 50000) :
    aggBlk4 V c t (ix2 r j) = aggArr4 V c (ix2 ⟨5000 * t.val + r.val, h⟩ j) := by
  have hi := index4_0 t
  unfold aggBlk4 aggArr4 iblk4
  rw [View.read_apply]
  show V c (Pipeline.arrRef spec4 0) _ = V c (Pipeline.arrRef spec4 0) _
  refine congrArg _ ?_
  funext a
  apply Fin.ext
  match a with
  | ⟨0, _⟩ => show win4_0.index t 0 * 5000 + 1 * r.val = 5000 * t.val + r.val; rw [hi.1]; omega
  | ⟨1, _⟩ => show win4_0.index t 1 * 128 + 1 * j.val = j.val; rw [hi.2]; omega

/-- The bias row's block at any point is the bias row. -/
theorem biasBlk4_apply (c : Dev nD) (t : Fin cfg4.N) (u : Fin 1) (j : Fin 128) :
    biasBlk4 V c t (ix2 u j) = biasArr4 V c (ix2 (0 : Fin 1) j) := by
  have hi := index4_1 t
  unfold biasBlk4 biasArr4 iblk4
  rw [View.read_apply]
  show V c (Pipeline.arrRef spec4 1) _ = V c (Pipeline.arrRef spec4 1) _
  refine congrArg _ ?_
  funext a
  apply Fin.ext
  match a with
  | ⟨0, _⟩ => show win4_1.index t 0 * 1 + 1 * u.val = 0; rw [hi.1]; omega
  | ⟨1, _⟩ => show win4_1.index t 1 * 128 + 1 * j.val = j.val; rw [hi.2]; omega

/-- Entry `(k, j)` of the aggregate plus the bias of column `j`, as a function of a natural number `k` (zero past
    the last row, which no sum below reaches). -/
def rowTerm4 (c : Dev nD) (j : Fin 128) (k : ℕ) : EReal :=
  if h : k < 50000 then aggArr4 V c (ix2 ⟨k, h⟩ j) + biasArr4 V c (ix2 (0 : Fin 1) j) else 0

/-- The column sum of the block at point `t` is the sum of the terms of rows `5000 t … 5000 t + 4999`. -/
theorem tile4_sum (c : Dev nD) (t : Fin cfg4.N) (j : Fin 128) :
    ∑ r : Fin 5000, (aggBlk4 V c t (ix2 r j) + biasBlk4 V c t (ix2 (0 : Fin 1) j))
      = ∑ r ∈ Finset.range 5000, rowTerm4 V c j (5000 * t.val + r) := by
  have hN : t.val < 10 := lt_of_lt_of_eq t.isLt N_4
  rw [Finset.sum_range]
  refine Finset.sum_congr rfl fun r _ => ?_
  have hr : 5000 * t.val + r.val < 50000 := by have := r.isLt; omega
  unfold rowTerm4
  rw [dif_pos hr, aggBlk4_apply V c t r j hr, biasBlk4_apply V c t 0 j]

theorem tile4_sq (c : Dev nD) (t : Fin cfg4.N) (j : Fin 128) :
    ∑ r : Fin 5000, (aggBlk4 V c t (ix2 r j) + biasBlk4 V c t (ix2 (0 : Fin 1) j))
        * (aggBlk4 V c t (ix2 r j) + biasBlk4 V c t (ix2 (0 : Fin 1) j))
      = ∑ r ∈ Finset.range 5000, rowTerm4 V c j (5000 * t.val + r) * rowTerm4 V c j (5000 * t.val + r) := by
  have hN : t.val < 10 := lt_of_lt_of_eq t.isLt N_4
  rw [Finset.sum_range]
  refine Finset.sum_congr rfl fun r _ => ?_
  have hr : 5000 * t.val + r.val < 50000 := by have := r.isLt; omega
  unfold rowTerm4
  rw [dif_pos hr, aggBlk4_apply V c t r j hr, biasBlk4_apply V c t 0 j]

/-- After point `n` the first output holds, in column `j`, the sum of the terms of the rows below `5000 (n + 1)`. -/
theorem outsAt4_sum (c : Dev nD) : ∀ (n : ℕ) (h : n < cfg4.N) (u : Fin 1) (j : Fin 128),
    ((outsAt4 (F := Ideal) V c n h).1 : Vec Ideal S1x128 .f32) (ix2 u j) = ∑ k ∈ Finset.range (5000 * (n + 1)), rowTerm4 V c j k
  | 0, h, u, j => by
    refine (congrFun (congrArg Prod.fst (outsAt4_A (F := Ideal) V c ⟨0, h⟩ rfl)) (ix2 u j)).trans ?_
    refine (congrFun (piece4_A_2 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) ((hcond4_0 ⟨0, h⟩).mpr rfl) (iblk4 V c 0 ⟨0, h⟩) (iblk4 V c 1 ⟨0, h⟩)) (ix2 u j)).trans ?_
    refine (pay4_4_apply _ _ _ u j).trans ?_
    rw [pay4_1_apply, zero_add]
    refine (tile4_sum V c ⟨0, h⟩ j).trans ?_
    show ∑ r ∈ Finset.range 5000, rowTerm4 V c j (5000 * 0 + r) = _
    simp only [Nat.mul_zero, Nat.zero_add, Nat.mul_one]
  | n + 1, h, u, j => by
    have hN : n + 1 < 10 := lt_of_lt_of_eq h N_4
    have hB : ¬(⟨n + 1, h⟩ : Fin cfg4.N).val % 10 = 0 := by dsimp only; omega
    refine (congrFun (congrArg Prod.fst (outsAt4_B (F := Ideal) V c ⟨n + 1, h⟩ hB)) (ix2 u j)).trans ?_
    refine (congrFun (piece4_B_2 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (fun h' => hB ((hcond4_0 ⟨n + 1, h⟩).mp h')) (iblk4 V c 0 ⟨n + 1, h⟩) (iblk4 V c 1 ⟨n + 1, h⟩)
      (outsAt4 V c n (Nat.lt_of_succ_lt h)).1 (outsAt4 V c n (Nat.lt_of_succ_lt h)).2) (ix2 u j)).trans ?_
    refine (pay4_4_apply _ _ _ u j).trans ?_
    rw [show 5000 * (n + 1 + 1) = 5000 * (n + 1) + 5000 by ring, Finset.sum_range_add]
    exact congrArg₂ (· + ·) (outsAt4_sum c n (Nat.lt_of_succ_lt h) u j) (tile4_sum V c ⟨n + 1, h⟩ j)

/-- After point `n` the second output holds, in column `j`, the sum of the squared terms of those rows. -/
theorem outsAt4_sq (c : Dev nD) : ∀ (n : ℕ) (h : n < cfg4.N) (u : Fin 1) (j : Fin 128),
    ((outsAt4 (F := Ideal) V c n h).2 : Vec Ideal S1x128 .f32) (ix2 u j)
      = ∑ k ∈ Finset.range (5000 * (n + 1)), rowTerm4 V c j k * rowTerm4 V c j k
  | 0, h, u, j => by
    refine (congrFun (congrArg Prod.snd (outsAt4_A (F := Ideal) V c ⟨0, h⟩ rfl)) (ix2 u j)).trans ?_
    refine (congrFun (piece4_A_3 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) ((hcond4_0 ⟨0, h⟩).mpr rfl) (iblk4 V c 0 ⟨0, h⟩) (iblk4 V c 1 ⟨0, h⟩)) (ix2 u j)).trans ?_
    refine (pay4_5_apply _ _ _ u j).trans ?_
    rw [pay4_2_apply, zero_add]
    refine (tile4_sq V c ⟨0, h⟩ j).trans ?_
    show ∑ r ∈ Finset.range 5000, rowTerm4 V c j (5000 * 0 + r) * rowTerm4 V c j (5000 * 0 + r) = _
    simp only [Nat.mul_zero, Nat.zero_add, Nat.mul_one]
  | n + 1, h, u, j => by
    have hN : n + 1 < 10 := lt_of_lt_of_eq h N_4
    have hB : ¬(⟨n + 1, h⟩ : Fin cfg4.N).val % 10 = 0 := by dsimp only; omega
    refine (congrFun (congrArg Prod.snd (outsAt4_B (F := Ideal) V c ⟨n + 1, h⟩ hB)) (ix2 u j)).trans ?_
    refine (congrFun (piece4_B_3 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (fun h' => hB ((hcond4_0 ⟨n + 1, h⟩).mp h')) (iblk4 V c 0 ⟨n + 1, h⟩) (iblk4 V c 1 ⟨n + 1, h⟩)
      (outsAt4 V c n (Nat.lt_of_succ_lt h)).1 (outsAt4 V c n (Nat.lt_of_succ_lt h)).2) (ix2 u j)).trans ?_
    refine (pay4_5_apply _ _ _ u j).trans ?_
    rw [show 5000 * (n + 1 + 1) = 5000 * (n + 1) + 5000 by ring, Finset.sum_range_add]
    exact congrArg₂ (· + ·) (outsAt4_sq c n (Nat.lt_of_succ_lt h) u j) (tile4_sq V c ⟨n + 1, h⟩ j)

end Invariant4

section Final4

variable (V : (c : Dev nD) → (b : Ref sig .tc) → Buf (Elt Ideal) ((c : Thread nD τ).loc b))

/-- The sum of the row terms over the first 50000 naturals is the sum over the node numbers. -/
theorem range4_sum (c : Dev nD) (j : Fin 128) :
    ∑ k ∈ Finset.range 50000, rowTerm4 V c j k
      = ∑ n : Fin 50000, (aggArr4 V c (ix2 n j) + biasArr4 V c (ix2 (0 : Fin 1) j)) := by
  rw [Finset.sum_range]
  refine Finset.sum_congr rfl fun n _ => ?_
  unfold rowTerm4
  rw [dif_pos n.isLt]

theorem range4_sq (c : Dev nD) (j : Fin 128) :
    ∑ k ∈ Finset.range 50000, rowTerm4 V c j k * rowTerm4 V c j k
      = ∑ n : Fin 50000, (aggArr4 V c (ix2 n j) + biasArr4 V c (ix2 (0 : Fin 1) j))
          * (aggArr4 V c (ix2 n j) + biasArr4 V c (ix2 (0 : Fin 1) j)) := by
  rw [Finset.sum_range]
  refine Finset.sum_congr rfl fun n _ => ?_
  unfold rowTerm4
  rw [dif_pos n.isLt]

/-- Every column's sum over all the rows of the aggregate plus the bias, and the sum of the squares. -/
def colSums4 (c : Dev nD) : Vec Ideal S1x128 .f32 := fun i =>
  ∑ n : Fin 50000, (aggArr4 V c (ix2 n ⟨(i 1).val, idx2_lt1 i⟩) + biasArr4 V c (ix2 (0 : Fin 1) ⟨(i 1).val, idx2_lt1 i⟩))
def colSqs4 (c : Dev nD) : Vec Ideal S1x128 .f32 := fun i =>
  ∑ n : Fin 50000, (aggArr4 V c (ix2 n ⟨(i 1).val, idx2_lt1 i⟩) + biasArr4 V c (ix2 (0 : Fin 1) ⟨(i 1).val, idx2_lt1 i⟩))
    * (aggArr4 V c (ix2 n ⟨(i 1).val, idx2_lt1 i⟩) + biasArr4 V c (ix2 (0 : Fin 1) ⟨(i 1).val, idx2_lt1 i⟩))

/-- After the last point the outputs' buffers hold the sums over all 50000 rows. -/
theorem outsAt4_last_sum (c : Dev nD) (n : ℕ) (h : n < cfg4.N) (hn : n = 9) :
    (outsAt4 (F := Ideal) V c n h).1 = colSums4 V c := by
  subst hn
  funext i
  obtain ⟨u, j, rfl⟩ : ∃ (u : Fin 1) (j : Fin 128), i = ix2 u j := ⟨i 0, i 1, eq_ix2 i⟩
  exact (outsAt4_sum V c 9 h u j).trans (range4_sum V c j)
theorem outsAt4_last_sq (c : Dev nD) (n : ℕ) (h : n < cfg4.N) (hn : n = 9) :
    (outsAt4 (F := Ideal) V c n h).2 = colSqs4 V c := by
  subst hn
  funext i
  obtain ⟨u, j, rfl⟩ : ∃ (u : Fin 1) (j : Fin 128), i = ix2 u j := ⟨i 0, i 1, eq_ix2 i⟩
  exact (outsAt4_sq V c 9 h u j).trans (range4_sq V c j)

/-- The one write-back of the first output, at the last point, writes the column sums: its block is the whole array. -/
theorem flushed4_2_eq (c : Dev nD) (t : Fin cfg4.N) (hf : (cfg4.win 2).flush t = true) :
    (dat4 (F := Ideal) V c).flushed 2 t = ((cfg4.win 2).blk t).view.read (Elt Ideal) (colSums4 V c) := by
  have hN : t.val < 10 := lt_of_lt_of_eq t.isLt N_4
  have h9 : t.val = 9 := by have := (flush4_2 t).mp hf; omega
  obtain rfl : t = t4_9 := Fin.ext h9
  show (cfg4.win 2).cut (grid4.coords t4_9) ((dat4 V c).after 2 t4_9) = _
  rw [after4_2, outsAt4_last_sum V c t4_9.val t4_9.isLt rfl]
  have hz' : (fun a => win4_2.index t4_9 a * main_v78_0.ty.shape.size a) = fun _ => 0 := funext fun a => by fin_cases a <;> decide
  exact (Memref.read_access_unit_zero (Elt Ideal) main_v78_0 hz' (fun a => by rw [congrFun hz' a]; simp) (colSums4 V c)).symm

theorem flushed4_3_eq (c : Dev nD) (t : Fin cfg4.N) (hf : (cfg4.win 3).flush t = true) :
    (dat4 (F := Ideal) V c).flushed 3 t = ((cfg4.win 3).blk t).view.read (Elt Ideal) (colSqs4 V c) := by
  have hN : t.val < 10 := lt_of_lt_of_eq t.isLt N_4
  have h9 : t.val = 9 := by have := (flush4_3 t).mp hf; omega
  obtain rfl : t = t4_9 := Fin.ext h9
  show (cfg4.win 3).cut (grid4.coords t4_9) ((dat4 V c).after 3 t4_9) = _
  rw [after4_3, outsAt4_last_sq V c t4_9.val t4_9.isLt rfl]
  have hz' : (fun a => win4_3.index t4_9 a * main_v78_1.ty.shape.size a) = fun _ => 0 := funext fun a => by fin_cases a <;> decide
  exact (Memref.read_access_unit_zero (Elt Ideal) main_v78_1 hz' (fun a => by rw [congrFun hz' a]; simp) (colSqs4 V c)).symm

/-- So the first output's array ends holding every column's sum over all the rows. -/
theorem arrAt4_colSums (c : Dev nD) : (dat4 (F := Ideal) V c).arrAt 2 cfg4.N = colSums4 V c :=
  (dat4 V c).arrAt_eq_of_cover 2 (colSums4 V c) (flushed4_2_eq V c) fun i =>
    ⟨t4_9, (flush4_2 t4_9).mpr rfl, by
      show i ∈ ((View.whole main_v78_0).slice (win4_2.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 128 from by decide +kernel]; omega⟩

/-- And the second output's array ends holding every column's sum of squares. -/
theorem arrAt4_colSqs (c : Dev nD) : (dat4 (F := Ideal) V c).arrAt 3 cfg4.N = colSqs4 V c :=
  (dat4 V c).arrAt_eq_of_cover 3 (colSqs4 V c) (flushed4_3_eq V c) fun i =>
    ⟨t4_9, (flush4_3 t4_9).mpr rfl, by
      show i ∈ ((View.whole main_v78_1).slice (win4_3.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_3.index t4_9 0 * win4_3.size 0 ≤ (i 0 : Nat) ∧ (i 0 : Nat) < win4_3.index t4_9 0 * win4_3.size 0 + win4_3.xsize (grid4.coords t4_9) 0
                  rw [show win4_3.index t4_9 0 * win4_3.size 0 = 0 from by decide +kernel, show win4_3.xsize (grid4.coords t4_9) 0 = 1 from by decide +kernel]; omega
      | ⟨1, _⟩ => show win4_3.index t4_9 1 * win4_3.size 1 ≤ (i 1 : Nat) ∧ (i 1 : Nat) < win4_3.index t4_9 1 * win4_3.size 1 + win4_3.xsize (grid4.coords t4_9) 1
                  rw [show win4_3.index t4_9 1 * win4_3.size 1 = 0 from by decide +kernel, show win4_3.xsize (grid4.coords t4_9) 1 = 128 from by decide +kernel]; omega⟩

end Final4

section Statement4

variable (V : (c : Dev nD) → (b : Ref sig .tc) → Buf (Elt Ideal) ((c : Thread nD τ).loc b))

/-- The first output's array after the region, entry by entry: column `i 1`'s sum over the 50000 nodes of the
    aggregate's entry plus the column's bias. -/
theorem arrAt4_sum (c : Dev nD) : (dat4 (F := Ideal) V c).arrAt 2 cfg4.N = fun (i : S1x128.Idx) =>
    ∑ n : Fin 50000, (aggArr4 V c (ix2 n ⟨(i 1).val, idx2_lt1 i⟩) + biasArr4 V c (ix2 (0 : Fin 1) ⟨(i 1).val, idx2_lt1 i⟩)) :=
  arrAt4_colSums V c

/-- The second output's array after the region, entry by entry: the sum of the squares of the same terms. -/
theorem arrAt4_sq (c : Dev nD) : (dat4 (F := Ideal) V c).arrAt 3 cfg4.N = fun (i : S1x128.Idx) =>
    ∑ n : Fin 50000, (aggArr4 V c (ix2 n ⟨(i 1).val, idx2_lt1 i⟩) + biasArr4 V c (ix2 (0 : Fin 1) ⟨(i 1).val, idx2_lt1 i⟩))
      * (aggArr4 V c (ix2 n ⟨(i 1).val, idx2_lt1 i⟩) + biasArr4 V c (ix2 (0 : Fin 1) ⟨(i 1).val, idx2_lt1 i⟩)) :=
  arrAt4_colSqs V c

end Statement4

end Cert.Gcn

end
-- ==== Proof.RegionNP.lean ====
/-
  The two normalisation-and-rectifier steps of the network, each computed block by block over ten blocks of 5000
  rows.  At every grid point the body reads one block of the aggregate and, whole, five rows of 128 numbers (the
  bias, the columns' means, their inverse standard deviations, the scale and the shift) and the rectifier's slope
  as a 1 × 1 array, and stores for entry `(n, j)` of the block
  `((A (n, j) + b j − mean j) · invstd j · g j + be j)` when that is at least zero and the slope times it otherwise:
  the specification's `npElt`.  Row `r` of the output lies in block `r / 5000`, so the ten blocks together are the
  array `i ↦ npElt (A i) (b (i 1)) (mean (i 1)) (invstd (i 1)) (g (i 1)) (be (i 1)) a`.
-/
import proofs.«139484_j50294067036840_1_alg».proof.Proof.Gen.KernelIdeal.Frame
import proofs.«139484_j50294067036840_1_alg».proof.Proof.Spec
import Idealize.ShloMosaic.Lib.Pipeline.Value
import Idealize.ShloMosaic.Lib.ValueIdx

noncomputable section

namespace Cert.Gcn

open Cert.KernelIdeal Cert.KernelIdeal.Gen Idealize.ShloMosaic Idealize.ShloMosaic.TcCoe Idealize.SL.Sem
open Idealize.ShloMosaic.ValueIdx
open Idealize.ShloMosaic.Pipeline (Dat)

namespace NP

/-! ## One block's entry -/

/-- A row of 128 numbers repeated down 5000 rows, at an entry: the row's number in that column. -/
theorem bcastRow_apply (v : S1x128.Idx → EReal) (h : S1x128.Broadcasts S5000x128) (p : Fin 5000) (q : Fin 128) :
    broadcastTo S5000x128 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- One number repeated over the whole block, at an entry: that number. -/
theorem bcastOne_apply (v : S1x1.Idx → EReal) (h : S1x1.Broadcasts S5000x128) (p : Fin 5000) (q : Fin 128) :
    broadcastTo S5000x128 v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- What the first normalisation's body stores, at an entry: the entry plus its column's bias, minus the column's
    mean, times the inverse standard deviation, times the scale, plus the shift, and then the rectifier with the
    slope — `npElt` of the block's entry, the five rows' numbers in that column, and the slope. -/
theorem pay2_apply (x0 : Vec Ideal S5000x128 .f32) (x1 x2 x3 x4 x5 : Vec Ideal S1x128 .f32) (x6 : Vec Ideal S1x1 .f32) (p : Fin 5000) (q : Fin 128) :
    k2_pay1 (F := Ideal) x0 x1 x2 x3 x4 x5 x6 (ix2 p q)
      = npElt (x0 (ix2 p q)) (x1 (ix2 (0 : Fin 1) q)) (x2 (ix2 (0 : Fin 1) q)) (x3 (ix2 (0 : Fin 1) q)) (x4 (ix2 (0 : Fin 1) q)) (x5 (ix2 (0 : Fin 1) q)) (x6 (ix2 (0 : Fin 1) (0 : Fin 1))) := by
  unfold k2_pay1 npElt
  simp only [shapeCast_self, select_apply, cmpf_apply, mulf_apply, addf_apply, subf_apply, broadcast_apply, bcastRow_apply, bcastOne_apply]
  rfl

/-- What the second normalisation's body stores, at an entry: the same function of its own blocks. -/
theorem pay5_apply (x0 : Vec Ideal S5000x128 .f32) (x1 x2 x3 x4 x5 : Vec Ideal S1x128 .f32) (x6 : Vec Ideal S1x1 .f32) (p : Fin 5000) (q : Fin 128) :
    k5_pay1 (F := Ideal) x0 x1 x2 x3 x4 x5 x6 (ix2 p q)
      = npElt (x0 (ix2 p q)) (x1 (ix2 (0 : Fin 1) q)) (x2 (ix2 (0 : Fin 1) q)) (x3 (ix2 (0 : Fin 1) q)) (x4 (ix2 (0 : Fin 1) q)) (x5 (ix2 (0 : Fin 1) q)) (x6 (ix2 (0 : Fin 1) (0 : Fin 1))) := by
  unfold k5_pay1 npElt
  simp only [shapeCast_self, select_apply, cmpf_apply, mulf_apply, addf_apply, subf_apply, broadcast_apply, bcastRow_apply, bcastOne_apply]
  rfl

/-- The normalised and rectified array, entry by entry, from the aggregate, the five rows and the slope. -/
def npArr (A : S50000x128.Idx → EReal) (b mu s g be : S1x128.Idx → EReal) (a : S1x1.Idx → EReal) : S50000x128.Idx → EReal :=
  fun i => npElt (A i) (b (ix2 (0 : Fin 1) ⟨(i 1).val, idx2_lt1 i⟩)) (mu (ix2 (0 : Fin 1) ⟨(i 1).val, idx2_lt1 i⟩)) (s (ix2 (0 : Fin 1) ⟨(i 1).val, idx2_lt1 i⟩))
    (g (ix2 (0 : Fin 1) ⟨(i 1).val, idx2_lt1 i⟩)) (be (ix2 (0 : Fin 1) ⟨(i 1).val, idx2_lt1 i⟩)) (a (ix2 (0 : Fin 1) (0 : Fin 1)))

/-- One entry of a block's result is the entry of the whole result at the place where the block's entry sits,
    when the block's entry is that entry of the aggregate and the rows and the slope are read whole. -/
theorem np_entry (P : Vec Ideal S5000x128 .f32 → Vec Ideal S1x128 .f32 → Vec Ideal S1x128 .f32 → Vec Ideal S1x128 .f32 → Vec Ideal S1x128 .f32 → Vec Ideal S1x128 .f32 → Vec Ideal S1x1 .f32 → FVec Ideal S5000x128 .f32)
    (hP : ∀ x0 x1 x2 x3 x4 x5 x6 (p : Fin 5000) (q : Fin 128), P x0 x1 x2 x3 x4 x5 x6 (ix2 p q)
      = npElt (x0 (ix2 p q)) (x1 (ix2 (0 : Fin 1) q)) (x2 (ix2 (0 : Fin 1) q)) (x3 (ix2 (0 : Fin 1) q)) (x4 (ix2 (0 : Fin 1) q)) (x5 (ix2 (0 : Fin 1) q)) (x6 (ix2 (0 : Fin 1) (0 : Fin 1))))
    (x0 : Vec Ideal S5000x128 .f32) (x1 x2 x3 x4 x5 : Vec Ideal S1x128 .f32) (x6 : Vec Ideal S1x1 .f32)
    (A : S50000x128.Idx → EReal) (b mu s g be : S1x128.Idx → EReal) (a : S1x1.Idx → EReal)
    (j : S5000x128.Idx) (i : S50000x128.Idx)
    (h0 : x0 j = A i)
    (h1 : x1 (ix2 (0 : Fin 1) ⟨(j 1).val, idx2_lt1 j⟩) = b (ix2 (0 : Fin 1) ⟨(i 1).val, idx2_lt1 i⟩))
    (h2 : x2 (ix2 (0 : Fin 1) ⟨(j 1).val, idx2_lt1 j⟩) = mu (ix2 (0 : Fin 1) ⟨(i 1).val, idx2_lt1 i⟩))
    (h3 : x3 (ix2 (0 : Fin 1) ⟨(j 1).val, idx2_lt1 j⟩) = s (ix2 (0 : Fin 1) ⟨(i 1).val, idx2_lt1 i⟩))
    (h4 : x4 (ix2 (0 : Fin 1) ⟨(j 1).val, idx2_lt1 j⟩) = g (ix2 (0 : Fin 1) ⟨(i 1).val, idx2_lt1 i⟩))
    (h5 : x5 (ix2 (0 : Fin 1) ⟨(j 1).val, idx2_lt1 j⟩) = be (ix2 (0 : Fin 1) ⟨(i 1).val, idx2_lt1 i⟩))
    (h6 : x6 (ix2 (0 : Fin 1) (0 : Fin 1)) = a (ix2 (0 : Fin 1) (0 : Fin 1))) :
    P x0 x1 x2 x3 x4 x5 x6 j = npArr A b mu s g be a i := by
  obtain ⟨p, q, rfl⟩ : ∃ (p : Fin 5000) (q : Fin 128), j = ix2 p q := ⟨j 0, j 1, eq_ix2 j⟩
  refine (hP x0 x1 x2 x3 x4 x5 x6 p q).trans ?_
  unfold npArr
  rw [← h0, ← h1, ← h2, ← h3, ← h4, ← h5, ← h6]

theorem zeroOff2 : (![0, 0] : Fin 2 → Nat) = fun _ => 0 := funext fun a => by fin_cases a <;> rfl

variable (V : (c : Dev nD) → (b : Ref sig .tc) → Buf (Elt Ideal) ((c : Thread nD τ).loc b))

/-! ## Region 2: from the ten blocks to the whole array -/

/-- Where the blocks sit, decided over the ten grid points: the aggregate's and the output's block at point `t`
    is the `t`-th block of 5000 rows (all 128 columns); the five rows and the slope are read whole at every point. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- What point `t` writes back is the body's stored value of the input windows' blocks at `t`: the one store
    covers the whole buffer and every load reads a whole block. -/
theorem flushed2_pay (c : Dev nD) (t : Fin cfg2.N) :
    (dat2 (F := Ideal) V c).flushed 7 t = (cfg2.win 7).cut (grid2.coords t) (k2_pay1 (F := Ideal) (iblk2 V c 0 t) (iblk2 V c 1 t) (iblk2 V c 2 t) (iblk2 V c 3 t) (iblk2 V c 4 t) (iblk2 V c 5 t) (iblk2 V c 6 t)) := by
  show (cfg2.win 7).cut (grid2.coords t) ((dat2 V c).after 7 t) = _
  rw [after2_7]
  unfold out2_7
  rw [View.canon_unit_zero zeroOff2]
  simp only [View.ld_unit_zero (S := S5000x128) zeroOff2, View.ld_unit_zero (S := S1x128) zeroOff2, View.ld_unit_zero (S := S1x1) zeroOff2]

set_option maxHeartbeats 1000000 in
/-- What point `t` writes back is block `t` of the normalised and rectified array of the region's inputs as it
    finds them: entry `(p, q)` of the aggregate's block is entry `(5000 t + p, q)` of the aggregate, and the rows
    and the slope are the whole arrays. -/
theorem flushed2_eq (c : Dev nD) (t : Fin cfg2.N) :
    (dat2 (F := Ideal) V c).flushed 7 t = ((cfg2.win 7).blk t).view.read (Elt Ideal)
      (npArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  refine (flushed2_pay V c t).trans (funext fun j => ?_)
  obtain ⟨e00, e01, e10, e11, e20, e21, e30, e31, e40, e41, e50, e51, e60, e61, e70, e71⟩ := blockIdx2 t
  show k2_pay1 (F := Ideal) (iblk2 V c 0 t) (iblk2 V c 1 t) (iblk2 V c 2 t) (iblk2 V c 3 t) (iblk2 V c 4 t) (iblk2 V c 5 t) (iblk2 V c 6 t) j
    = npArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (((cfg2.win 7).blk t).view.emb j)
  refine np_entry (k2_pay1 (F := Ideal)) pay2_apply _ _ _ _ _ _ _ _ _ _ _ _ _ _ j _ ?_ ?_ ?_ ?_ ?_ ?_ ?_
  · show V c (Pipeline.arrRef spec2 0) (((cfg2.win 0).blk t).view.emb j) = _
    refine congrArg _ (funext fun a => Fin.ext ?_)
    match a with
    | ⟨0, _⟩ => show win2_0.index t (0 : Fin 2) * 5000 + 1 * (j 0).val = win2_7.index t (0 : Fin 2) * 5000 + 1 * (j 0).val; omega
    | ⟨1, _⟩ => show win2_0.index t (1 : Fin 2) * 128 + 1 * (j 1).val = win2_7.index t (1 : Fin 2) * 128 + 1 * (j 1).val; omega
  · show V c (Pipeline.arrRef spec2 1) (((cfg2.win 1).blk t).view.emb (ix2 (0 : Fin 1) ⟨(j 1).val, idx2_lt1 j⟩)) = _
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * (j 1).val = win2_7.index t (1 : Fin 2) * 128 + 1 * (j 1).val; omega
  · show V c (Pipeline.arrRef spec2 2) (((cfg2.win 2).blk t).view.emb (ix2 (0 : Fin 1) ⟨(j 1).val, idx2_lt1 j⟩)) = _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * (j 1).val = win2_7.index t (1 : Fin 2) * 128 + 1 * (j 1).val; omega
  · show V c (Pipeline.arrRef spec2 3) (((cfg2.win 3).blk t).view.emb (ix2 (0 : Fin 1) ⟨(j 1).val, idx2_lt1 j⟩)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * (j 1).val = win2_7.index t (1 : Fin 2) * 128 + 1 * (j 1).val; omega
  · show V c (Pipeline.arrRef spec2 4) (((cfg2.win 4).blk t).view.emb (ix2 (0 : Fin 1) ⟨(j 1).val, idx2_lt1 j⟩)) = _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * (j 1).val = win2_7.index t (1 : Fin 2) * 128 + 1 * (j 1).val; omega
  · show V c (Pipeline.arrRef spec2 5) (((cfg2.win 5).blk t).view.emb (ix2 (0 : Fin 1) ⟨(j 1).val, idx2_lt1 j⟩)) = _
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * (j 1).val = win2_7.index t (1 : Fin 2) * 128 + 1 * (j 1).val; omega
  · show V c (Pipeline.arrRef spec2 6) (((cfg2.win 6).blk t).view.emb (ix2 (0 : Fin 1) (0 : Fin 1))) = _
    refine congrArg _ (funext fun a => Fin.ext ?_)
    match a with
    | ⟨0, _⟩ => show win2_6.index t (0 : Fin 2) * 1 + 1 * 0 = 0; omega
    | ⟨1, _⟩ => show win2_6.index t (1 : Fin 2) * 1 + 1 * 0 = 0; omega

/-- An entry of the output lies in point `t`'s block iff each coordinate lies in the block's range on its axis. -/
theorem mem_blk2 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v62).slice (win2_7.rect t)).set ↔ _
  rw [View.set_slice_whole, Rect.mem_set_unit]
  exact Iff.rfl

/-- Every entry of the output is written: row `r` by the point `r / 5000`. -/
theorem cover2 (i : S50000x128.Idx) : ∃ t : Fin cfg2.N, (cfg2.win 7).flush t = true ∧ i ∈ ((cfg2.win 7).blk t).view.set := by
  have hi0 : (i 0).val < 50000 := idx2_lt0 i
  have hi1 : (i 1).val < 128 := idx2_lt1 i
  have hN : grid2.N = 10 := N_2
  obtain ⟨t, ht⟩ : ∃ t : Fin cfg2.N, t.val = (i 0).val / 5000 := ⟨⟨(i 0).val / 5000, by show _ < grid2.N; rw [hN]; omega⟩, rfl⟩
  obtain ⟨e00, e01, e10, e11, e20, e21, e30, e31, e40, e41, e50, e51, e60, e61, e70, e71⟩ := blockIdx2 t
  refine ⟨t, flush2_7 t, ?_⟩
  rw [mem_blk2]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- The output array after the whole grid, as `npArr` of the region's inputs as it finds them. -/
theorem arrAt2_npArr (c : Dev nD) :
    (dat2 (F := Ideal) V c).arrAt 7 cfg2.N
      = npArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (dat2 (F := Ideal) V c).arrAt_eq_of_cover 7 _ (fun t _ => flushed2_eq V c t) (cover2)

/-! ## Region 5: from the ten blocks to the whole array -/

/-- Where the blocks sit, decided over the ten grid points: the aggregate's and the output's block at point `t`
    is the `t`-th block of 5000 rows (all 128 columns); the five rows and the slope are read whole at every point. -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- What point `t` writes back is the body's stored value of the input windows' blocks at `t`: the one store
    covers the whole buffer and every load reads a whole block. -/
theorem flushed5_pay (c : Dev nD) (t : Fin cfg5.N) :
    (dat5 (F := Ideal) V c).flushed 7 t = (cfg5.win 7).cut (grid5.coords t) (k5_pay1 (F := Ideal) (iblk5 V c 0 t) (iblk5 V c 1 t) (iblk5 V c 2 t) (iblk5 V c 3 t) (iblk5 V c 4 t) (iblk5 V c 5 t) (iblk5 V c 6 t)) := by
  show (cfg5.win 7).cut (grid5.coords t) ((dat5 V c).after 7 t) = _
  rw [after5_7]
  unfold out5_7
  rw [View.canon_unit_zero zeroOff2]
  simp only [View.ld_unit_zero (S := S5000x128) zeroOff2, View.ld_unit_zero (S := S1x128) zeroOff2, View.ld_unit_zero (S := S1x1) zeroOff2]

set_option maxHeartbeats 1000000 in
/-- What point `t` writes back is block `t` of the normalised and rectified array of the region's inputs as it
    finds them: entry `(p, q)` of the aggregate's block is entry `(5000 t + p, q)` of the aggregate, and the rows
    and the slope are the whole arrays. -/
theorem flushed5_eq (c : Dev nD) (t : Fin cfg5.N) :
    (dat5 (F := Ideal) V c).flushed 7 t = ((cfg5.win 7).blk t).view.read (Elt Ideal)
      (npArr (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))) := by
  refine (flushed5_pay V c t).trans (funext fun j => ?_)
  obtain ⟨e00, e01, e10, e11, e20, e21, e30, e31, e40, e41, e50, e51, e60, e61, e70, e71⟩ := blockIdx5 t
  show k5_pay1 (F := Ideal) (iblk5 V c 0 t) (iblk5 V c 1 t) (iblk5 V c 2 t) (iblk5 V c 3 t) (iblk5 V c 4 t) (iblk5 V c 5 t) (iblk5 V c 6 t) j
    = npArr (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (((cfg5.win 7).blk t).view.emb j)
  refine np_entry (k5_pay1 (F := Ideal)) pay5_apply _ _ _ _ _ _ _ _ _ _ _ _ _ _ j _ ?_ ?_ ?_ ?_ ?_ ?_ ?_
  · show V c (Pipeline.arrRef spec5 0) (((cfg5.win 0).blk t).view.emb j) = _
    refine congrArg _ (funext fun a => Fin.ext ?_)
    match a with
    | ⟨0, _⟩ => show win5_0.index t (0 : Fin 2) * 5000 + 1 * (j 0).val = win5_7.index t (0 : Fin 2) * 5000 + 1 * (j 0).val; omega
    | ⟨1, _⟩ => show win5_0.index t (1 : Fin 2) * 128 + 1 * (j 1).val = win5_7.index t (1 : Fin 2) * 128 + 1 * (j 1).val; omega
  · show V c (Pipeline.arrRef spec5 1) (((cfg5.win 1).blk t).view.emb (ix2 (0 : Fin 1) ⟨(j 1).val, idx2_lt1 j⟩)) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * (j 1).val = win5_7.index t (1 : Fin 2) * 128 + 1 * (j 1).val; omega
  · show V c (Pipeline.arrRef spec5 2) (((cfg5.win 2).blk t).view.emb (ix2 (0 : Fin 1) ⟨(j 1).val, idx2_lt1 j⟩)) = _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * (j 1).val = win5_7.index t (1 : Fin 2) * 128 + 1 * (j 1).val; omega
  · show V c (Pipeline.arrRef spec5 3) (((cfg5.win 3).blk t).view.emb (ix2 (0 : Fin 1) ⟨(j 1).val, idx2_lt1 j⟩)) = _
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * (j 1).val = win5_7.index t (1 : Fin 2) * 128 + 1 * (j 1).val; omega
  · show V c (Pipeline.arrRef spec5 4) (((cfg5.win 4).blk t).view.emb (ix2 (0 : Fin 1) ⟨(j 1).val, idx2_lt1 j⟩)) = _
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * (j 1).val = win5_7.index t (1 : Fin 2) * 128 + 1 * (j 1).val; omega
  · show V c (Pipeline.arrRef spec5 5) (((cfg5.win 5).blk t).view.emb (ix2 (0 : Fin 1) ⟨(j 1).val, idx2_lt1 j⟩)) = _
    refine congrArg _ (funext fun a => Fin.ext ?_)
    match a with
    | ⟨0, _⟩ => show win5_5.index t (0 : Fin 2) * 1 + 1 * 0 = 0; omega
    | ⟨1, _⟩ => show win5_5.index t (1 : Fin 2) * 128 + 1 * (j 1).val = win5_7.index t (1 : Fin 2) * 128 + 1 * (j 1).val; omega
  · show V c (Pipeline.arrRef spec5 6) (((cfg5.win 6).blk t).view.emb (ix2 (0 : Fin 1) (0 : Fin 1))) = _
    refine congrArg _ (funext fun a => Fin.ext ?_)
    match a with
    | ⟨0, _⟩ => show win5_6.index t (0 : Fin 2) * 1 + 1 * 0 = 0; omega
    | ⟨1, _⟩ => show win5_6.index t (1 : Fin 2) * 1 + 1 * 0 = 0; omega

/-- An entry of the output lies in point `t`'s block iff each coordinate lies in the block's range on its axis. -/
theorem mem_blk5 (t : Fin cfg5.N) (i : S50000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v92).slice (win5_7.rect t)).set ↔ _
  rw [View.set_slice_whole, Rect.mem_set_unit]
  exact Iff.rfl

/-- Every entry of the output is written: row `r` by the point `r / 5000`. -/
theorem cover5 (i : S50000x128.Idx) : ∃ t : Fin cfg5.N, (cfg5.win 7).flush t = true ∧ i ∈ ((cfg5.win 7).blk t).view.set := by
  have hi0 : (i 0).val < 50000 := idx2_lt0 i
  have hi1 : (i 1).val < 128 := idx2_lt1 i
  have hN : grid5.N = 10 := N_5
  obtain ⟨t, ht⟩ : ∃ t : Fin cfg5.N, t.val = (i 0).val / 5000 := ⟨⟨(i 0).val / 5000, by show _ < grid5.N; rw [hN]; omega⟩, rfl⟩
  obtain ⟨e00, e01, e10, e11, e20, e21, e30, e31, e40, e41, e50, e51, e60, e61, e70, e71⟩ := blockIdx5 t
  refine ⟨t, flush5_7 t, ?_⟩
  rw [mem_blk5]
  intro a
  match a with
  | ⟨0, _⟩ => show win5_7.index t (0 : Fin 2) * 5000 ≤ (i 0).val ∧ (i 0).val < win5_7.index t (0 : Fin 2) * 5000 + 5000; omega
  | ⟨1, _⟩ => show win5_7.index t (1 : Fin 2) * 128 ≤ (i 1).val ∧ (i 1).val < win5_7.index t (1 : Fin 2) * 128 + 128; omega

/-- The output array after the whole grid, as `npArr` of the region's inputs as it finds them. -/
theorem arrAt5_npArr (c : Dev nD) :
    (dat5 (F := Ideal) V c).arrAt 7 cfg5.N
      = npArr (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) :=
  (dat5 (F := Ideal) V c).arrAt_eq_of_cover 7 _ (fun t _ => flushed5_eq V c t) (cover5)

end NP

variable (V : (c : Dev nD) → (b : Ref sig .tc) → Buf (Elt Ideal) ((c : Thread nD τ).loc b))

/-- Region 2's output array after the whole grid, entry by entry: the normalisation and rectifier `npElt` of the
    aggregate's entry, of the bias, mean, inverse standard deviation, scale and shift of the entry's column, and of
    the slope — the seven input arrays named as the region finds them. -/
theorem arrAt2 (c : Dev nD) (A : FVec Ideal S50000x128 .f32) (b mu inv g be : FVec Ideal S1x128 .f32) (a : FVec Ideal S1x1 .f32)
    (hA : V c (Pipeline.arrRef spec2 0) = A) (hb : V c (Pipeline.arrRef spec2 1) = b) (hmu : V c (Pipeline.arrRef spec2 2) = mu)
    (hinv : V c (Pipeline.arrRef spec2 3) = inv) (hg : V c (Pipeline.arrRef spec2 4) = g) (hbe : V c (Pipeline.arrRef spec2 5) = be)
    (ha : V c (Pipeline.arrRef spec2 6) = a) :
    (dat2 (F := Ideal) V c).arrAt 7 cfg2.N = fun i : S50000x128.Idx =>
      npElt (A i) (b (ix2 (0 : Fin 1) ⟨(i 1).val, idx2_lt1 i⟩)) (mu (ix2 (0 : Fin 1) ⟨(i 1).val, idx2_lt1 i⟩))
        (inv (ix2 (0 : Fin 1) ⟨(i 1).val, idx2_lt1 i⟩)) (g (ix2 (0 : Fin 1) ⟨(i 1).val, idx2_lt1 i⟩))
        (be (ix2 (0 : Fin 1) ⟨(i 1).val, idx2_lt1 i⟩)) (a (ix2 (0 : Fin 1) (0 : Fin 1))) := by
  subst hA hb hmu hinv hg hbe ha
  exact NP.arrAt2_npArr V c

/-- Region 5's output array after the whole grid, entry by entry: the normalisation and rectifier `npElt` of the
    aggregate's entry, of the bias, mean, inverse standard deviation, scale and shift of the entry's column, and of
    the slope — the seven input arrays named as the region finds them. -/
theorem arrAt5 (c : Dev nD) (A : FVec Ideal S50000x128 .f32) (b mu inv g be : FVec Ideal S1x128 .f32) (a : FVec Ideal S1x1 .f32)
    (hA : V c (Pipeline.arrRef spec5 0) = A) (hb : V c (Pipeline.arrRef spec5 1) = b) (hmu : V c (Pipeline.arrRef spec5 2) = mu)
    (hinv : V c (Pipeline.arrRef spec5 3) = inv) (hg : V c (Pipeline.arrRef spec5 4) = g) (hbe : V c (Pipeline.arrRef spec5 5) = be)
    (ha : V c (Pipeline.arrRef spec5 6) = a) :
    (dat5 (F := Ideal) V c).arrAt 7 cfg5.N = fun i : S50000x128.Idx =>
      npElt (A i) (b (ix2 (0 : Fin 1) ⟨(i 1).val, idx2_lt1 i⟩)) (mu (ix2 (0 : Fin 1) ⟨(i 1).val, idx2_lt1 i⟩))
        (inv (ix2 (0 : Fin 1) ⟨(i 1).val, idx2_lt1 i⟩)) (g (ix2 (0 : Fin 1) ⟨(i 1).val, idx2_lt1 i⟩))
        (be (ix2 (0 : Fin 1) ⟨(i 1).val, idx2_lt1 i⟩)) (a (ix2 (0 : Fin 1) (0 : Fin 1))) := by
  subst hA hb hmu hinv hg hbe ha
  exact NP.arrAt5_npArr V c

end Cert.Gcn

end
-- ==== Proof.KernelValue1.lean ====
/-
  The first layer on the kernel side.  The kernel program's buffer contents at each boundary between a stretch
  of host operations and a kernel launch are a fold from the launch memory.  Walking that fold: the first launch
  leaves the dense projection x · W₁; the host stretch after it the aggregation over the weighted edges and the bias
  as a row; the second launch the column sums and the column sums of squares of (aggregate + bias); the next host
  stretch the column means, the inverse standard deviations (the variance as the mean of the squares minus the squared
  mean) and the scale, shift and slope re-laid; the third launch the normalised and rectified array — the first
  layer's output as one function of the launch arguments.
-/
import proofs.«139484_j50294067036840_1_alg».proof.Proof.KernelKeep
import proofs.«139484_j50294067036840_1_alg».proof.Proof.RegionMM
import proofs.«139484_j50294067036840_1_alg».proof.Proof.RegionStats
import proofs.«139484_j50294067036840_1_alg».proof.Proof.RegionNP

set_option maxRecDepth 16384
set_option maxHeartbeats 4000000
set_option synthInstance.maxHeartbeats 400000

noncomputable section

namespace Cert.KernelIdeal.KV

open Idealize.ShloMosaic Idealize.ShloMosaic.TcCoe Idealize.ShloMosaic.Tactic
open Idealize.SL Idealize.SL.Sem
open Idealize.ShloMosaic.Pipeline (Dat Cfg Window)
open Idealize.ShloMosaic.StableHlo
open Cert.KernelIdeal Cert.KernelIdeal.Gen

variable (m : (ℓ : Loc nD τ sig) → Buf (Elt Ideal) ℓ) (ρ : Dev nD → PrngReg) (c : Dev nD)

/-- A vector of 128 numbers reshaped to one row, read at a row index. -/
theorem row_eq (x : FVec Ideal S128 .f32) (h : S128.ShapeCasts S1x128) : shapeCast S1x128 x h = fun i : S1x128.Idx => x (ValueIdx.ix1 ⟨(i 1).val, ValueIdx.idx2_lt1 i⟩) := by
  funext i
  rw [shapeCast_addUnit_apply (n := 1) ![128] x h i]
  exact congrArg x (funext fun a => by match a with | ⟨0, _⟩ => rfl)

/-- A one-element vector reshaped to a 1×1 array, read at its index. -/
theorem one_eq (x : FVec Ideal S1 .f32) (h : S1.ShapeCasts S1x1) (i : S1x1.Idx) : shapeCast S1x1 x h i = x (ValueIdx.ix1 0) := by
  rw [shapeCast_addUnit_apply (n := 1) ![1] x h i]
  exact congrArg x (funext fun a => by match a with | ⟨0, _⟩ => exact Fin.ext (by show (i 1).val = 0; exact Nat.lt_one_iff.mp (i 1).isLt))

/-- The first dense projection: region 0's output array. -/
theorem w4_v33 : (W4 m ρ c (Proc.devRef .tc main_v33) : FVec Ideal S50000x128 .f32) = Cert.Gcn.mm (m ((c : Thread nD τ).loc main_arg0)) (m ((c : Thread nD τ).loc main_arg2)) := by
  show W4 m ρ c (Proc.devRef .tc (Pipeline.arrRef spec0 2)) = _
  rw [W4_arr, Cert.Gcn.arrAt0 (V3 m ρ) c]
  show Cert.Gcn.mm (W3 m ρ c (Proc.devRef .tc main_arg0)) (W3 m ρ c (Proc.devRef .tc main_arg2)) = _
  rw [keep3_a0, keep3_a2]

/-- The first aggregation. -/
theorem w5_v46 : (W5 m ρ c (Proc.devRef .tc main_v46) : FVec Ideal S50000x128 .f32) = (Cert.Gcn.agg (m ((c : Thread nD τ).loc main_arg1)) (Cert.Gcn.mm (m ((c : Thread nD τ).loc main_arg0)) (m ((c : Thread nD τ).loc main_arg2)))) := by
  show StableHlo.after hostOps1 (W4 m ρ c) (Proc.devRef .tc main_v46) = _
  after_results
  rw [keep4_v5, keep4_v6, keep4_v32, w3_v5, w3_v6, w3_v32, w4_v33 m ρ c]
  rfl

/-- The first bias as a row. -/
theorem w5_v47 : (W5 m ρ c (Proc.devRef .tc main_v47) : FVec Ideal S1x128 .f32) = fun i : S1x128.Idx => (m ((c : Thread nD τ).loc main_arg3)) (ValueIdx.ix1 ⟨(i 1).val, ValueIdx.idx2_lt1 i⟩) := by
  show StableHlo.after hostOps1 (W4 m ρ c) (Proc.devRef .tc main_v47) = _
  after_results
  rw [keep4_a3]
  exact row_eq _ _

/-- The first layer's column sums. -/
theorem w6_sum : (W6 m ρ c (Proc.devRef .tc main_v48_0) : FVec Ideal S1x128 .f32) = fun i : S1x128.Idx => ∑ n : Fin 50000, ((Cert.Gcn.agg (m ((c : Thread nD τ).loc main_arg1)) (Cert.Gcn.mm (m ((c : Thread nD τ).loc main_arg0)) (m ((c : Thread nD τ).loc main_arg2)))) (ValueIdx.ix2 n ⟨(i 1).val, ValueIdx.idx2_lt1 i⟩) + (m ((c : Thread nD τ).loc main_arg3)) (ValueIdx.ix1 ⟨(i 1).val, ValueIdx.idx2_lt1 i⟩)) := by
  have e46 : Cert.Gcn.aggArr1 (V5 m ρ) c = (Cert.Gcn.agg (m ((c : Thread nD τ).loc main_arg1)) (Cert.Gcn.mm (m ((c : Thread nD τ).loc main_arg0)) (m ((c : Thread nD τ).loc main_arg2)))) := w5_v46 m ρ c
  have e47 : Cert.Gcn.biasArr1 (V5 m ρ) c = fun i : S1x128.Idx => (m ((c : Thread nD τ).loc main_arg3)) (ValueIdx.ix1 ⟨(i 1).val, ValueIdx.idx2_lt1 i⟩) := w5_v47 m ρ c
  show W6 m ρ c (Proc.devRef .tc (Pipeline.arrRef spec1 2)) = _
  rw [W6_arr, Cert.Gcn.arrAt1_sum (V5 m ρ) c, e46, e47]

/-- The first layer's column sums of squares. -/
theorem w6_sq : (W6 m ρ c (Proc.devRef .tc main_v48_1) : FVec Ideal S1x128 .f32) = fun i : S1x128.Idx => ∑ n : Fin 50000, ((Cert.Gcn.agg (m ((c : Thread nD τ).loc main_arg1)) (Cert.Gcn.mm (m ((c : Thread nD τ).loc main_arg0)) (m ((c : Thread nD τ).loc main_arg2)))) (ValueIdx.ix2 n ⟨(i 1).val, ValueIdx.idx2_lt1 i⟩) + (m ((c : Thread nD τ).loc main_arg3)) (ValueIdx.ix1 ⟨(i 1).val, ValueIdx.idx2_lt1 i⟩)) * ((Cert.Gcn.agg (m ((c : Thread nD τ).loc main_arg1)) (Cert.Gcn.mm (m ((c : Thread nD τ).loc main_arg0)) (m ((c : Thread nD τ).loc main_arg2)))) (ValueIdx.ix2 n ⟨(i 1).val, ValueIdx.idx2_lt1 i⟩) + (m ((c : Thread nD τ).loc main_arg3)) (ValueIdx.ix1 ⟨(i 1).val, ValueIdx.idx2_lt1 i⟩)) := by
  have e46 : Cert.Gcn.aggArr1 (V5 m ρ) c = (Cert.Gcn.agg (m ((c : Thread nD τ).loc main_arg1)) (Cert.Gcn.mm (m ((c : Thread nD τ).loc main_arg0)) (m ((c : Thread nD τ).loc main_arg2)))) := w5_v46 m ρ c
  have e47 : Cert.Gcn.biasArr1 (V5 m ρ) c = fun i : S1x128.Idx => (m ((c : Thread nD τ).loc main_arg3)) (ValueIdx.ix1 ⟨(i 1).val, ValueIdx.idx2_lt1 i⟩) := w5_v47 m ρ c
  show W6 m ρ c (Proc.devRef .tc (Pipeline.arrRef spec1 3)) = _
  rw [W6_arr, Cert.Gcn.arrAt1_sq (V5 m ρ) c, e46, e47]

/-- The first layer's column means. -/
theorem w7_v50 : (W7 m ρ c (Proc.devRef .tc main_v50) : FVec Ideal S1x128 .f32) = fun i : S1x128.Idx => Ideal.div (∑ n : Fin 50000, ((Cert.Gcn.agg (m ((c : Thread nD τ).loc main_arg1)) (Cert.Gcn.mm (m ((c : Thread nD τ).loc main_arg0)) (m ((c : Thread nD τ).loc main_arg2)))) (ValueIdx.ix2 n ⟨(i 1).val, ValueIdx.idx2_lt1 i⟩) + (m ((c : Thread nD τ).loc main_arg3)) (ValueIdx.ix1 ⟨(i 1).val, ValueIdx.idx2_lt1 i⟩))) Cert.Gcn.cN := by
  show StableHlo.after hostOps2 (W6 m ρ c) (Proc.devRef .tc main_v50) = _
  after_results
  rw [w6_sum m ρ c]
  rfl

/-- The first layer's inverse standard deviations, the variance as the mean of the squares minus the squared mean. -/
theorem w7_v57 : (W7 m ρ c (Proc.devRef .tc main_v57) : FVec Ideal S1x128 .f32) = fun i : S1x128.Idx => Ideal.rsqrt ((Ideal.div (∑ n : Fin 50000, ((Cert.Gcn.agg (m ((c : Thread nD τ).loc main_arg1)) (Cert.Gcn.mm (m ((c : Thread nD τ).loc main_arg0)) (m ((c : Thread nD τ).loc main_arg2)))) (ValueIdx.ix2 n ⟨(i 1).val, ValueIdx.idx2_lt1 i⟩) + (m ((c : Thread nD τ).loc main_arg3)) (ValueIdx.ix1 ⟨(i 1).val, ValueIdx.idx2_lt1 i⟩)) * ((Cert.Gcn.agg (m ((c : Thread nD τ).loc main_arg1)) (Cert.Gcn.mm (m ((c : Thread nD τ).loc main_arg0)) (m ((c : Thread nD τ).loc main_arg2)))) (ValueIdx.ix2 n ⟨(i 1).val, ValueIdx.idx2_lt1 i⟩) + (m ((c : Thread nD τ).loc main_arg3)) (ValueIdx.ix1 ⟨(i 1).val, ValueIdx.idx2_lt1 i⟩))) Cert.Gcn.cN - Ideal.div (∑ n : Fin 50000, ((Cert.Gcn.agg (m ((c : Thread nD τ).loc main_arg1)) (Cert.Gcn.mm (m ((c : Thread nD τ).loc main_arg0)) (m ((c : Thread nD τ).loc main_arg2)))) (ValueIdx.ix2 n ⟨(i 1).val, ValueIdx.idx2_lt1 i⟩) + (m ((c : Thread nD τ).loc main_arg3)) (ValueIdx.ix1 ⟨(i 1).val, ValueIdx.idx2_lt1 i⟩))) Cert.Gcn.cN * Ideal.div (∑ n : Fin 50000, ((Cert.Gcn.agg (m ((c : Thread nD τ).loc main_arg1)) (Cert.Gcn.mm (m ((c : Thread nD τ).loc main_arg0)) (m ((c : Thread nD τ).loc main_arg2)))) (ValueIdx.ix2 n ⟨(i 1).val, ValueIdx.idx2_lt1 i⟩) + (m ((c : Thread nD τ).loc main_arg3)) (ValueIdx.ix1 ⟨(i 1).val, ValueIdx.idx2_lt1 i⟩))) Cert.Gcn.cN) + Cert.Gcn.cEps) := by
  show StableHlo.after hostOps2 (W6 m ρ c) (Proc.devRef .tc main_v57) = _
  after_results
  rw [w6_sum m ρ c, w6_sq m ρ c]
  rfl

theorem w7_v58 : (W7 m ρ c (Proc.devRef .tc main_v58) : FVec Ideal S1x128 .f32) = fun i : S1x128.Idx => (m ((c : Thread nD τ).loc main_arg3)) (ValueIdx.ix1 ⟨(i 1).val, ValueIdx.idx2_lt1 i⟩) := by
  show StableHlo.after hostOps2 (W6 m ρ c) (Proc.devRef .tc main_v58) = _
  after_results
  rw [keep6_a3]
  exact row_eq _ _
theorem w7_v59 : (W7 m ρ c (Proc.devRef .tc main_v59) : FVec Ideal S1x128 .f32) = fun i : S1x128.Idx => (m ((c : Thread nD τ).loc main_arg4)) (ValueIdx.ix1 ⟨(i 1).val, ValueIdx.idx2_lt1 i⟩) := by
  show StableHlo.after hostOps2 (W6 m ρ c) (Proc.devRef .tc main_v59) = _
  after_results
  rw [keep6_a4]
  exact row_eq _ _
theorem w7_v60 : (W7 m ρ c (Proc.devRef .tc main_v60) : FVec Ideal S1x128 .f32) = fun i : S1x128.Idx => (m ((c : Thread nD τ).loc main_arg5)) (ValueIdx.ix1 ⟨(i 1).val, ValueIdx.idx2_lt1 i⟩) := by
  show StableHlo.after hostOps2 (W6 m ρ c) (Proc.devRef .tc main_v60) = _
  after_results
  rw [keep6_a5]
  exact row_eq _ _
theorem w7_v61 : (W7 m ρ c (Proc.devRef .tc main_v61) : FVec Ideal S1x1 .f32) = fun _ : S1x1.Idx => (m ((c : Thread nD τ).loc main_arg6)) (ValueIdx.ix1 0) := by
  show StableHlo.after hostOps2 (W6 m ρ c) (Proc.devRef .tc main_v61) = _
  after_results
  rw [keep6_a6]
  exact funext fun i => one_eq _ _ i

/-- The first layer's output array: the normalisation and rectifier of the first aggregation, the variance taken
    as the mean of the squares minus the squared mean. -/
theorem w8_v62 :
    (W8 m ρ c (Proc.devRef .tc main_v62) : FVec Ideal S50000x128 .f32)
    = Cert.Gcn.layerSq (Cert.Gcn.agg (m ((c : Thread nD τ).loc main_arg1)) (Cert.Gcn.mm (m ((c : Thread nD τ).loc main_arg0)) (m ((c : Thread nD τ).loc main_arg2)))) (Cert.Gcn.vecOf (m ((c : Thread nD τ).loc main_arg3))) (Cert.Gcn.vecOf (m ((c : Thread nD τ).loc main_arg4))) (Cert.Gcn.vecOf (m ((c : Thread nD τ).loc main_arg5))) (Cert.Gcn.scalOf (m ((c : Thread nD τ).loc main_arg6))) := by
  show W8 m ρ c (Proc.devRef .tc (Pipeline.arrRef spec2 7)) = _
  rw [W8_arr, Cert.Gcn.arrAt2 (V7 m ρ) c _ _ _ _ _ _ _ ((keep7_v46 m ρ c).trans (w5_v46 m ρ c)) (w7_v58 m ρ c) (w7_v50 m ρ c) (w7_v57 m ρ c) (w7_v59 m ρ c) (w7_v60 m ρ c) (w7_v61 m ρ c)]
  rfl

end Cert.KernelIdeal.KV

end
-- ==== Proof.KernelValue2.lean ====
/-
  The second layer of the kernel program, boundary by boundary.

  From the first layer's output `X`: the projection region leaves `X · w₂`; the host operations that follow are
  the aggregation of the graph chain (the sources, targets and edge weights are still the ones computed at the
  start) and the bias laid out as a 1×128 row; the statistics region leaves, per column, the sum over the nodes
  of `v n = A (n, j) + b j` and the sum of `v n · v n`; the host operations that follow divide both by the number
  of nodes, subtract the squared mean from the mean of the squares, add ε and take the inverse square root, and
  lay out the scale, the shift and the slope as rows; the last region applies the normalisation and the rectifier
  entry by entry.  Read together this is `layerSq` of the aggregate: the variance as the mean of the squares
  minus the square of the mean.

  The regions' values and the read-backs of the buffers that keep their contents are taken as one bundle of
  hypotheses; the arrays a region reads are bound as variables with equations, so that sums and products are
  written over extended reals.
-/
import proofs.«139484_j50294067036840_1_alg».proof.Proof.KernelRun
import proofs.«139484_j50294067036840_1_alg».proof.Proof.Graph
import Idealize.ShloMosaic.Lib.Pipeline.Value
import Idealize.ShloMosaic.Lib.ValueIdx
import Idealize.ShloMosaic.PureOps.Ideal.Laws

set_option maxRecDepth 16384

noncomputable section

namespace Cert.KernelIdeal.KV

open Idealize.ShloMosaic Idealize.ShloMosaic.TcCoe Idealize.ShloMosaic.Tactic Idealize.ShloMosaic.ValueIdx
open Idealize.SL Idealize.SL.Sem
open Idealize.ShloMosaic.Pipeline (Dat Cfg Window)
open Idealize.ShloMosaic.StableHlo
open Cert.KernelIdeal Cert.KernelIdeal.Gen Cert.KernelIdeal.Facts₀ Cert.KernelIdeal.Facts

/-- Every unscoped buffer's contents on every core, read at the TensorCore's references: what a region's proof
    data take. -/
abbrev Contents2 := (c : Dev nD) → (b : Ref sig .tc) → Buf (Elt Ideal) ((c : Thread nD τ).loc b)

/-- What the second layer's value rests on, from the regions and from the buffers that keep their contents:
    the second dense projection's region writes the product of its two input arrays; the statistics region
    writes, per column, the sum over the nodes of the aggregate plus the bias and the sum of its squares; the
    last region writes the normalisation and rectifier entry by entry; and the listed buffers are not written
    in between. -/
structure Layer2Facts (m : (ℓ : Loc nD τ sig) → Buf (Elt Ideal) ℓ) (ρ : Dev nD → PrngReg) (c : Dev nD) : Prop where
  hmm3 : ∀ (V : Contents2) (c : Dev nD),
    (dat3 (F := Ideal) V c).arrAt 2 cfg3.N = Cert.Gcn.mm (V c (Pipeline.arrRef spec3 0)) (V c (Pipeline.arrRef spec3 1))
  hsum4 : ∀ (V : Contents2) (c : Dev nD) (A : FVec Ideal S50000x128 .f32) (b : FVec Ideal S1x128 .f32),
    V c (Pipeline.arrRef spec4 0) = A → V c (Pipeline.arrRef spec4 1) = b →
    (dat4 (F := Ideal) V c).arrAt 2 cfg4.N = fun i : S1x128.Idx => (∑ n : Fin 50000,
      (A (ix2 n ⟨(i 1).val, idx2_lt1 i⟩) + b (ix2 0 ⟨(i 1).val, idx2_lt1 i⟩)) : EReal)
  hsq4 : ∀ (V : Contents2) (c : Dev nD) (A : FVec Ideal S50000x128 .f32) (b : FVec Ideal S1x128 .f32),
    V c (Pipeline.arrRef spec4 0) = A → V c (Pipeline.arrRef spec4 1) = b →
    (dat4 (F := Ideal) V c).arrAt 3 cfg4.N = fun i : S1x128.Idx => (∑ n : Fin 50000,
      (A (ix2 n ⟨(i 1).val, idx2_lt1 i⟩) + b (ix2 0 ⟨(i 1).val, idx2_lt1 i⟩))
        * (A (ix2 n ⟨(i 1).val, idx2_lt1 i⟩) + b (ix2 0 ⟨(i 1).val, idx2_lt1 i⟩)) : EReal)
  hnp5 : ∀ (V : Contents2) (c : Dev nD) (A : FVec Ideal S50000x128 .f32) (b mean inv g be : FVec Ideal S1x128 .f32)
      (a : FVec Ideal S1x1 .f32),
    V c (Pipeline.arrRef spec5 0) = A → V c (Pipeline.arrRef spec5 1) = b → V c (Pipeline.arrRef spec5 2) = mean →
    V c (Pipeline.arrRef spec5 3) = inv → V c (Pipeline.arrRef spec5 4) = g → V c (Pipeline.arrRef spec5 5) = be →
    V c (Pipeline.arrRef spec5 6) = a →
    (dat5 (F := Ideal) V c).arrAt 7 cfg5.N = fun i : S50000x128.Idx =>
      Cert.Gcn.npElt (A i) (b (ix2 (0 : Fin 1) ⟨(i 1).val, idx2_lt1 i⟩)) (mean (ix2 (0 : Fin 1) ⟨(i 1).val, idx2_lt1 i⟩))
        (inv (ix2 (0 : Fin 1) ⟨(i 1).val, idx2_lt1 i⟩)) (g (ix2 (0 : Fin 1) ⟨(i 1).val, idx2_lt1 i⟩))
        (be (ix2 (0 : Fin 1) ⟨(i 1).val, idx2_lt1 i⟩)) (a (ix2 (0 : Fin 1) (0 : Fin 1)))
  k8_a7 : W8 m ρ c (Proc.devRef .tc main_arg7) = m ((c : Thread nD τ).loc main_arg7)
  k9_v5 : W9 m ρ c (Proc.devRef .tc main_v5) = W3 m ρ c (Proc.devRef .tc main_v5)
  k9_v6 : W9 m ρ c (Proc.devRef .tc main_v6) = W3 m ρ c (Proc.devRef .tc main_v6)
  k9_v32 : W9 m ρ c (Proc.devRef .tc main_v32) = W3 m ρ c (Proc.devRef .tc main_v32)
  w3_v5 : W3 m ρ c (Proc.devRef .tc main_v5) = Cert.Gcn.srcA (m ((c : Thread nD τ).loc main_arg1))
  w3_v6 : W3 m ρ c (Proc.devRef .tc main_v6) = Cert.Gcn.dstA (m ((c : Thread nD τ).loc main_arg1))
  w3_v32 : W3 m ρ c (Proc.devRef .tc main_v32) = Cert.Gcn.nrm (m ((c : Thread nD τ).loc main_arg1))
  k9_a8 : W9 m ρ c (Proc.devRef .tc main_arg8) = m ((c : Thread nD τ).loc main_arg8)
  k11_a8 : W11 m ρ c (Proc.devRef .tc main_arg8) = m ((c : Thread nD τ).loc main_arg8)
  k11_a9 : W11 m ρ c (Proc.devRef .tc main_arg9) = m ((c : Thread nD τ).loc main_arg9)
  k11_a10 : W11 m ρ c (Proc.devRef .tc main_arg10) = m ((c : Thread nD τ).loc main_arg10)
  k11_a11 : W11 m ρ c (Proc.devRef .tc main_arg11) = m ((c : Thread nD τ).loc main_arg11)
  k12_v76 : W12 m ρ c (Proc.devRef .tc main_v76) = W10 m ρ c (Proc.devRef .tc main_v76)

/-! ## A row of 128 numbers laid out as a 1×128 array, and one number as a 1×1 array -/

theorem row_apply (x : FVec Ideal S128 .f32) (p : Fin 1) (j : Fin 128) :
    shapeCast S1x128 x Gen.shapeCasts_S128_S1x128 (ix2 p j) = Cert.Gcn.vecOf x j :=
  shapeCast_apply x Gen.shapeCasts_S128_S1x128 (ix2 p j) (ix1 j)
    (by rewrite [Shape.rowMajor_val_two, Shape.rowMajor_val_one]; have h0 : p.val < 1 := p.isLt; show j.val = p.val * 128 + j.val; omega)

theorem one_apply (x : FVec Ideal S1 .f32) (p q : Fin 1) :
    shapeCast S1x1 x Gen.shapeCasts_S1_S1x1 (ix2 p q) = Cert.Gcn.scalOf x :=
  shapeCast_apply x Gen.shapeCasts_S1_S1x1 (ix2 p q) (ix1 0)
    (by rewrite [Shape.rowMajor_val_two, Shape.rowMajor_val_one]; have h0 : p.val < 1 := p.isLt; have h1 : q.val < 1 := q.isLt; show 0 = p.val * 1 + q.val; omega)

section Layer2

variable (m : (ℓ : Loc nD τ sig) → Buf (Elt Ideal) ℓ) (ρ : Dev nD → PrngReg) (c : Dev nD)
variable (H : Layer2Facts m ρ c) (X : FVec Ideal S50000x128 .f32) (h62 : W8 m ρ c (Proc.devRef .tc main_v62) = X)
include H h62

/-- The second projection's result. -/
theorem w9_v63 : W9 m ρ c (Proc.devRef .tc main_v63) = Cert.Gcn.mm X (m ((c : Thread nD τ).loc main_arg7)) := by
  show W9 m ρ c (Proc.devRef .tc (Pipeline.arrRef spec3 2)) = _
  rw [W9_arr, H.hmm3]
  show Cert.Gcn.mm (W8 m ρ c (Proc.devRef .tc main_v62)) (W8 m ρ c (Proc.devRef .tc main_arg7)) = _
  rw [h62, H.k8_a7]

/-- The second aggregation. -/
theorem w10_v76 :
    W10 m ρ c (Proc.devRef .tc main_v76)
      = Cert.Gcn.agg (m ((c : Thread nD τ).loc main_arg1)) (Cert.Gcn.mm X (m ((c : Thread nD τ).loc main_arg7))) := by
  show StableHlo.after hostOps4 (W9 m ρ c) (Proc.devRef .tc main_v76) = _
  after_results_simp
  rw [H.k9_v5, H.k9_v6, H.k9_v32, H.w3_v5, H.w3_v6, H.w3_v32, w9_v63 m ρ c H X h62]
  rfl

omit h62 in
/-- The bias as a 1×128 row. -/
theorem w10_v77 (j : Fin 128) :
    W10 m ρ c (Proc.devRef .tc main_v77) (ix2 0 j) = Cert.Gcn.vecOf (m ((c : Thread nD τ).loc main_arg8)) j := by
  show StableHlo.after hostOps4 (W9 m ρ c) (Proc.devRef .tc main_v77) (ix2 0 j) = _
  after_results
  rw [H.k9_a8]
  exact row_apply _ 0 j

end Layer2

section Stats

variable (m : (ℓ : Loc nD τ sig) → Buf (Elt Ideal) ℓ) (ρ : Dev nD → PrngReg) (c : Dev nD) (H : Layer2Facts m ρ c)
variable (A : FVec Ideal S50000x128 .f32) (hA : W10 m ρ c (Proc.devRef .tc main_v76) = A)
variable (b : Fin 128 → EReal) (hb : ∀ j : Fin 128, W10 m ρ c (Proc.devRef .tc main_v77) (ix2 0 j) = b j)
include H hA hb

/-- The column sums the statistics region leaves. -/
theorem w11_v78_0 :
    W11 m ρ c (Proc.devRef .tc main_v78_0) = fun i : S1x128.Idx => (∑ n : Fin 50000, (A (ix2 n ⟨(i 1).val, idx2_lt1 i⟩) + b ⟨(i 1).val, idx2_lt1 i⟩) : EReal) := by
  show W11 m ρ c (Proc.devRef .tc (Pipeline.arrRef spec4 2)) = _
  rw [W11_arr, H.hsum4 (V10 m ρ) c A (W10 m ρ c (Proc.devRef .tc main_v77)) hA rfl]
  funext i
  rw [hb]

/-- The column sums of squares the statistics region leaves. -/
theorem w11_v78_1 :
    W11 m ρ c (Proc.devRef .tc main_v78_1)
      = fun i : S1x128.Idx => (∑ n : Fin 50000, (A (ix2 n ⟨(i 1).val, idx2_lt1 i⟩) + b ⟨(i 1).val, idx2_lt1 i⟩) * (A (ix2 n ⟨(i 1).val, idx2_lt1 i⟩) + b ⟨(i 1).val, idx2_lt1 i⟩) : EReal) := by
  show W11 m ρ c (Proc.devRef .tc (Pipeline.arrRef spec4 3)) = _
  rw [W11_arr, H.hsq4 (V10 m ρ) c A (W10 m ρ c (Proc.devRef .tc main_v77)) hA rfl]
  funext i
  rw [hb]

/-- The column's mean. -/
theorem w12_v80 (j : Fin 128) :
    W12 m ρ c (Proc.devRef .tc main_v80) (ix2 0 j) = Cert.Gcn.muOf (Cert.Gcn.col A (b j) j) := by
  show StableHlo.after hostOps5 (W11 m ρ c) (Proc.devRef .tc main_v80) (ix2 0 j) = _
  after_results
  rw [w11_v78_0 m ρ c H A hA b hb]
  rfl

/-- The column's inverse standard deviation, the variance taken as the mean of the squares minus the squared mean. -/
theorem w12_v87 (j : Fin 128) :
    W12 m ρ c (Proc.devRef .tc main_v87) (ix2 0 j) = Ideal.rsqrt (Cert.Gcn.varSq (Cert.Gcn.col A (b j) j) + Cert.Gcn.cEps) := by
  show StableHlo.after hostOps5 (W11 m ρ c) (Proc.devRef .tc main_v87) (ix2 0 j) = _
  after_results
  rw [w11_v78_0 m ρ c H A hA b hb, w11_v78_1 m ρ c H A hA b hb]
  rfl

omit hA hb in
/-- The bias, scale and shift rows and the slope, as the last region finds them. -/
theorem w12_v88 (j : Fin 128) : W12 m ρ c (Proc.devRef .tc main_v88) (ix2 0 j) = Cert.Gcn.vecOf (m ((c : Thread nD τ).loc main_arg8)) j := by
  show StableHlo.after hostOps5 (W11 m ρ c) (Proc.devRef .tc main_v88) (ix2 0 j) = _
  after_results
  rw [H.k11_a8]
  exact row_apply _ 0 j
omit hA hb in
theorem w12_v89 (j : Fin 128) : W12 m ρ c (Proc.devRef .tc main_v89) (ix2 0 j) = Cert.Gcn.vecOf (m ((c : Thread nD τ).loc main_arg9)) j := by
  show StableHlo.after hostOps5 (W11 m ρ c) (Proc.devRef .tc main_v89) (ix2 0 j) = _
  after_results
  rw [H.k11_a9]
  exact row_apply _ 0 j
omit hA hb in
theorem w12_v90 (j : Fin 128) : W12 m ρ c (Proc.devRef .tc main_v90) (ix2 0 j) = Cert.Gcn.vecOf (m ((c : Thread nD τ).loc main_arg10)) j := by
  show StableHlo.after hostOps5 (W11 m ρ c) (Proc.devRef .tc main_v90) (ix2 0 j) = _
  after_results
  rw [H.k11_a10]
  exact row_apply _ 0 j
omit hA hb in
theorem w12_v91 : W12 m ρ c (Proc.devRef .tc main_v91) (ix2 0 0) = Cert.Gcn.scalOf (m ((c : Thread nD τ).loc main_arg11)) := by
  show StableHlo.after hostOps5 (W11 m ρ c) (Proc.devRef .tc main_v91) (ix2 0 0) = _
  after_results
  rw [H.k11_a11]
  exact one_apply _ 0 0

/-- The last region's result is the layer of the aggregate, with the bias row as the statistics region read it. -/
theorem w13_v92 (hb8 : b = Cert.Gcn.vecOf (m ((c : Thread nD τ).loc main_arg8))) :
    W13 m ρ c (Proc.devRef .tc main_v92)
      = Cert.Gcn.layerSq A (Cert.Gcn.vecOf (m ((c : Thread nD τ).loc main_arg8))) (Cert.Gcn.vecOf (m ((c : Thread nD τ).loc main_arg9))) (Cert.Gcn.vecOf (m ((c : Thread nD τ).loc main_arg10))) (Cert.Gcn.scalOf (m ((c : Thread nD τ).loc main_arg11))) := by
  subst hb8
  show W13 m ρ c (Proc.devRef .tc (Pipeline.arrRef spec5 7)) = _
  rw [W13_arr, H.hnp5 (V12 m ρ) c _ _ _ _ _ _ _ rfl rfl rfl rfl rfl rfl rfl]
  funext i
  show Cert.Gcn.npElt (W12 m ρ c (Proc.devRef .tc main_v76) i) (W12 m ρ c (Proc.devRef .tc main_v88) (ix2 0 ⟨(i 1).val, idx2_lt1 i⟩)) (W12 m ρ c (Proc.devRef .tc main_v80) (ix2 0 ⟨(i 1).val, idx2_lt1 i⟩))
      (W12 m ρ c (Proc.devRef .tc main_v87) (ix2 0 ⟨(i 1).val, idx2_lt1 i⟩)) (W12 m ρ c (Proc.devRef .tc main_v89) (ix2 0 ⟨(i 1).val, idx2_lt1 i⟩)) (W12 m ρ c (Proc.devRef .tc main_v90) (ix2 0 ⟨(i 1).val, idx2_lt1 i⟩))
      (W12 m ρ c (Proc.devRef .tc main_v91) (ix2 0 0)) = _
  rw [H.k12_v76, hA, w12_v88 m ρ c H, w12_v80 m ρ c H A hA _ hb, w12_v87 m ρ c H A hA _ hb, w12_v89 m ρ c H, w12_v90 m ρ c H,
    w12_v91 m ρ c H]
  rfl

end Stats

/-- The second layer of the kernel program: from the first layer's output `X`, the projection, the aggregation
    and the normalisation with the variance as the mean of the squares minus the squared mean. -/
theorem layer2 (m : (ℓ : Loc nD τ sig) → Buf (Elt Ideal) ℓ) (ρ : Dev nD → PrngReg) (c : Dev nD) (H : Layer2Facts m ρ c)
    (X : FVec Ideal S50000x128 .f32) (h62 : W8 m ρ c (Proc.devRef .tc main_v62) = X) :
    W13 m ρ c (Proc.devRef .tc main_v92)
      = Cert.Gcn.layerSq (Cert.Gcn.agg (m ((c : Thread nD τ).loc main_arg1)) (Cert.Gcn.mm X (m ((c : Thread nD τ).loc main_arg7)))) (Cert.Gcn.vecOf (m ((c : Thread nD τ).loc main_arg8))) (Cert.Gcn.vecOf (m ((c : Thread nD τ).loc main_arg9)))
          (Cert.Gcn.vecOf (m ((c : Thread nD τ).loc main_arg10))) (Cert.Gcn.scalOf (m ((c : Thread nD τ).loc main_arg11))) :=
  w13_v92 m ρ c H _ (w10_v76 m ρ c H X h62) _ (fun j => w10_v77 m ρ c H j) rfl

end Cert.KernelIdeal.KV
end
-- ==== Proof.KernelValue.lean ====
/-
  The kernel's result array as one function of the launch arguments: the second layer's chain (dense projection,
  aggregation, batch statistics, normalisation and rectifier) applied to the first layer's output, each region's
  value and each kept buffer supplied from the modules that prove them.
-/
import proofs.«139484_j50294067036840_1_alg».proof.Proof.KernelValue1
import proofs.«139484_j50294067036840_1_alg».proof.Proof.KernelValue2

set_option maxRecDepth 16384
set_option maxHeartbeats 4000000

noncomputable section

namespace Cert.KernelIdeal.KV

open Idealize.ShloMosaic Idealize.ShloMosaic.TcCoe Idealize.SL Idealize.SL.Sem
open Cert.KernelIdeal Cert.KernelIdeal.Gen

variable (m : (ℓ : Loc nD τ sig) → Buf (Elt Ideal) ℓ) (ρ : Dev nD → PrngReg) (c : Dev nD)

/-- What the second layer's chain needs of the regions and of the kept buffers. -/
theorem layer2_facts : Layer2Facts m ρ c :=
  ⟨fun V c => Cert.Gcn.arrAt3 V c,
   fun V c A b hA hb => by subst hA hb; exact Cert.Gcn.arrAt4_sum V c,
   fun V c A b hA hb => by subst hA hb; exact Cert.Gcn.arrAt4_sq V c,
   fun V c A b mu inv g be a hA hb hmu hinv hg hbe ha => Cert.Gcn.arrAt5 V c A b mu inv g be a hA hb hmu hinv hg hbe ha,
   keep8_a7 m ρ c, keep9_v5 m ρ c, keep9_v6 m ρ c, keep9_v32 m ρ c, w3_v5 m ρ c, w3_v6 m ρ c, w3_v32 m ρ c,
   keep9_a8 m ρ c, keep11_a8 m ρ c, keep11_a9 m ρ c, keep11_a10 m ρ c, keep11_a11 m ρ c, keep12_v76 m ρ c⟩

/-- The kernel's result array: both layers, each variance as the mean of the squares minus the squared mean. -/
theorem kernel_value : W13 m ρ c (Proc.devRef .tc main_v92)
    = Cert.Gcn.layerSq (Cert.Gcn.agg (m ((c : Thread nD τ).loc main_arg1)) (Cert.Gcn.mm
        (Cert.Gcn.layerSq (Cert.Gcn.agg (m ((c : Thread nD τ).loc main_arg1)) (Cert.Gcn.mm (m ((c : Thread nD τ).loc main_arg0)) (m ((c : Thread nD τ).loc main_arg2)))) (Cert.Gcn.vecOf (m ((c : Thread nD τ).loc main_arg3))) (Cert.Gcn.vecOf (m ((c : Thread nD τ).loc main_arg4))) (Cert.Gcn.vecOf (m ((c : Thread nD τ).loc main_arg5))) (Cert.Gcn.scalOf (m ((c : Thread nD τ).loc main_arg6))))
        (m ((c : Thread nD τ).loc main_arg7)))) (Cert.Gcn.vecOf (m ((c : Thread nD τ).loc main_arg8))) (Cert.Gcn.vecOf (m ((c : Thread nD τ).loc main_arg9))) (Cert.Gcn.vecOf (m ((c : Thread nD τ).loc main_arg10))) (Cert.Gcn.scalOf (m ((c : Thread nD τ).loc main_arg11))) :=
  layer2 m ρ c (layer2_facts m ρ c) _ (w8_v62 m ρ c)

end Cert.KernelIdeal.KV

end
-- ==== Proof.RefRun.lean ====
/-
  The idealized reference's run.  Its program is a straight line of 158 host operations, so every weakly fair
  execution ends with each buffer at the fold of the operations' results over the launch contents.  The line is cut
  in four stretches — the graph side, the dense projection and the first aggregation; the first normalisation and
  rectifier; the second projection and aggregation; the second normalisation and rectifier — and each stretch is read
  from ANY contents `V` of the buffers before it: the buffers a later stretch reads hold the stage functions of the
  arguments, provided the buffers the stretch itself reads did; a buffer a stretch does not write keeps its contents.
  Chained, the result buffer ends at the last stage function of the launch arguments, and the arguments unchanged.
-/
import proofs.«139484_j50294067036840_1_alg».proof.Proof.RefOps
import proofs.«139484_j50294067036840_1_alg».proof.Proof.RefRead

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Two lines run one after the other: the second folds over what the first leaves. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- The graph side, the first dense projection and the first aggregation (operations 1 to 61). -/
abbrev ops1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v5 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v5 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v5 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v7 main_v24 (mulf : (⟨S850000, .f32⟩ : BufTy).Contents (Elt F) → (⟨S850000, .f32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v6 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v16 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)),
    binary main_arg0 main_arg2 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v34 (broadcastInDim S850000 ![] bcast_S_S850000 : (⟨S_, .i32⟩ : BufTy).Contents (Elt F) → (⟨S850000, .i32⟩ : BufTy).Contents (Elt F)),
    binary main_v5 main_v34 main_v35 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v36 (broadcastInDim S850000 ![] bcast_S_S850000 : (⟨S_, .i32⟩ : BufTy).Contents (Elt F) → (⟨S850000, .i32⟩ : BufTy).Contents (Elt F)),
    binary main_v5 main_v36 main_v37 (addi : (⟨S850000, .i32⟩ : BufTy).Contents (Elt F) → (⟨S850000, .i32⟩ : BufTy).Contents (Elt F) → (⟨S850000, .i32⟩ : BufTy).Contents (Elt F)),
    ternary main_v35 main_v37 main_v5 main_v38 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v38 main_v39 (broadcastInDim S850000x1 ![0] bcast_S850000_S850000x1_0 : (⟨S850000, .i32⟩ : BufTy).Contents (Elt F) → (⟨S850000x1, .i32⟩ : BufTy).Contents (Elt F)),
    binary main_v33 main_v39 main_v40 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v41 (broadcastInDim S850000x1 ![0] bcast_S850000_S850000x1_0 : (⟨S850000, .f32⟩ : BufTy).Contents (Elt F) → (⟨S850000x1, .f32⟩ : BufTy).Contents (Elt F)),
    unary main_v41 main_v42 (broadcastInDim S850000x128 ![0, 1] bcast_S850000x1_S850000x128_0_1 : (⟨S850000x1, .f32⟩ : BufTy).Contents (Elt F) → (⟨S850000x128, .f32⟩ : BufTy).Contents (Elt F)),
    binary main_v40 main_v42 main_v43 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v44 (broadcastInDim S50000x128 ![] bcast_S_S50000x128 : (⟨S_, .f32⟩ : BufTy).Contents (Elt F) → (⟨S50000x128, .f32⟩ : BufTy).Contents (Elt F)),
    unary main_v6 main_v45 (broadcastInDim S850000x1 ![0] bcast_S850000_S850000x1_0 : (⟨S850000, .i32⟩ : BufTy).Contents (Elt F) → (⟨S850000x1, .i32⟩ : BufTy).Contents (Elt F)),
    ternary main_v44 main_v45 main_v43 main_v46 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The first normalisation and rectifier (operations 62 to 101). -/
abbrev ops2 : List (HloOp τ sig (Elt F)) :=
  [ unary main_arg3 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    binary main_v49 main_cst_10 main_v50 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v51 (broadcastInDim S128 ![] bcast_S_S128 : (⟨S_, .f32⟩ : BufTy).Contents (Elt F) → (⟨S128, .f32⟩ : BufTy).Contents (Elt F)),
    binary main_v50 main_v51 main_v52 (Host.divf : (⟨S128, .f32⟩ : BufTy).Contents (Elt F) → (⟨S128, .f32⟩ : BufTy).Contents (Elt F) → (⟨S128, .f32⟩ : BufTy).Contents (Elt F)),
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v49 main_v54 main_v55 (subf : (⟨S50000x128, .f32⟩ : BufTy).Contents (Elt F) → (⟨S50000x128, .f32⟩ : BufTy).Contents (Elt F) → (⟨S50000x128, .f32⟩ : BufTy).Contents (Elt F)),
    binary main_v55 main_v55 main_v56 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v56 main_cst_12 main_v57 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v58 (broadcastInDim S128 ![] bcast_S_S128 : (⟨S_, .f32⟩ : BufTy).Contents (Elt F) → (⟨S128, .f32⟩ : BufTy).Contents (Elt F)),
    binary main_v57 main_v58 main_v59 (Host.divf : (⟨S128, .f32⟩ : BufTy).Contents (Elt F) → (⟨S128, .f32⟩ : BufTy).Contents (Elt F) → (⟨S128, .f32⟩ : BufTy).Contents (Elt F)),
    unary main_v52 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v49 main_v61 main_v62 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v63 (broadcastInDim S128 ![] bcast_S_S128 : (⟨S_, .f32⟩ : BufTy).Contents (Elt F) → (⟨S128, .f32⟩ : BufTy).Contents (Elt F)),
    binary main_v59 main_v63 main_v64 (addf : (⟨S128, .f32⟩ : BufTy).Contents (Elt F) → (⟨S128, .f32⟩ : BufTy).Contents (Elt F) → (⟨S128, .f32⟩ : BufTy).Contents (Elt F)),
    unary main_v64 main_v65 (Host.rsqrt : (⟨S128, .f32⟩ : BufTy).Contents (Elt F) → (⟨S128, .f32⟩ : BufTy).Contents (Elt F)),
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v62 main_v67 main_v68 (mulf : (⟨S50000x128, .f32⟩ : BufTy).Contents (Elt F) → (⟨S50000x128, .f32⟩ : BufTy).Contents (Elt F) → (⟨S50000x128, .f32⟩ : BufTy).Contents (Elt F)),
    unary main_arg4 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (mulf : (⟨S50000x128, .f32⟩ : BufTy).Contents (Elt F) → (⟨S50000x128, .f32⟩ : BufTy).Contents (Elt F) → (⟨S50000x128, .f32⟩ : BufTy).Contents (Elt F)),
    unary main_arg5 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (addf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    unary main_cst_15 main_v75 (broadcastInDim S50000x128 ![] bcast_S_S50000x128 : (⟨S_, .f32⟩ : BufTy).Contents (Elt F) → (⟨S50000x128, .f32⟩ : BufTy).Contents (Elt F)),
    binary main_v74 main_v75 main_v76 (cmpf .oge : (⟨S50000x128, .f32⟩ : BufTy).Contents (Elt F) → (⟨S50000x128, .f32⟩ : BufTy).Contents (Elt F) → (⟨S50000x128, .i1⟩ : BufTy).Contents (Elt F)),
    unary main_arg6 main_v77 (broadcastInDim S1x1 ![1] bcast_S1_S1x1_1 : (⟨S1, .f32⟩ : BufTy).Contents (Elt F) → (⟨S1x1, .f32⟩ : BufTy).Contents (Elt F)),
    unary main_v77 main_v78 (broadcastInDim S50000x128 ![0, 1] bcast_S1x1_S50000x128_0_1 : (⟨S1x1, .f32⟩ : BufTy).Contents (Elt F) → (⟨S50000x128, .f32⟩ : BufTy).Contents (Elt F)),
    binary main_v78 main_v74 main_v79 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v76) (TRef.of (T := ⟨S50000x128, .f32⟩) main_v74) (TRef.of (T := ⟨S50000x128, .f32⟩) main_v79) (TRef.of (T := ⟨S50000x128, .f32⟩) main_v80) select ]

/-- The second dense projection and aggregation (operations 102 to 118). -/
abbrev ops3 : List (HloOp τ sig (Elt F)) :=
  [ binary main_v80 main_arg7 main_v81 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_16 (constantI S_ 32 0#32),
    unary main_c_16 main_v82 (broadcastInDim S850000 ![] bcast_S_S850000 : (⟨S_, .i32⟩ : BufTy).Contents (Elt F) → (⟨S850000, .i32⟩ : BufTy).Contents (Elt F)),
    binary main_v5 main_v82 main_v83 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v84 (broadcastInDim S850000 ![] bcast_S_S850000 : (⟨S_, .i32⟩ : BufTy).Contents (Elt F) → (⟨S850000, .i32⟩ : BufTy).Contents (Elt F)),
    binary main_v5 main_v84 main_v85 (addi : (⟨S850000, .i32⟩ : BufTy).Contents (Elt F) → (⟨S850000, .i32⟩ : BufTy).Contents (Elt F) → (⟨S850000, .i32⟩ : BufTy).Contents (Elt F)),
    ternary main_v83 main_v85 main_v5 main_v86 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v86 main_v87 (broadcastInDim S850000x1 ![0] bcast_S850000_S850000x1_0 : (⟨S850000, .i32⟩ : BufTy).Contents (Elt F) → (⟨S850000x1, .i32⟩ : BufTy).Contents (Elt F)),
    binary main_v81 main_v87 main_v88 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v89 (broadcastInDim S850000x1 ![0] bcast_S850000_S850000x1_0 : (⟨S850000, .f32⟩ : BufTy).Contents (Elt F) → (⟨S850000x1, .f32⟩ : BufTy).Contents (Elt F)),
    unary main_v89 main_v90 (broadcastInDim S850000x128 ![0, 1] bcast_S850000x1_S850000x128_0_1 : (⟨S850000x1, .f32⟩ : BufTy).Contents (Elt F) → (⟨S850000x128, .f32⟩ : BufTy).Contents (Elt F)),
    binary main_v88 main_v90 main_v91 (mulf : (⟨S850000x128, .f32⟩ : BufTy).Contents (Elt F) → (⟨S850000x128, .f32⟩ : BufTy).Contents (Elt F) → (⟨S850000x128, .f32⟩ : BufTy).Contents (Elt F)),
    nullary main_cst_18 (constant S_ .f32 0x00000000#32),
    unary main_cst_18 main_v92 (broadcastInDim S50000x128 ![] bcast_S_S50000x128 : (⟨S_, .f32⟩ : BufTy).Contents (Elt F) → (⟨S50000x128, .f32⟩ : BufTy).Contents (Elt F)),
    unary main_v6 main_v93 (broadcastInDim S850000x1 ![0] bcast_S850000_S850000x1_0 : (⟨S850000, .i32⟩ : BufTy).Contents (Elt F) → (⟨S850000x1, .i32⟩ : BufTy).Contents (Elt F)),
    ternary main_v92 main_v93 main_v91 main_v94 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The second normalisation and rectifier (operations 119 to 158). -/
abbrev ops4 : List (HloOp τ sig (Elt F)) :=
  [ unary main_arg8 main_v95 (broadcastInDim S1x128 ![1] bcast_S128_S1x128_1 : (⟨S128, .f32⟩ : BufTy).Contents (Elt F) → (⟨S1x128, .f32⟩ : BufTy).Contents (Elt F)),
    unary main_v95 main_v96 (broadcastInDim S50000x128 ![0, 1] bcast_S1x128_S50000x128_0_1 : (⟨S1x128, .f32⟩ : BufTy).Contents (Elt F) → (⟨S50000x128, .f32⟩ : BufTy).Contents (Elt F)),
    binary main_v94 main_v96 main_v97 (addf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v97 main_cst_19 main_v98 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_20 (constant S_ .f32 0x47435000#32),
    unary main_cst_20 main_v99 (broadcastInDim S128 ![] bcast_S_S128 : (⟨S_, .f32⟩ : BufTy).Contents (Elt F) → (⟨S128, .f32⟩ : BufTy).Contents (Elt F)),
    binary main_v98 main_v99 main_v100 (Host.divf : (⟨S128, .f32⟩ : BufTy).Contents (Elt F) → (⟨S128, .f32⟩ : BufTy).Contents (Elt F) → (⟨S128, .f32⟩ : BufTy).Contents (Elt F)),
    unary main_v100 main_v101 (broadcastInDim S1x128 ![1] bcast_S128_S1x128_1 : (⟨S128, .f32⟩ : BufTy).Contents (Elt F) → (⟨S1x128, .f32⟩ : BufTy).Contents (Elt F)),
    unary main_v101 main_v102 (broadcastInDim S50000x128 ![0, 1] bcast_S1x128_S50000x128_0_1 : (⟨S1x128, .f32⟩ : BufTy).Contents (Elt F) → (⟨S50000x128, .f32⟩ : BufTy).Contents (Elt F)),
    binary main_v97 main_v102 main_v103 (subf : (⟨S50000x128, .f32⟩ : BufTy).Contents (Elt F) → (⟨S50000x128, .f32⟩ : BufTy).Contents (Elt F) → (⟨S50000x128, .f32⟩ : BufTy).Contents (Elt F)),
    binary main_v103 main_v103 main_v104 (mulf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x00000000#32),
    binary main_v104 main_cst_21 main_v105 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_22 (constant S_ .f32 0x47435000#32),
    unary main_cst_22 main_v106 (broadcastInDim S128 ![] bcast_S_S128 : (⟨S_, .f32⟩ : BufTy).Contents (Elt F) → (⟨S128, .f32⟩ : BufTy).Contents (Elt F)),
    binary main_v105 main_v106 main_v107 (Host.divf : (⟨S128, .f32⟩ : BufTy).Contents (Elt F) → (⟨S128, .f32⟩ : BufTy).Contents (Elt F) → (⟨S128, .f32⟩ : BufTy).Contents (Elt F)),
    unary main_v100 main_v108 (broadcastInDim S1x128 ![1] bcast_S128_S1x128_1 : (⟨S128, .f32⟩ : BufTy).Contents (Elt F) → (⟨S1x128, .f32⟩ : BufTy).Contents (Elt F)),
    unary main_v108 main_v109 (broadcastInDim S50000x128 ![0, 1] bcast_S1x128_S50000x128_0_1 : (⟨S1x128, .f32⟩ : BufTy).Contents (Elt F) → (⟨S50000x128, .f32⟩ : BufTy).Contents (Elt F)),
    binary main_v97 main_v109 main_v110 (subf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x3727C5AC#32),
    unary main_cst_23 main_v111 (broadcastInDim S128 ![] bcast_S_S128 : (⟨S_, .f32⟩ : BufTy).Contents (Elt F) → (⟨S128, .f32⟩ : BufTy).Contents (Elt F)),
    binary main_v107 main_v111 main_v112 (addf : (⟨S128, .f32⟩ : BufTy).Contents (Elt F) → (⟨S128, .f32⟩ : BufTy).Contents (Elt F) → (⟨S128, .f32⟩ : BufTy).Contents (Elt F)),
    unary main_v112 main_v113 (Host.rsqrt : (⟨S128, .f32⟩ : BufTy).Contents (Elt F) → (⟨S128, .f32⟩ : BufTy).Contents (Elt F)),
    unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v110 main_v115 main_v116 (mulf : (⟨S50000x128, .f32⟩ : BufTy).Contents (Elt F) → (⟨S50000x128, .f32⟩ : BufTy).Contents (Elt F) → (⟨S50000x128, .f32⟩ : BufTy).Contents (Elt F)),
    unary main_arg9 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v116 main_v118 main_v119 (mulf : (⟨S50000x128, .f32⟩ : BufTy).Contents (Elt F) → (⟨S50000x128, .f32⟩ : BufTy).Contents (Elt F) → (⟨S50000x128, .f32⟩ : BufTy).Contents (Elt F)),
    unary main_arg10 main_v120 (broadcastInDim S1x128 ![1] bcast_S128_S1x128_1 : (⟨S128, .f32⟩ : BufTy).Contents (Elt F) → (⟨S1x128, .f32⟩ : BufTy).Contents (Elt F)),
    unary main_v120 main_v121 (broadcastInDim S50000x128 ![0, 1] bcast_S1x128_S50000x128_0_1 : (⟨S1x128, .f32⟩ : BufTy).Contents (Elt F) → (⟨S50000x128, .f32⟩ : BufTy).Contents (Elt F)),
    binary main_v119 main_v121 main_v122 (addf : (⟨S50000x128, .f32⟩ : BufTy).Contents (Elt F) → (⟨S50000x128, .f32⟩ : BufTy).Contents (Elt F) → (⟨S50000x128, .f32⟩ : BufTy).Contents (Elt F)),
    nullary main_cst_24 (constant S_ .f32 0x00000000#32),
    unary main_cst_24 main_v123 (broadcastInDim S50000x128 ![] bcast_S_S50000x128 : (⟨S_, .f32⟩ : BufTy).Contents (Elt F) → (⟨S50000x128, .f32⟩ : BufTy).Contents (Elt F)),
    binary main_v122 main_v123 main_v124 (cmpf .oge : (⟨S50000x128, .f32⟩ : BufTy).Contents (Elt F) → (⟨S50000x128, .f32⟩ : BufTy).Contents (Elt F) → (⟨S50000x128, .i1⟩ : BufTy).Contents (Elt F)),
    unary main_arg11 main_v125 (broadcastInDim S1x1 ![1] bcast_S1_S1x1_1 : (⟨S1, .f32⟩ : BufTy).Contents (Elt F) → (⟨S1x1, .f32⟩ : BufTy).Contents (Elt F)),
    unary main_v125 main_v126 (broadcastInDim S50000x128 ![0, 1] bcast_S1x1_S50000x128_0_1 : (⟨S1x1, .f32⟩ : BufTy).Contents (Elt F) → (⟨S50000x128, .f32⟩ : BufTy).Contents (Elt F)),
    binary main_v126 main_v122 main_v127 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v124) (TRef.of (T := ⟨S50000x128, .f32⟩) main_v122) (TRef.of (T := ⟨S50000x128, .f32⟩) main_v127) (TRef.of (T := ⟨S50000x128, .f32⟩) main_v128) select ]

set_option maxRecDepth 8192 in
/-- The program's line is the four stretches in order. -/
theorem ops_split : (ops : List (HloOp τ sig (Elt F))) = ops1 ++ (ops2 ++ (ops3 ++ ops4)) := rfl

section Stretches

variable (V : Valuation τ sig (Elt F))

/-! ### The first stretch -/

set_option maxRecDepth 8192 in
set_option maxHeartbeats 8000000 in
theorem s1_v46 : after ops1 V (Proc.devRef .tc main_v46) = val_main_v46 (V (Proc.devRef .tc main_arg0)) (V (Proc.devRef .tc main_arg1)) (V (Proc.devRef .tc main_arg2)) := by
  after_results_simp <;> rfl
set_option maxRecDepth 8192 in
set_option maxHeartbeats 8000000 in
theorem s1_v5 : after ops1 V (Proc.devRef .tc main_v5) = val_main_v5 (V (Proc.devRef .tc main_arg1)) := by after_results_simp <;> rfl
set_option maxRecDepth 8192 in
set_option maxHeartbeats 8000000 in
theorem s1_v6 : after ops1 V (Proc.devRef .tc main_v6) = val_main_v6 (V (Proc.devRef .tc main_arg1)) := by after_results_simp <;> rfl
set_option maxRecDepth 8192 in
set_option maxHeartbeats 8000000 in
theorem s1_v32 : after ops1 V (Proc.devRef .tc main_v32) = val_main_v32 (V (Proc.devRef .tc main_arg1)) := by after_results_simp <;> rfl
set_option maxHeartbeats 8000000 in
theorem s1_a3 : after ops1 V (Proc.devRef .tc main_arg3) = V (Proc.devRef .tc main_arg3) := by after_results_simp <;> rfl
set_option maxHeartbeats 8000000 in
theorem s1_a4 : after ops1 V (Proc.devRef .tc main_arg4) = V (Proc.devRef .tc main_arg4) := by after_results_simp <;> rfl
set_option maxHeartbeats 8000000 in
theorem s1_a5 : after ops1 V (Proc.devRef .tc main_arg5) = V (Proc.devRef .tc main_arg5) := by after_results_simp <;> rfl
set_option maxHeartbeats 8000000 in
theorem s1_a6 : after ops1 V (Proc.devRef .tc main_arg6) = V (Proc.devRef .tc main_arg6) := by after_results_simp <;> rfl
set_option maxHeartbeats 8000000 in
theorem s1_a7 : after ops1 V (Proc.devRef .tc main_arg7) = V (Proc.devRef .tc main_arg7) := by after_results_simp <;> rfl
set_option maxHeartbeats 8000000 in
theorem s1_a8 : after ops1 V (Proc.devRef .tc main_arg8) = V (Proc.devRef .tc main_arg8) := by after_results_simp <;> rfl
set_option maxHeartbeats 8000000 in
theorem s1_a9 : after ops1 V (Proc.devRef .tc main_arg9) = V (Proc.devRef .tc main_arg9) := by after_results_simp <;> rfl
set_option maxHeartbeats 8000000 in
theorem s1_a10 : after ops1 V (Proc.devRef .tc main_arg10) = V (Proc.devRef .tc main_arg10) := by after_results_simp <;> rfl
set_option maxHeartbeats 8000000 in
theorem s1_a11 : after ops1 V (Proc.devRef .tc main_arg11) = V (Proc.devRef .tc main_arg11) := by after_results_simp <;> rfl

/-! ### The second stretch -/

set_option maxRecDepth 8192 in
set_option maxHeartbeats 8000000 in
theorem s2_v80 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S1, .f32⟩ : BufTy).Contents (Elt F))
    (h46 : V (Proc.devRef .tc main_v46) = val_main_v46 x0 x1 x2)
    (h3 : V (Proc.devRef .tc main_arg3) = x3) (h4 : V (Proc.devRef .tc main_arg4) = x4)
    (h5 : V (Proc.devRef .tc main_arg5) = x5) (h6 : V (Proc.devRef .tc main_arg6) = x6) :
    after ops2 V (Proc.devRef .tc main_v80) = val_main_v80 x0 x1 x2 x3 x4 x5 x6 := by
  after_results_simp
  rw [h46, h3, h4, h5, h6]
  rfl
set_option maxHeartbeats 8000000 in
theorem s2_v5 : after ops2 V (Proc.devRef .tc main_v5) = V (Proc.devRef .tc main_v5) := by after_results_simp <;> rfl
set_option maxHeartbeats 8000000 in
theorem s2_v6 : after ops2 V (Proc.devRef .tc main_v6) = V (Proc.devRef .tc main_v6) := by after_results_simp <;> rfl
set_option maxHeartbeats 8000000 in
theorem s2_v32 : after ops2 V (Proc.devRef .tc main_v32) = V (Proc.devRef .tc main_v32) := by after_results_simp <;> rfl
set_option maxHeartbeats 8000000 in
theorem s2_a7 : after ops2 V (Proc.devRef .tc main_arg7) = V (Proc.devRef .tc main_arg7) := by after_results_simp <;> rfl
set_option maxHeartbeats 8000000 in
theorem s2_a8 : after ops2 V (Proc.devRef .tc main_arg8) = V (Proc.devRef .tc main_arg8) := by after_results_simp <;> rfl
set_option maxHeartbeats 8000000 in
theorem s2_a9 : after ops2 V (Proc.devRef .tc main_arg9) = V (Proc.devRef .tc main_arg9) := by after_results_simp <;> rfl
set_option maxHeartbeats 8000000 in
theorem s2_a10 : after ops2 V (Proc.devRef .tc main_arg10) = V (Proc.devRef .tc main_arg10) := by after_results_simp <;> rfl
set_option maxHeartbeats 8000000 in
theorem s2_a11 : after ops2 V (Proc.devRef .tc main_arg11) = V (Proc.devRef .tc main_arg11) := by after_results_simp <;> rfl

/-! ### The third stretch -/

set_option maxRecDepth 8192 in
set_option maxHeartbeats 8000000 in
theorem s3_v94 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S1, .f32⟩ : BufTy).Contents (Elt F)) (x7 : (⟨S128x128, .f32⟩ : BufTy).Contents (Elt F))
    (h80 : V (Proc.devRef .tc main_v80) = val_main_v80 x0 x1 x2 x3 x4 x5 x6)
    (hv5 : V (Proc.devRef .tc main_v5) = val_main_v5 x1) (hv6 : V (Proc.devRef .tc main_v6) = val_main_v6 x1)
    (hv32 : V (Proc.devRef .tc main_v32) = val_main_v32 x1) (h7 : V (Proc.devRef .tc main_arg7) = x7) :
    after ops3 V (Proc.devRef .tc main_v94) = val_main_v94 x0 x1 x2 x3 x4 x5 x6 x7 := by
  after_results_simp
  rw [h80, hv5, hv6, hv32, h7]
  rfl
set_option maxHeartbeats 8000000 in
theorem s3_a8 : after ops3 V (Proc.devRef .tc main_arg8) = V (Proc.devRef .tc main_arg8) := by after_results_simp <;> rfl
set_option maxHeartbeats 8000000 in
theorem s3_a9 : after ops3 V (Proc.devRef .tc main_arg9) = V (Proc.devRef .tc main_arg9) := by after_results_simp <;> rfl
set_option maxHeartbeats 8000000 in
theorem s3_a10 : after ops3 V (Proc.devRef .tc main_arg10) = V (Proc.devRef .tc main_arg10) := by after_results_simp <;> rfl
set_option maxHeartbeats 8000000 in
theorem s3_a11 : after ops3 V (Proc.devRef .tc main_arg11) = V (Proc.devRef .tc main_arg11) := by after_results_simp <;> rfl

/-! ### The fourth stretch -/

set_option maxRecDepth 8192 in
set_option maxHeartbeats 8000000 in
theorem s4_v128 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S1, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S1, .f32⟩ : BufTy).Contents (Elt F))
    (h94 : V (Proc.devRef .tc main_v94) = val_main_v94 x0 x1 x2 x3 x4 x5 x6 x7)
    (h8 : V (Proc.devRef .tc main_arg8) = x8) (h9 : V (Proc.devRef .tc main_arg9) = x9)
    (h10 : V (Proc.devRef .tc main_arg10) = x10) (h11 : V (Proc.devRef .tc main_arg11) = x11) :
    after ops4 V (Proc.devRef .tc main_v128) = val_main_v128 x0 x1 x2 x3 x4 x5 x6 x7 x8 x9 x10 x11 := by
  after_results_simp
  rw [h94, h8, h9, h10, h11]
  rfl

/-! ### The whole line -/

/-- The result buffer after the whole line: the last stage function of the arguments' contents before it. -/
theorem result_eq : after ops V (Proc.devRef .tc main_v128)
    = val_main_v128 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_split, after_append, after_append, after_append]
  refine s4_v128 _ _ _ _ _ _ _ _ _ _ _ _ _ ?_ ?_ ?_ ?_ ?_
  · refine s3_v94 _ _ _ _ _ _ _ _ _ ?_ ?_ ?_ ?_ ?_
    · exact s2_v80 _ _ _ _ _ _ _ _ (s1_v46 V) (s1_a3 V) (s1_a4 V) (s1_a5 V) (s1_a6 V)
    · exact (s2_v5 _).trans (s1_v5 V)
    · exact (s2_v6 _).trans (s1_v6 V)
    · exact (s2_v32 _).trans (s1_v32 V)
    · exact (s2_a7 _).trans (s1_a7 V)
  · exact (s3_a8 _).trans ((s2_a8 _).trans (s1_a8 V))
  · exact (s3_a9 _).trans ((s2_a9 _).trans (s1_a9 V))
  · exact (s3_a10 _).trans ((s2_a10 _).trans (s1_a10 V))
  · exact (s3_a11 _).trans ((s2_a11 _).trans (s1_a11 V))

set_option maxRecDepth 8192 in
set_option maxHeartbeats 16000000 in
/-- No operation writes argument 0. -/
theorem keep_a0 : after ops V (Proc.devRef .tc main_arg0) = V (Proc.devRef .tc main_arg0) := by after_results_simp <;> rfl
set_option maxRecDepth 8192 in
set_option maxHeartbeats 16000000 in
/-- No operation writes argument 1. -/
theorem keep_a1 : after ops V (Proc.devRef .tc main_arg1) = V (Proc.devRef .tc main_arg1) := by after_results_simp <;> rfl
set_option maxRecDepth 8192 in
set_option maxHeartbeats 16000000 in
/-- No operation writes argument 2. -/
theorem keep_a2 : after ops V (Proc.devRef .tc main_arg2) = V (Proc.devRef .tc main_arg2) := by after_results_simp <;> rfl
set_option maxRecDepth 8192 in
set_option maxHeartbeats 16000000 in
/-- No operation writes argument 3. -/
theorem keep_a3 : after ops V (Proc.devRef .tc main_arg3) = V (Proc.devRef .tc main_arg3) := by after_results_simp <;> rfl
set_option maxRecDepth 8192 in
set_option maxHeartbeats 16000000 in
/-- No operation writes argument 4. -/
theorem keep_a4 : after ops V (Proc.devRef .tc main_arg4) = V (Proc.devRef .tc main_arg4) := by after_results_simp <;> rfl
set_option maxRecDepth 8192 in
set_option maxHeartbeats 16000000 in
/-- No operation writes argument 5. -/
theorem keep_a5 : after ops V (Proc.devRef .tc main_arg5) = V (Proc.devRef .tc main_arg5) := by after_results_simp <;> rfl
set_option maxRecDepth 8192 in
set_option maxHeartbeats 16000000 in
/-- No operation writes argument 6. -/
theorem keep_a6 : after ops V (Proc.devRef .tc main_arg6) = V (Proc.devRef .tc main_arg6) := by after_results_simp <;> rfl
set_option maxRecDepth 8192 in
set_option maxHeartbeats 16000000 in
/-- No operation writes argument 7. -/
theorem keep_a7 : after ops V (Proc.devRef .tc main_arg7) = V (Proc.devRef .tc main_arg7) := by after_results_simp <;> rfl
set_option maxRecDepth 8192 in
set_option maxHeartbeats 16000000 in
/-- No operation writes argument 8. -/
theorem keep_a8 : after ops V (Proc.devRef .tc main_arg8) = V (Proc.devRef .tc main_arg8) := by after_results_simp <;> rfl
set_option maxRecDepth 8192 in
set_option maxHeartbeats 16000000 in
/-- No operation writes argument 9. -/
theorem keep_a9 : after ops V (Proc.devRef .tc main_arg9) = V (Proc.devRef .tc main_arg9) := by after_results_simp <;> rfl
set_option maxRecDepth 8192 in
set_option maxHeartbeats 16000000 in
/-- No operation writes argument 10. -/
theorem keep_a10 : after ops V (Proc.devRef .tc main_arg10) = V (Proc.devRef .tc main_arg10) := by after_results_simp <;> rfl
set_option maxRecDepth 8192 in
set_option maxHeartbeats 16000000 in
/-- No operation writes argument 11. -/
theorem keep_a11 : after ops V (Proc.devRef .tc main_arg11) = V (Proc.devRef .tc main_arg11) := by after_results_simp <;> rfl

end Stretches

/-- On every device, from any memory with zero counters: every weakly fair execution of the reference terminates
    with the result at the last stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v128) = val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v128).trans (result_eq (launchContents m c)),
      (h c main_arg0).trans (keep_a0 (launchContents m c)),
      (h c main_arg1).trans (keep_a1 (launchContents m c)),
      (h c main_arg2).trans (keep_a2 (launchContents m c)),
      (h c main_arg3).trans (keep_a3 (launchContents m c)),
      (h c main_arg4).trans (keep_a4 (launchContents m c)),
      (h c main_arg5).trans (keep_a5 (launchContents m c)),
      (h c main_arg6).trans (keep_a6 (launchContents m c)),
      (h c main_arg7).trans (keep_a7 (launchContents m c)),
      (h c main_arg8).trans (keep_a8 (launchContents m c)),
      (h c main_arg9).trans (keep_a9 (launchContents m c)),
      (h c main_arg10).trans (keep_a10 (launchContents m c)),
      (h c main_arg11).trans (keep_a11 (launchContents m c))⟩)
    (run_seq scopedRefs_eq scopedSems_eq defs main (fun _ => ops) main_eq (fun _ => ops_sub) m ρ)

end Cert.ReferenceIdeal.RunP

end
-- ==== Proof.RefValue.lean ====
/-
  The reference program computes the network of the specification.

  Read one operation at a time: the two dense projections are the sums `Σₖ x (n, k) · w (k, j)`; the graph chain
  (sources and targets with the self-loops appended, degrees, edge weights, and the gather, scaling and
  scatter-add of the aggregation) is the composition of host operations that the specification names; and what
  follows each aggregation is `layerDev` entry by entry — the bias row added, the column's mean as the sum from
  zero over the nodes divided by their number, the variance as the mean of the squared deviations,
  `(v - μ) · (var + ε)^(-1/2) · g + be` in that order of operations, and the rectifier `x` for `x ≥ 0`, `a · x`
  otherwise.
-/
import proofs.«139484_j50294067036840_1_alg».proof.Proof.RefRead
import proofs.«139484_j50294067036840_1_alg».proof.Proof.Graph

noncomputable section

namespace Cert.Gcn

open Idealize.ShloMosaic Idealize.ShloMosaic.ValueIdx Cert.ReferenceIdeal Cert.ReferenceIdeal.ReadP

/-! ## The specification at an index split into node and column -/

/-- An entry of a layer at node `p`, column `q`. -/
theorem layerDev_ix2 (A : FVec Ideal SNF .f32) (b g be : Fin 128 → EReal) (a : EReal) (p : Fin 50000) (q : Fin 128) :
    layerDev A b g be a (ix2 p q)
      = npElt (A (ix2 p q)) (b q) (muOf (col A (b q) q)) (Ideal.rsqrt (varDev (col A (b q) q) + cEps)) (g q) (be q) a := rfl

/-- An entry of the dense projection at node `p`, column `q`. -/
theorem mm_ix2 (x : FVec Ideal SNF .f32) (w : FVec Ideal SFF .f32) (p : Fin 50000) (q : Fin 128) :
    mm x w (ix2 p q) = ∑ k : Fin 128, x (ix2 p k) * w (ix2 k q) := rfl

section

variable (x0 : FVec Ideal S50000x128 .f32) (x1 : IVec S2x800000 32) (x2 : FVec Ideal S128x128 .f32)
  (x3 x4 x5 : FVec Ideal S128 .f32) (x6 : FVec Ideal S1 .f32) (x7 : FVec Ideal S128x128 .f32)
  (x8 x9 x10 : FVec Ideal S128 .f32) (x11 : FVec Ideal S1 .f32)

/-! ## The dense projections -/

/-- The first projection is `x · w₁`. -/
theorem proj1_eq : val_main_v33 (F := Ideal) x0 x2 = mm x0 x2 := by
  funext i
  obtain ⟨p, q, rfl⟩ : ∃ (p : Fin 50000) (q : Fin 128), i = ix2 p q := ⟨i 0, i 1, eq_ix2 i⟩
  rw [val_main_v33_apply, mm_ix2]
  refine Finset.sum_congr rfl fun k _ => ?_
  have el : lidx_main_v33 (ix2 p q) k = ix2 p k := funext fun a => Fin.ext (by match a with | ⟨0, _⟩ => rfl | ⟨1, _⟩ => rfl)
  have er : ridx_main_v33 (ix2 p q) k = ix2 k q := funext fun a => Fin.ext (by match a with | ⟨0, _⟩ => rfl | ⟨1, _⟩ => rfl)
  rw [el, er]

/-- The second projection is the first layer's output times `w₂`. -/
theorem proj2_eq :
    val_main_v81 (F := Ideal) x0 x1 x2 x3 x4 x5 x6 x7 = mm (val_main_v80 (F := Ideal) x0 x1 x2 x3 x4 x5 x6) x7 := by
  funext i
  obtain ⟨p, q, rfl⟩ : ∃ (p : Fin 50000) (q : Fin 128), i = ix2 p q := ⟨i 0, i 1, eq_ix2 i⟩
  rw [val_main_v81_apply, mm_ix2]
  refine Finset.sum_congr rfl fun k _ => ?_
  have el : lidx_main_v81 (ix2 p q) k = ix2 p k := funext fun a => Fin.ext (by match a with | ⟨0, _⟩ => rfl | ⟨1, _⟩ => rfl)
  have er : ridx_main_v81 (ix2 p q) k = ix2 k q := funext fun a => Fin.ext (by match a with | ⟨0, _⟩ => rfl | ⟨1, _⟩ => rfl)
  rw [el, er]

/-! ## The graph chain

  The reference's operations on the edge list are, one for one, the operations the specification's definitions
  are made of; only the records that carry the operations' attributes are spelt in another namespace, with the
  same fields. -/

theorem src_eq : val_main_v5 (F := Ideal) x1 = srcA x1 := rfl
theorem dst_eq : val_main_v6 (F := Ideal) x1 = dstA x1 := rfl
theorem deg_eq : val_main_v10 (F := Ideal) x1 = deg x1 := rfl
theorem dinv_eq : val_main_v16 (F := Ideal) x1 = dinv x1 := rfl
theorem nrm_eq : val_main_v32 (F := Ideal) x1 = nrm x1 := rfl

/-- The first aggregation. -/
theorem agg1_eq : val_main_v46 (F := Ideal) x0 x1 x2 = agg x1 (val_main_v33 (F := Ideal) x0 x2) := rfl

/-- The second aggregation. -/
theorem agg2_eq :
    val_main_v94 (F := Ideal) x0 x1 x2 x3 x4 x5 x6 x7 = agg x1 (val_main_v81 (F := Ideal) x0 x1 x2 x3 x4 x5 x6 x7) := rfl

/-! ## The first layer after its aggregation -/

/-- The aggregate plus the bias row, at node `p` and column `q`: the column's entry. -/
theorem pre1_apply (p : Fin 50000) (q : Fin 128) :
    val_main_v49 (F := Ideal) x0 x1 x2 x3 (ix2 p q) = col (val_main_v46 (F := Ideal) x0 x1 x2) (vecOf x3 q) q p := by
  rw [val_main_v49_apply, val_main_v48_apply, val_main_v47_apply]
  have e : idx_main_v47 (idx_main_v48 (ix2 p q)) = ix1 q := funext fun a => Fin.ext (by match a with | ⟨0, _⟩ => rfl)
  rw [e]
  generalize val_main_v46 (F := Ideal) x0 x1 x2 = A
  rfl

/-- The column's mean: the sum over the nodes, from zero, divided by their number. -/
theorem mean1_apply (q : Fin 128) :
    val_main_v52 (F := Ideal) x0 x1 x2 x3 (ix1 q) = muOf (col (val_main_v46 (F := Ideal) x0 x1 x2) (vecOf x3 q) q) := by
  rw [val_main_v52_apply, val_main_v50_apply, val_main_v51_apply, val_main_cst_10_apply, val_main_cst_11_apply]
  show Ideal.div (Ideal.ofBits .f32 0x00000000#32 + ∑ k : Fin 50000, val_main_v49 (F := Ideal) x0 x1 x2 x3 (idx_main_v50 (ix1 q) k)) cN = _
  rw [Ideal.ofBits_zero_f32, zero_add]
  unfold muOf
  refine congrArg (fun s => Ideal.div s cN) (Finset.sum_congr rfl fun k _ => ?_)
  have e : idx_main_v50 (ix1 q) k = ix2 k q := funext fun a => Fin.ext (by match a with | ⟨0, _⟩ => rfl | ⟨1, _⟩ => rfl)
  rw [e, pre1_apply]

/-- An entry's deviation from its column's mean. -/
theorem dev1_apply (p : Fin 50000) (q : Fin 128) :
    val_main_v55 (F := Ideal) x0 x1 x2 x3 (ix2 p q) = (col (val_main_v46 (F := Ideal) x0 x1 x2) (vecOf x3 q) q) p - muOf (col (val_main_v46 (F := Ideal) x0 x1 x2) (vecOf x3 q) q) := by
  rw [val_main_v55_apply, val_main_v54_apply, val_main_v53_apply]
  have e : idx_main_v53 (idx_main_v54 (ix2 p q)) = ix1 q := funext fun a => Fin.ext (by match a with | ⟨0, _⟩ => rfl)
  rw [e, pre1_apply, mean1_apply]
  rfl

/-- The column's variance: the mean of the squared deviations. -/
theorem var1_apply (q : Fin 128) :
    val_main_v59 (F := Ideal) x0 x1 x2 x3 (ix1 q) = varDev (col (val_main_v46 (F := Ideal) x0 x1 x2) (vecOf x3 q) q) := by
  rw [val_main_v59_apply, val_main_v57_apply, val_main_v58_apply, val_main_cst_12_apply, val_main_cst_13_apply]
  show Ideal.div (Ideal.ofBits .f32 0x00000000#32 + ∑ k : Fin 50000, val_main_v56 (F := Ideal) x0 x1 x2 x3 (idx_main_v57 (ix1 q) k)) cN = _
  rw [Ideal.ofBits_zero_f32, zero_add]
  unfold varDev
  refine congrArg (fun s => Ideal.div s cN) (Finset.sum_congr rfl fun k _ => ?_)
  have e : idx_main_v57 (ix1 q) k = ix2 k q := funext fun a => Fin.ext (by match a with | ⟨0, _⟩ => rfl | ⟨1, _⟩ => rfl)
  rw [e, val_main_v56_apply, dev1_apply]
  rfl

/-- The column's inverse standard deviation `(var + ε)^(-1/2)`. -/
theorem inv1_apply (q : Fin 128) :
    val_main_v65 (F := Ideal) x0 x1 x2 x3 (ix1 q) = Ideal.rsqrt (varDev (col (val_main_v46 (F := Ideal) x0 x1 x2) (vecOf x3 q) q) + cEps) := by
  rw [val_main_v65_apply, val_main_v64_apply, val_main_v63_apply, val_main_cst_14_apply, var1_apply]
  rfl

/-- The normalised entry `(v - μ) · (var + ε)^(-1/2) · g + be`, in the reference's order of operations. -/
theorem norm1_apply (p : Fin 50000) (q : Fin 128) :
    val_main_v74 (F := Ideal) x0 x1 x2 x3 x4 x5 (ix2 p q)
      = ((val_main_v46 (F := Ideal) x0 x1 x2) (ix2 p q) + vecOf x3 q - muOf (col (val_main_v46 (F := Ideal) x0 x1 x2) (vecOf x3 q) q)) * Ideal.rsqrt (varDev (col (val_main_v46 (F := Ideal) x0 x1 x2) (vecOf x3 q) q) + cEps) * vecOf x4 q + vecOf x5 q := by
  rw [val_main_v74_apply, val_main_v71_apply, val_main_v68_apply, val_main_v62_apply, val_main_v61_apply, val_main_v60_apply,
    val_main_v67_apply, val_main_v66_apply, val_main_v70_apply, val_main_v69_apply, val_main_v73_apply, val_main_v72_apply]
  have e1 : idx_main_v60 (idx_main_v61 (ix2 p q)) = ix1 q := funext fun a => Fin.ext (by match a with | ⟨0, _⟩ => rfl)
  have e2 : idx_main_v66 (idx_main_v67 (ix2 p q)) = ix1 q := funext fun a => Fin.ext (by match a with | ⟨0, _⟩ => rfl)
  have e3 : idx_main_v69 (idx_main_v70 (ix2 p q)) = ix1 q := funext fun a => Fin.ext (by match a with | ⟨0, _⟩ => rfl)
  have e4 : idx_main_v72 (idx_main_v73 (ix2 p q)) = ix1 q := funext fun a => Fin.ext (by match a with | ⟨0, _⟩ => rfl)
  rw [e1, e2, e3, e4, pre1_apply, mean1_apply, inv1_apply]
  rfl

/-- The first layer of the reference is the specification's layer of its aggregate. -/
theorem layer1_eq :
    val_main_v80 (F := Ideal) x0 x1 x2 x3 x4 x5 x6
      = layerDev (val_main_v46 (F := Ideal) x0 x1 x2) (vecOf x3) (vecOf x4) (vecOf x5) (scalOf x6) := by
  funext i
  obtain ⟨p, q, rfl⟩ : ∃ (p : Fin 50000) (q : Fin 128), i = ix2 p q := ⟨i 0, i 1, eq_ix2 i⟩
  rw [layerDev_ix2, val_main_v80_apply, val_main_v76_apply, val_main_v79_apply, val_main_v75_apply, val_main_cst_15_apply,
    val_main_v78_apply, val_main_v77_apply, norm1_apply]
  have e : idx_main_v77 (idx_main_v78 (ix2 p q)) = ix1 (0 : Fin 1) := funext fun a => Fin.ext (by match a with | ⟨0, _⟩ => rfl)
  rw [e]
  rfl

/-! ## The second layer after its aggregation -/

/-- The aggregate plus the bias row, at node `p` and column `q`: the column's entry. -/
theorem pre2_apply (p : Fin 50000) (q : Fin 128) :
    val_main_v97 (F := Ideal) x0 x1 x2 x3 x4 x5 x6 x7 x8 (ix2 p q) = col (val_main_v94 (F := Ideal) x0 x1 x2 x3 x4 x5 x6 x7) (vecOf x8 q) q p := by
  rw [val_main_v97_apply, val_main_v96_apply, val_main_v95_apply]
  have e : idx_main_v95 (idx_main_v96 (ix2 p q)) = ix1 q := funext fun a => Fin.ext (by match a with | ⟨0, _⟩ => rfl)
  rw [e]
  generalize val_main_v94 (F := Ideal) x0 x1 x2 x3 x4 x5 x6 x7 = A
  rfl

/-- The column's mean: the sum over the nodes, from zero, divided by their number. -/
theorem mean2_apply (q : Fin 128) :
    val_main_v100 (F := Ideal) x0 x1 x2 x3 x4 x5 x6 x7 x8 (ix1 q) = muOf (col (val_main_v94 (F := Ideal) x0 x1 x2 x3 x4 x5 x6 x7) (vecOf x8 q) q) := by
  rw [val_main_v100_apply, val_main_v98_apply, val_main_v99_apply, val_main_cst_19_apply, val_main_cst_20_apply]
  show Ideal.div (Ideal.ofBits .f32 0x00000000#32 + ∑ k : Fin 50000, val_main_v97 (F := Ideal) x0 x1 x2 x3 x4 x5 x6 x7 x8 (idx_main_v98 (ix1 q) k)) cN = _
  rw [Ideal.ofBits_zero_f32, zero_add]
  unfold muOf
  refine congrArg (fun s => Ideal.div s cN) (Finset.sum_congr rfl fun k _ => ?_)
  have e : idx_main_v98 (ix1 q) k = ix2 k q := funext fun a => Fin.ext (by match a with | ⟨0, _⟩ => rfl | ⟨1, _⟩ => rfl)
  rw [e, pre2_apply]

/-- An entry's deviation from its column's mean. -/
theorem dev2_apply (p : Fin 50000) (q : Fin 128) :
    val_main_v103 (F := Ideal) x0 x1 x2 x3 x4 x5 x6 x7 x8 (ix2 p q) = (col (val_main_v94 (F := Ideal) x0 x1 x2 x3 x4 x5 x6 x7) (vecOf x8 q) q) p - muOf (col (val_main_v94 (F := Ideal) x0 x1 x2 x3 x4 x5 x6 x7) (vecOf x8 q) q) := by
  rw [val_main_v103_apply, val_main_v102_apply, val_main_v101_apply]
  have e : idx_main_v101 (idx_main_v102 (ix2 p q)) = ix1 q := funext fun a => Fin.ext (by match a with | ⟨0, _⟩ => rfl)
  rw [e, pre2_apply, mean2_apply]
  rfl

/-- The column's variance: the mean of the squared deviations. -/
theorem var2_apply (q : Fin 128) :
    val_main_v107 (F := Ideal) x0 x1 x2 x3 x4 x5 x6 x7 x8 (ix1 q) = varDev (col (val_main_v94 (F := Ideal) x0 x1 x2 x3 x4 x5 x6 x7) (vecOf x8 q) q) := by
  rw [val_main_v107_apply, val_main_v105_apply, val_main_v106_apply, val_main_cst_21_apply, val_main_cst_22_apply]
  show Ideal.div (Ideal.ofBits .f32 0x00000000#32 + ∑ k : Fin 50000, val_main_v104 (F := Ideal) x0 x1 x2 x3 x4 x5 x6 x7 x8 (idx_main_v105 (ix1 q) k)) cN = _
  rw [Ideal.ofBits_zero_f32, zero_add]
  unfold varDev
  refine congrArg (fun s => Ideal.div s cN) (Finset.sum_congr rfl fun k _ => ?_)
  have e : idx_main_v105 (ix1 q) k = ix2 k q := funext fun a => Fin.ext (by match a with | ⟨0, _⟩ => rfl | ⟨1, _⟩ => rfl)
  rw [e, val_main_v104_apply, dev2_apply]
  rfl

/-- The column's inverse standard deviation `(var + ε)^(-1/2)`. -/
theorem inv2_apply (q : Fin 128) :
    val_main_v113 (F := Ideal) x0 x1 x2 x3 x4 x5 x6 x7 x8 (ix1 q) = Ideal.rsqrt (varDev (col (val_main_v94 (F := Ideal) x0 x1 x2 x3 x4 x5 x6 x7) (vecOf x8 q) q) + cEps) := by
  rw [val_main_v113_apply, val_main_v112_apply, val_main_v111_apply, val_main_cst_23_apply, var2_apply]
  rfl

/-- The normalised entry `(v - μ) · (var + ε)^(-1/2) · g + be`, in the reference's order of operations. -/
theorem norm2_apply (p : Fin 50000) (q : Fin 128) :
    val_main_v122 (F := Ideal) x0 x1 x2 x3 x4 x5 x6 x7 x8 x9 x10 (ix2 p q)
      = ((val_main_v94 (F := Ideal) x0 x1 x2 x3 x4 x5 x6 x7) (ix2 p q) + vecOf x8 q - muOf (col (val_main_v94 (F := Ideal) x0 x1 x2 x3 x4 x5 x6 x7) (vecOf x8 q) q)) * Ideal.rsqrt (varDev (col (val_main_v94 (F := Ideal) x0 x1 x2 x3 x4 x5 x6 x7) (vecOf x8 q) q) + cEps) * vecOf x9 q + vecOf x10 q := by
  rw [val_main_v122_apply, val_main_v119_apply, val_main_v116_apply, val_main_v110_apply, val_main_v109_apply, val_main_v108_apply,
    val_main_v115_apply, val_main_v114_apply, val_main_v118_apply, val_main_v117_apply, val_main_v121_apply, val_main_v120_apply]
  have e1 : idx_main_v108 (idx_main_v109 (ix2 p q)) = ix1 q := funext fun a => Fin.ext (by match a with | ⟨0, _⟩ => rfl)
  have e2 : idx_main_v114 (idx_main_v115 (ix2 p q)) = ix1 q := funext fun a => Fin.ext (by match a with | ⟨0, _⟩ => rfl)
  have e3 : idx_main_v117 (idx_main_v118 (ix2 p q)) = ix1 q := funext fun a => Fin.ext (by match a with | ⟨0, _⟩ => rfl)
  have e4 : idx_main_v120 (idx_main_v121 (ix2 p q)) = ix1 q := funext fun a => Fin.ext (by match a with | ⟨0, _⟩ => rfl)
  rw [e1, e2, e3, e4, pre2_apply, mean2_apply, inv2_apply]
  rfl

/-- The second layer of the reference is the specification's layer of its aggregate. -/
theorem layer2_eq :
    val_main_v128 (F := Ideal) x0 x1 x2 x3 x4 x5 x6 x7 x8 x9 x10 x11
      = layerDev (val_main_v94 (F := Ideal) x0 x1 x2 x3 x4 x5 x6 x7) (vecOf x8) (vecOf x9) (vecOf x10) (scalOf x11) := by
  funext i
  obtain ⟨p, q, rfl⟩ : ∃ (p : Fin 50000) (q : Fin 128), i = ix2 p q := ⟨i 0, i 1, eq_ix2 i⟩
  rw [layerDev_ix2, val_main_v128_apply, val_main_v124_apply, val_main_v127_apply, val_main_v123_apply, val_main_cst_24_apply,
    val_main_v126_apply, val_main_v125_apply, norm2_apply]
  have e : idx_main_v125 (idx_main_v126 (ix2 p q)) = ix1 (0 : Fin 1) := funext fun a => Fin.ext (by match a with | ⟨0, _⟩ => rfl)
  rw [e]
  rfl

/-! ## The whole program -/

/-- The reference's result is the network of the specification, the variances taken as means of squared
    deviations. -/
theorem ref_eq :
    val_main_v128 (F := Ideal) x0 x1 x2 x3 x4 x5 x6 x7 x8 x9 x10 x11 = net x0 x1 x2 x3 x4 x5 x6 x7 x8 x9 x10 x11 := by
  unfold net
  rw [layer2_eq, agg2_eq, proj2_eq, layer1_eq, agg1_eq, proj1_eq]

end

end Cert.Gcn

end
-- ==== Proof.LayerLaw.lean ====
/-
  The algebra of one layer on the extended reals.

  The three constants are read off their single-precision words: zero, the number of nodes `50000`, and a
  positive real `ε`.  Sums, differences and products of real numbers are real, and so is a real divided by
  `50000`; hence the mean and both forms of the variance of a real column are real numbers, computed in `ℝ` by
  the same formulas.  In `ℝ`, with `μ = (Σₙ vₙ) / N` and exactly `N` terms in the sum,
  `Σₙ (vₙ - μ)² = Σₙ vₙ² - 2 μ Σₙ vₙ + N μ² = Σₙ vₙ² - N μ²`, so the mean of the squared deviations equals the
  mean of the squares minus the squared mean.  The variance is a mean of squares, hence `≥ 0`; adding `ε > 0`
  gives a positive real, whose inverse square root is a real; so every entry of a layer of reals is a real.
-/
import proofs.«139484_j50294067036840_1_alg».proof.Proof.Spec

noncomputable section

namespace Cert.Gcn

open Idealize.ShloMosaic Idealize.ShloMosaic.ValueIdx

/-! ## The constants -/

theorem cZero_eq : cZero = 0 := Ideal.ofBits_zero_f32

/-- The word `0x47435000` has exponent field `142` and fraction `4411392`:
    `(2^23 + 4411392) · 2^(142 - 127 - 23) = 12800000 / 256 = 50000`. -/
theorem cN_eq : cN = ((50000 : ℝ) : EReal) := by
  simp [cN, Ideal.ofBits, Ideal.ieee, -EReal.coe_mul]
  norm_num

/-- The word `0x3727C5AC` has a zero sign bit and exponent field `110`, neither `0` nor `255`: a positive normal number. -/
theorem cEps_pos : ∃ e : ℝ, 0 < e ∧ cEps = (e : EReal) := by
  have h : cEps = (((1 : ℝ) * ((2 ^ 23 + 2606508 : ℕ) : ℝ) * (2 : ℝ) ^ ((110 : ℤ) - (2 ^ (8 - 1) - 1) - (23 : ℕ)) : ℝ) : EReal) := by
    simp [cEps, Ideal.ofBits, Ideal.ieee, -EReal.coe_mul]
  exact ⟨_, by positivity, h⟩

/-! ## Real numbers among the extended reals -/

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real divided by the number of nodes, in `ℝ`. -/
theorem div_cN_coe (r : ℝ) : Ideal.div (r : EReal) cN = ((r / 50000 : ℝ) : EReal) := by
  rw [cN_eq, Ideal.div_coe (by norm_num), ← EReal.coe_mul, mul_one_div]

theorem div_cN_real {x : EReal} (hx : IsReal x) : IsReal (Ideal.div x cN) := by
  obtain ⟨r, rfl⟩ := hx; exact ⟨_, div_cN_coe r⟩

/-! ## The column statistics of a real column, in `ℝ` -/

theorem muOf_coe (r : Fin 50000 → ℝ) : muOf (fun n => (r n : EReal)) = (((∑ n, r n) / 50000 : ℝ) : EReal) := by
  unfold muOf
  rw [← coe_sum, div_cN_coe]

theorem varDev_coe (r : Fin 50000 → ℝ) :
    varDev (fun n => (r n : EReal))
      = (((∑ n, (r n - (∑ n, r n) / 50000) * (r n - (∑ n, r n) / 50000)) / 50000 : ℝ) : EReal) := by
  unfold varDev
  rw [muOf_coe]
  simp only [← EReal.coe_sub, ← EReal.coe_mul]
  rw [← coe_sum, div_cN_coe]

theorem varSq_coe (r : Fin 50000 → ℝ) :
    varSq (fun n => (r n : EReal))
      = (((∑ n, r n * r n) / 50000 - (∑ n, r n) / 50000 * ((∑ n, r n) / 50000) : ℝ) : EReal) := by
  unfold varSq
  rw [muOf_coe]
  simp only [← EReal.coe_mul]
  rw [← coe_sum, div_cN_coe, ← EReal.coe_sub]

/-- In `ℝ`, over any finite index type with exactly `N ≠ 0` elements: the mean of the squared deviations from the
    mean is the mean of the squares minus the square of the mean. -/
theorem real_var_identity {ι : Type} [Fintype ι] (r : ι → ℝ) (N : ℝ) (hN : (Fintype.card ι : ℝ) = N) (h0 : N ≠ 0) :
    (∑ n, (r n - (∑ n, r n) / N) * (r n - (∑ n, r n) / N)) / N
      = (∑ n, r n * r n) / N - (∑ n, r n) / N * ((∑ n, r n) / N) := by
  obtain ⟨S, hS⟩ : ∃ S : ℝ, S = ∑ n, r n := ⟨_, rfl⟩
  obtain ⟨Q, hQ⟩ : ∃ Q : ℝ, Q = ∑ n, r n * r n := ⟨_, rfl⟩
  rw [← hS, ← hQ]
  have h1 : ∑ n, (r n - S / N) * (r n - S / N) = Q - 2 * (S / N) * S + N * (S / N * (S / N)) := by
    have e : ∀ n, (r n - S / N) * (r n - S / N) = r n * r n - 2 * (S / N) * r n + S / N * (S / N) := fun n => by ring
    simp only [e]
    rw [Finset.sum_add_distrib, Finset.sum_sub_distrib, ← Finset.mul_sum, Finset.sum_const, Finset.card_univ,
      nsmul_eq_mul, hN, ← hS, ← hQ]
  rw [h1]
  field_simp
  ring

theorem varSq_eq_varDev (v : Fin 50000 → EReal) (hv : ∀ n, IsReal (v n)) : varSq v = varDev v := by
  choose r hr using hv
  obtain rfl : v = fun n => (r n : EReal) := funext hr
  rw [varSq_coe, varDev_coe]
  exact congrArg _ (real_var_identity r 50000 (by rw [Fintype.card_fin]; norm_num) (by norm_num)).symm

/-- The variance of a real column is a real number `≥ 0`. -/
theorem varDev_nonneg (v : Fin 50000 → EReal) (hv : ∀ n, IsReal (v n)) : ∃ s : ℝ, 0 ≤ s ∧ varDev v = (s : EReal) := by
  choose r hr using hv
  obtain rfl : v = fun n => (r n : EReal) := funext hr
  exact ⟨_, div_nonneg (Finset.sum_nonneg fun n _ => mul_self_nonneg _) (by norm_num), varDev_coe r⟩

theorem muOf_real (v : Fin 50000 → EReal) (hv : ∀ n, IsReal (v n)) : IsReal (muOf v) :=
  div_cN_real (isReal_sum _ _ fun n _ => hv n)

/-- The inverse square root of a positive real is a real. -/
theorem rsqrt_real {x : EReal} (h : ∃ s : ℝ, 0 < s ∧ x = (s : EReal)) : IsReal (Ideal.rsqrt x) := by
  obtain ⟨s, hs, rfl⟩ := h
  rw [Ideal.rsqrt_coe, if_neg (not_lt.mpr hs.le), if_neg hs.ne']
  exact isReal_coe _

/-! ## One layer -/

theorem col_real (A : FVec Ideal SNF .f32) (b : EReal) (j : Fin 128) (hA : ∀ i, IsReal (A i)) (hb : IsReal b) :
    ∀ n, IsReal (col A b j n) := fun n => (hA _).add hb

theorem layerSq_eq_layerDev (A : FVec Ideal SNF .f32) (b g be : Fin 128 → EReal) (a : EReal)
    (hA : ∀ i, IsReal (A i)) (hb : ∀ j, IsReal (b j)) : layerSq A b g be a = layerDev A b g be a := by
  funext i
  unfold layerSq layerDev
  rw [varSq_eq_varDev _ (col_real A _ _ hA (hb _))]

theorem mm_real (x : FVec Ideal SNF .f32) (w : FVec Ideal SFF .f32) (hx : ∀ i, IsReal (x i)) (hw : ∀ i, IsReal (w i)) :
    ∀ i, IsReal (mm x w i) := fun i => isReal_sum _ _ fun k _ => (hx _).mul (hw _)

/-- One entry's normalisation and rectifier of reals is a real, whichever branch the comparison selects. -/
theorem npElt_real {A b mean invstd g be a : EReal} (hA : IsReal A) (hb : IsReal b) (hm : IsReal mean)
    (hi : IsReal invstd) (hg : IsReal g) (hbe : IsReal be) (ha : IsReal a) : IsReal (npElt A b mean invstd g be a) := by
  have hy : IsReal ((A + b - mean) * invstd * g + be) := ((((hA.add hb).sub hm).mul hi).mul hg).add hbe
  unfold npElt Scalar.select
  split_ifs
  · exact hy
  · exact ha.mul hy

theorem layerDev_real (A : FVec Ideal SNF .f32) (b g be : Fin 128 → EReal) (a : EReal)
    (hA : ∀ i, IsReal (A i)) (hb : ∀ j, IsReal (b j)) (hg : ∀ j, IsReal (g j)) (hbe : ∀ j, IsReal (be j))
    (ha : IsReal a) : ∀ i, IsReal (layerDev A b g be a i) := by
  intro i
  unfold layerDev
  have hc := col_real A (b ⟨(i 1).val, idx2_lt1 i⟩) ⟨(i 1).val, idx2_lt1 i⟩ hA (hb _)
  refine npElt_real (hA i) (hb _) (muOf_real _ hc) (rsqrt_real ?_) (hg _) (hbe _) ha
  obtain ⟨s, hs, hvs⟩ := varDev_nonneg _ hc
  obtain ⟨e, he, hee⟩ := cEps_pos
  exact ⟨s + e, by positivity, by rw [hvs, hee, EReal.coe_add]⟩

end Cert.Gcn

end
-- ==== Proof.LibRealOps.lean ====
/-
  Realness through the array operations, on the extended reals (the values a float denotes when every operation
  is exact): general lemmas over arbitrary shapes and dimension records.

  A property of extended reals that holds of zero and is kept by addition is kept by finite sums, hence by the
  accumulating scatter, whose every result element is the operand's element plus the finite sum of the update
  elements that land on it (whatever the integer indices are: an update landing outside contributes nothing). A gather's
  every result element is one of the operand's elements (whatever the integer indices are: a start index is
  clamped), and so is a broadcast's. Products, maxima and selections of real numbers are real numbers, and so is
  the inverse square root of a positive real number.
-/
import Idealize.ShloMosaic.PureOps.Ideal
import Idealize.ShloMosaic.PureOps.Ideal.Laws
import Idealize.ShloMosaic.Lib.ValueIdx
import Idealize.ShloMosaic.Lib.IdealHost
import proofs.«139484_j50294067036840_1_alg».proof.Proof.Spec

noncomputable section

namespace Cert.Gcn

open Idealize.ShloMosaic Idealize.ShloMosaic.ValueIdx

/-! ## Real numbers among the extended reals -/

/-- Zero is a real number. -/
theorem isReal_zero' : IsReal (0 : EReal) := ⟨0, EReal.coe_zero.symm⟩

/-- One is a real number. -/
theorem isReal_one' : IsReal (1 : EReal) := ⟨1, EReal.coe_one.symm⟩

/-- The sum of two real numbers is a real number. -/
theorem isReal_add' {a b : EReal} (ha : IsReal a) (hb : IsReal b) : IsReal (a + b) := by
  obtain ⟨ra, rfl⟩ := ha
  obtain ⟨rb, rfl⟩ := hb
  exact ⟨ra + rb, (EReal.coe_add ra rb).symm⟩

/-- The product of two real numbers is a real number. -/
theorem isReal_mul' {a b : EReal} (ha : IsReal a) (hb : IsReal b) : IsReal (a * b) := by
  obtain ⟨ra, rfl⟩ := ha
  obtain ⟨rb, rfl⟩ := hb
  exact ⟨ra * rb, (EReal.coe_mul ra rb).symm⟩

/-- The larger of two real numbers is a real number. -/
theorem isReal_max' {a b : EReal} (ha : IsReal a) (hb : IsReal b) : IsReal (max a b) := by
  rcases max_choice a b with h | h
  · rw [h]; exact ha
  · rw [h]; exact hb

/-- A selection between two real numbers is a real number. -/
theorem isReal_select' (c : BitVec 1) {a b : EReal} (ha : IsReal a) (hb : IsReal b) : IsReal (Scalar.select c a b) := by
  unfold Scalar.select
  split
  · exact ha
  · exact hb

/-- A property of extended reals that holds of zero and is kept by addition holds of every finite sum of terms that
    have it. -/
theorem sum_closed' {ι : Type} (P : EReal → Prop) (h0 : P 0) (hadd : ∀ a b, P a → P b → P (a + b))
    (S : Finset ι) (f : ι → EReal) (hf : ∀ j ∈ S, P (f j)) : P (∑ j ∈ S, f j) :=
  Finset.sum_induction f P hadd h0 hf

/-- A finite sum of real numbers is a real number. -/
theorem isReal_sum' {ι : Type} (S : Finset ι) (f : ι → EReal) (hf : ∀ j ∈ S, IsReal (f j)) : IsReal (∑ j ∈ S, f j) :=
  sum_closed' IsReal isReal_zero' (fun _ _ => isReal_add') S f hf

/-- The inverse square root of a positive real number is a real number. -/
theorem isReal_rsqrt' {a : EReal} (ha : IsReal a) (hpos : 0 < a) : IsReal (Ideal.rsqrt a) := by
  obtain ⟨r, rfl⟩ := ha
  have hr : 0 < r := EReal.coe_pos.mp hpos
  rw [Ideal.rsqrt_coe, if_neg (not_lt.mpr hr.le), if_neg hr.ne']
  exact ⟨_, rfl⟩

/-! ## The array operations -/

section Arrays
variable {φ : FTy}

/-- THE ACCUMULATING SCATTER keeps every property that holds of zero and is kept by addition: a result element is
    the operand's element plus a finite sum of update elements, whatever the indices are. -/
theorem scatterAdd_closed' {s si u : Shape} {w : Nat} (P : EReal → Prop) (h0 : P 0)
    (hadd : ∀ a b, P a → P b → P (a + b)) (d : ScatterDims s si u) (x : FVec Ideal s φ) (idx : IVec si w)
    (upd : FVec Ideal u φ) (hx : ∀ i, P (x i)) (hu : ∀ j, P (upd j)) (i : s.Idx) :
    P (Host.scatterAdd d x idx upd i) := by
  show P (x i + ∑ j ∈ Finset.univ.filter (fun j => d.resultIdx? j idx = some i), upd j)
  exact hadd _ _ (hx i) (sum_closed' P h0 hadd _ _ fun j _ => hu j)

/-- The accumulating scatter of real numbers into real numbers gives real numbers. -/
theorem scatterAdd_real' {s si u : Shape} {w : Nat} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) :=
  scatterAdd_closed' IsReal isReal_zero' (fun _ _ => isReal_add') d x idx upd hx hu i

/-- A GATHER's every result element is an element of the operand, whatever the indices are. -/
theorem gather_mem' {α : Type} {s si t : Shape} {w : Nat} (d : GatherDims s si t) (x : s.Idx → α) (idx : IVec si w)
    (j : t.Idx) : ∃ i, Host.gather d x idx j = x i := ⟨d.operandIdx j idx, rfl⟩

/-- So a gather keeps every property of the operand's elements. -/
theorem gather_closed' {α : Type} {s si t : Shape} {w : Nat} (P : α → Prop) (d : GatherDims s si t) (x : s.Idx → α)
    (idx : IVec si w) (hx : ∀ i, P (x i)) (j : t.Idx) : P (Host.gather d x idx j) := by
  obtain ⟨i, hi⟩ := gather_mem' d x idx j
  rw [hi]; exact hx i

/-- A BROADCAST's every result element is an element of the operand. -/
theorem broadcastInDim_mem' {α : Type} {s t : Shape} (dims : Fin s.rank → Fin t.rank) (h : s.BroadcastsInDim t dims)
    (x : s.Idx → α) (j : t.Idx) : ∃ i, broadcastInDim t dims h x j = x i := ⟨_, rfl⟩

/-- So a broadcast keeps every property of the operand's elements. -/
theorem broadcastInDim_closed' {α : Type} {s t : Shape} (P : α → Prop) (dims : Fin s.rank → Fin t.rank)
    (h : s.BroadcastsInDim t dims) (x : s.Idx → α) (hx : ∀ i, P (x i)) (j : t.Idx) :
    P (broadcastInDim t dims h x j) := by
  obtain ⟨i, hi⟩ := broadcastInDim_mem' dims h x j
  rw [hi]; exact hx i

/-- A constant array of the word of zero holds the real number zero. -/
theorem constant_zero_real' {s : Shape} (i : s.Idx) : IsReal (constant (F := Ideal) s .f32 0x00000000#32 i) := by
  rw [constant_apply, Ideal.ofBits_zero_f32]; exact isReal_zero'

/-- A constant array of the word of one holds the real number one. -/
theorem constant_one_real' {s : Shape} (i : s.Idx) : IsReal (constant (F := Ideal) s .f32 0x3F800000#32 i) := by
  rw [constant_apply, Ideal.ofBits_one_f32]; exact isReal_one'

/-- A broadcast constant array of the word of one holds one everywhere. -/
theorem broadcastInDim_constant_one' {s t : Shape} (dims : Fin s.rank → Fin t.rank) (h : s.BroadcastsInDim t dims)
    (j : t.Idx) : broadcastInDim t dims h (constant (F := Ideal) s .f32 0x3F800000#32) j = 1 := by
  obtain ⟨i, hi⟩ := broadcastInDim_mem' dims h (constant (F := Ideal) s .f32 0x3F800000#32) j
  rw [hi, constant_apply, Ideal.ofBits_one_f32]

/-- A broadcast constant array of the word of zero holds zero everywhere. -/
theorem broadcastInDim_constant_zero' {s t : Shape} (dims : Fin s.rank → Fin t.rank) (h : s.BroadcastsInDim t dims)
    (j : t.Idx) : broadcastInDim t dims h (constant (F := Ideal) s .f32 0x00000000#32) j = 0 := by
  obtain ⟨i, hi⟩ := broadcastInDim_mem' dims h (constant (F := Ideal) s .f32 0x00000000#32) j
  rw [hi, constant_apply, Ideal.ofBits_zero_f32]

/-- An elementwise product of real numbers holds real numbers. -/
theorem mulf_real' {s : Shape} (a b : FVec Ideal s φ) (ha : ∀ i, IsReal (a i)) (hb : ∀ i, IsReal (b i)) (i : s.Idx) :
    IsReal (mulf a b i) := by
  rw [mulf_apply]; exact isReal_mul' (ha i) (hb i)

/-- An elementwise maximum of real numbers holds real numbers. -/
theorem maximumf_real' {s : Shape} (a b : FVec Ideal s φ) (ha : ∀ i, IsReal (a i)) (hb : ∀ i, IsReal (b i)) (i : s.Idx) :
    IsReal (maximumf a b i) := by
  rw [maximumf_apply]; exact isReal_max' (ha i) (hb i)

/-- An elementwise selection between real numbers holds real numbers. -/
theorem select_real' {s : Shape} (c : IVec s 1) (a b : FVec Ideal s φ) (ha : ∀ i, IsReal (a i)) (hb : ∀ i, IsReal (b i))
    (i : s.Idx) : IsReal (select c a b i) := by
  rw [select_apply]; exact isReal_select' _ (ha i) (hb i)

/-- The host's elementwise inverse square root of positive real numbers holds real numbers. -/
theorem hostRsqrt_real' {s : Shape} (a : FVec Ideal s φ) (ha : ∀ i, IsReal (a i)) (hpos : ∀ i, 0 < a i) (i : s.Idx) :
    IsReal (Host.rsqrt a i) := by
  show IsReal (Ideal.rsqrt (a i))
  exact isReal_rsqrt' (ha i) (hpos i)

end Arrays

end Cert.Gcn

end
-- ==== Proof.GraphReal.lean ====
/-
  Realness through the graph side of the layer: the degrees, their inverse square roots, the edge weights and the
  aggregation hold real numbers, whatever the edge list's integers are.

  A degree is a sum of ones into zero, a real number; the larger of it and one is a real number that is at least
  one, so its inverse square root is a real number, and `dinv` selects between that and zero. A weight is a product
  of two gathered `dinv` entries and a one. An aggregated entry is zero plus a finite sum of products of a gathered
  feature entry and a weight, a real number when the features are real numbers.
-/
import proofs.«139484_j50294067036840_1_alg».proof.Proof.Graph
import proofs.«139484_j50294067036840_1_alg».proof.Proof.LibRealOps

noncomputable section

namespace Cert.Gcn

open Idealize.ShloMosaic Idealize.ShloMosaic.ValueIdx Cert.KernelIdeal

/-- Every edge's one is the real number one. -/
theorem ones_real (i : S850000.Idx) : IsReal (ones i) := by
  unfold ones
  exact broadcastInDim_closed' IsReal _ _ _ constant_one_real' i

/-- Every degree is a real number: a finite sum of ones added to zero. -/
theorem deg_real (ei : IVec S2x800000 32) (i : S50000.Idx) : IsReal (deg ei i) := by
  unfold deg
  exact scatterAdd_real' _ _ _ _ (broadcastInDim_closed' IsReal _ _ _ constant_zero_real') ones_real i

/-- Every `dinv` entry is a real number: the inverse square root of a real number that is at least one, or zero. -/
theorem dinv_real (ei : IVec S2x800000 32) (i : S50000.Idx) : IsReal (dinv ei i) := by
  unfold dinv
  refine select_real' _ _ _ (hostRsqrt_real' _ ?_ ?_) ?_ i
  · exact maximumf_real' _ _ (deg_real ei) (broadcastInDim_closed' IsReal _ _ _ constant_one_real')
  · intro k
    rw [maximumf_apply, broadcastInDim_constant_one']
    exact lt_of_lt_of_le zero_lt_one (le_max_right _ _)
  · exact broadcastInDim_closed' IsReal _ _ _ (fun k => constant_zero_real' k)

/-- Every edge weight is a real number. -/
theorem nrm_real (ei : IVec Cert.KernelIdeal.S2x800000 32) : ∀ i, IsReal (nrm ei i) := by
  intro i
  unfold nrm
  exact mulf_real' _ _ (mulf_real' _ _ (gather_closed' IsReal _ _ _ (dinv_real ei)) ones_real)
    (gather_closed' IsReal _ _ _ (dinv_real ei)) i

/-- Every aggregated entry is a real number when the features are real numbers. -/
theorem agg_real (ei : IVec Cert.KernelIdeal.S2x800000 32) (h : FVec Ideal Cert.KernelIdeal.S50000x128 .f32)
    (hh : ∀ i, IsReal (h i)) : ∀ i, IsReal (agg ei h i) := by
  intro i
  unfold agg
  exact scatterAdd_real' _ _ _ _ (broadcastInDim_closed' IsReal _ _ _ constant_zero_real')
    (mulf_real' _ _ (gather_closed' IsReal _ _ _ hh)
      (broadcastInDim_closed' IsReal _ _ _ (broadcastInDim_closed' IsReal _ _ _ (nrm_real ei)))) i

end Cert.Gcn

end
-- ==== Proof.NetLaw.lean ====
/-
  The two ways of taking the variances agree on the whole network.

  With real inputs the dense projection and the aggregation of the first layer are arrays of reals, so the first
  layer computed with the variance as "mean of the squares minus the squared mean" equals the one computed with the
  mean of the squared deviations, and its output is again an array of reals; the same argument then applies to the
  second layer.  The second layer's scale, shift and slope take no part in the variance and need no hypothesis.
-/
import proofs.«139484_j50294067036840_1_alg».proof.Proof.LayerLaw
import proofs.«139484_j50294067036840_1_alg».proof.Proof.GraphReal

noncomputable section

namespace Cert.Gcn

open Idealize.ShloMosaic Cert.KernelIdeal

theorem netSq_eq_net (x : FVec Ideal S50000x128 .f32) (ei : IVec S2x800000 32) (w1 : FVec Ideal S128x128 .f32)
    (b1 g1 be1 : FVec Ideal S128 .f32) (a1 : FVec Ideal S1 .f32) (w2 : FVec Ideal S128x128 .f32)
    (b2 g2 be2 : FVec Ideal S128 .f32) (a2 : FVec Ideal S1 .f32)
    (hx : ∀ i, IsReal (x i)) (hw1 : ∀ i, IsReal (w1 i)) (hb1 : ∀ i, IsReal (b1 i)) (hg1 : ∀ i, IsReal (g1 i))
    (hbe1 : ∀ i, IsReal (be1 i)) (ha1 : ∀ i, IsReal (a1 i)) (hw2 : ∀ i, IsReal (w2 i)) (hb2 : ∀ i, IsReal (b2 i)) :
    layerSq (agg ei (mm (layerSq (agg ei (mm x w1)) (vecOf b1) (vecOf g1) (vecOf be1) (scalOf a1)) w2))
        (vecOf b2) (vecOf g2) (vecOf be2) (scalOf a2)
      = net x ei w1 b1 g1 be1 a1 w2 b2 g2 be2 a2 := by
  have hA1 : ∀ i, IsReal (agg ei (mm x w1) i) := agg_real ei _ (mm_real x w1 hx hw1)
  have hvb1 : ∀ j, IsReal (vecOf b1 j) := fun j => hb1 _
  have hL1 : ∀ i, IsReal (layerDev (agg ei (mm x w1)) (vecOf b1) (vecOf g1) (vecOf be1) (scalOf a1) i) :=
    layerDev_real _ _ _ _ _ hA1 hvb1 (fun j => hg1 _) (fun j => hbe1 _) (ha1 _)
  have hA2 : ∀ i, IsReal (agg ei (mm (layerDev (agg ei (mm x w1)) (vecOf b1) (vecOf g1) (vecOf be1) (scalOf a1)) w2) i) :=
    agg_real ei _ (mm_real _ w2 hL1 hw2)
  have hvb2 : ∀ j, IsReal (vecOf b2 j) := fun j => hb2 _
  unfold net
  rw [layerSq_eq_layerDev _ _ _ _ _ hA1 hvb1, layerSq_eq_layerDev _ _ _ _ _ hA2 hvb2]

end Cert.Gcn

end
-- ==== Proof.Finite.lean ====
/-
  The precondition read back: every float argument holds real numbers only.

  The precondition is, per float argument, the conjunction over all entries of `|x| < +∞`, and the conjunction of
  these over the arguments; it is stated to be true.  A conjunction that is true has every conjunct true, so
  `|x| < +∞` holds at every entry of every float argument.  On the extended reals `|x| = max x (-x)` equals `+∞`
  at both infinities, so `|x| < +∞` leaves only the real numbers.
-/
import proofs.«139484_j50294067036840_1_alg».proof.Defs
import proofs.«139484_j50294067036840_1_alg».proof.Proof.Spec
import Idealize.ShloMosaic.Lib.ReduceAll
import Idealize.ShloMosaic.Lib.IdealHost

noncomputable section

namespace Cert.Gcn

open Idealize.ShloMosaic Idealize.SL.Sem Idealize.ShloMosaic.ValueIdx

/-- The rank-0 shape has one index. -/
instance subsingleton_idx0 : Subsingleton (⟨0, ![]⟩ : Shape).Idx := ⟨fun _ _ => funext fun d => d.elim0⟩

/-- An extended real whose absolute value `max x (-x)` lies below `+∞` (the word `0x7F800000`) is a real number. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- An array all of whose entries pass `|x| < +∞`, the conjunction taken over every axis, holds reals only. -/
theorem isReal_of_all_finite {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1) :
    ∀ i, IsReal (x i) := by
  intro i
  have h1 := Host.reduce_andi_all _ _ hr hu ix0 e i
  rw [cmpf_apply, broadcastInDim_scalar_apply] at h1
  exact isReal_of_abs_lt_inf (x i) h1

/-- Under the precondition every float argument of the program holds real numbers only, on every device. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)) i))
      ∧ (∀ i, IsReal ((m ((c.tc : Thread Cert.KernelIdeal.nD Cert.KernelIdeal.τ).loc Cert.KernelIdeal.main_arg2)) i))
      ∧ (∀ i, IsReal ((m ((c.tc : Thread Cert.KernelIdeal.nD Cert.KernelIdeal.τ).loc Cert.KernelIdeal.main_arg3)) i))
      ∧ (∀ i, IsReal ((m ((c.tc : Thread Cert.KernelIdeal.nD Cert.KernelIdeal.τ).loc Cert.KernelIdeal.main_arg4)) i))
      ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg6)) i))
      ∧ (∀ i, IsReal ((m ((c.tc : Thread Cert.KernelIdeal.nD Cert.KernelIdeal.τ).loc Cert.KernelIdeal.main_arg7)) i))
      ∧ (∀ i, IsReal ((m ((c.tc : Thread Cert.KernelIdeal.nD Cert.KernelIdeal.τ).loc Cert.KernelIdeal.main_arg8)) i))
      ∧ (∀ i, IsReal ((m ((c.tc : Thread Cert.KernelIdeal.nD Cert.KernelIdeal.τ).loc Cert.KernelIdeal.main_arg9)) i))
      ∧ (∀ i, IsReal ((m ((c.tc : Thread Cert.KernelIdeal.nD Cert.KernelIdeal.τ).loc Cert.KernelIdeal.main_arg10)) i))
      ∧ (∀ i, IsReal ((m ((c.tc : Thread Cert.KernelIdeal.nD Cert.KernelIdeal.τ).loc Cert.KernelIdeal.main_arg11)) i)) := by
  have h0 := congrFun (h c) ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨isReal_of_all_finite _ _ _ _ e0, isReal_of_all_finite _ _ _ _ e2, isReal_of_all_finite _ _ _ _ e3,
    isReal_of_all_finite _ _ _ _ e4, isReal_of_all_finite _ _ _ _ e5, isReal_of_all_finite _ _ _ _ e6,
    isReal_of_all_finite _ _ _ _ e7, isReal_of_all_finite _ _ _ _ e8, isReal_of_all_finite _ _ _ _ e9,
    isReal_of_all_finite _ _ _ _ e10, isReal_of_all_finite _ _ _ _ e11⟩

/-- The same with every argument read as an array of its literal shape. -/
theorem real_of_pre_shaped [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : SNF.Idx, IsReal (((m ((c.tc : Thread Cert.KernelIdeal.nD Cert.KernelIdeal.τ).loc Cert.KernelIdeal.main_arg0)) : FVec Ideal SNF .f32) i))
      ∧ (∀ i : SFF.Idx, IsReal (((m ((c.tc : Thread Cert.KernelIdeal.nD Cert.KernelIdeal.τ).loc Cert.KernelIdeal.main_arg2)) : FVec Ideal SFF .f32) i))
      ∧ (∀ i : SF.Idx, IsReal (((m ((c.tc : Thread Cert.KernelIdeal.nD Cert.KernelIdeal.τ).loc Cert.KernelIdeal.main_arg3)) : FVec Ideal SF .f32) i))
      ∧ (∀ i : SF.Idx, IsReal (((m ((c.tc : Thread Cert.KernelIdeal.nD Cert.KernelIdeal.τ).loc Cert.KernelIdeal.main_arg4)) : FVec Ideal SF .f32) i))
      ∧ (∀ i : SF.Idx, IsReal (((m ((c.tc : Thread Cert.KernelIdeal.nD Cert.KernelIdeal.τ).loc Cert.KernelIdeal.main_arg5)) : FVec Ideal SF .f32) i))
      ∧ (∀ i : SOne.Idx, IsReal (((m ((c.tc : Thread Cert.KernelIdeal.nD Cert.KernelIdeal.τ).loc Cert.KernelIdeal.main_arg6)) : FVec Ideal SOne .f32) i))
      ∧ (∀ i : SFF.Idx, IsReal (((m ((c.tc : Thread Cert.KernelIdeal.nD Cert.KernelIdeal.τ).loc Cert.KernelIdeal.main_arg7)) : FVec Ideal SFF .f32) i))
      ∧ (∀ i : SF.Idx, IsReal (((m ((c.tc : Thread Cert.KernelIdeal.nD Cert.KernelIdeal.τ).loc Cert.KernelIdeal.main_arg8)) : FVec Ideal SF .f32) i))
      ∧ (∀ i : SF.Idx, IsReal (((m ((c.tc : Thread Cert.KernelIdeal.nD Cert.KernelIdeal.τ).loc Cert.KernelIdeal.main_arg9)) : FVec Ideal SF .f32) i))
      ∧ (∀ i : SF.Idx, IsReal (((m ((c.tc : Thread Cert.KernelIdeal.nD Cert.KernelIdeal.τ).loc Cert.KernelIdeal.main_arg10)) : FVec Ideal SF .f32) i))
      ∧ (∀ i : SOne.Idx, IsReal (((m ((c.tc : Thread Cert.KernelIdeal.nD Cert.KernelIdeal.τ).loc Cert.KernelIdeal.main_arg11)) : FVec Ideal SOne .f32) i)) :=
  real_of_pre m h c

end Cert.Gcn

end
-- ==== Proof.lean ====
/-
  The certificate of a two-layer graph convolution: a Pallas kernel pipeline (dense projection, batch statistics,
  normalisation and rectifier as three kernel launches per layer, the graph aggregation on the host between them)
  against its plain jnp reference, at the exact reading of floats as extended reals.

  Both programs compute, per layer, h = x · W, the aggregation A n = Σ_{e : dst e = n} h (src e) · w e over the
  edges with self-loops and symmetric degree weights w, then with v = A + b the column statistics over the 50000
  nodes, (v - μ) · (var + ε)^(-1/2) · g + be, and the parametric rectifier.  They differ in three ways, none of
  which is a difference on the extended reals: the kernel rounds the projection's operands to bf16 (a change of
  format is the identity here) and multiplies tile by tile; it accumulates the column sums and sums of squares
  over ten tiles of 5000 rows (addition of extended reals is associative and commutative); and it takes the
  variance as the mean of the squares minus the squared mean where the reference takes the mean of the squared
  deviations — equal when every entry of v is a real number, which the precondition (finite inputs) gives for the
  first layer's aggregate and, the first layer's output being real again (the variance is ≥ 0 and ε > 0, so the
  inverse standard deviation is real), for the second.

  The kernel's value is read off its run boundary by boundary (KernelRun, KernelKeep, RegionMM, RegionStats,
  RegionNP, KernelValue1, KernelValue2, KernelValue), the reference's off its run in four stretches (RefOps, RefRead, RefRun,
  RefValue); Spec and Graph state the common function, LayerLaw, GraphReal and NetLaw the law joining the two
  variance forms, Finite the realness of the inputs.
-/
import proofs.«139484_j50294067036840_1_alg».proof.Defs
import proofs.«139484_j50294067036840_1_alg».proof.Proof.Gen.Kernel
import proofs.«139484_j50294067036840_1_alg».proof.Proof.Gen.Kernel.Skeleton
import proofs.«139484_j50294067036840_1_alg».proof.Proof.Gen.Kernel.Launch
import proofs.«139484_j50294067036840_1_alg».proof.Proof.Gen.Kernel.Points
import proofs.«139484_j50294067036840_1_alg».proof.Proof.Gen.Kernel.Frame
import proofs.«139484_j50294067036840_1_alg».proof.Proof.Gen.KernelIdeal
import proofs.«139484_j50294067036840_1_alg».proof.Proof.Gen.KernelIdeal.Skeleton
import proofs.«139484_j50294067036840_1_alg».proof.Proof.Gen.KernelIdeal.Launch
import proofs.«139484_j50294067036840_1_alg».proof.Proof.Gen.KernelIdeal.Points
import proofs.«139484_j50294067036840_1_alg».proof.Proof.Gen.KernelIdeal.Frame
import proofs.«139484_j50294067036840_1_alg».proof.Proof.Gen.ReferenceIdeal
import proofs.«139484_j50294067036840_1_alg».proof.Proof.Gen.Pre_finite_inputs
import proofs.«139484_j50294067036840_1_alg».proof.Proof.KernelRun
import proofs.«139484_j50294067036840_1_alg».proof.Proof.KernelValue
import proofs.«139484_j50294067036840_1_alg».proof.Proof.RefRun
import proofs.«139484_j50294067036840_1_alg».proof.Proof.RefValue
import proofs.«139484_j50294067036840_1_alg».proof.Proof.NetLaw
import proofs.«139484_j50294067036840_1_alg».proof.Proof.Finite
import Idealize.ShloMosaic.Adequacy
import Idealize.ShloMosaic.Init

set_option maxHeartbeats 4000000

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing in this kernel. -/
theorem preserves : Cert.preserves_Kernel_KernelIdeal := trivial

/-- The idealized kernel's result array as the network with the variances taken as means of squares minus squared
    means, then — the inputs being real — as the network with the variances taken as means of squared deviations. -/
theorem kernel_result (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Gen.W13 m ρ c (Proc.devRef .tc Cert.KernelIdeal.main_v92) = Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨h0, h2, h3, h4, h5, h6, h7, h8, _, _, _⟩ := Cert.Gcn.real_of_pre_shaped m hpre c
  exact (Cert.KernelIdeal.KV.kernel_value m ρ c).trans
    (Cert.Gcn.netSq_eq_net _ _ _ _ _ _ _ _ _ _ _ _ h0 h2 h3 h4 h5 h6 h7 h8)

/-- The two idealized programs, from memories agreeing on the arguments, end with the same result array. -/
theorem algebraic : Cert.algebraic_KernelIdeal_ReferenceIdeal := by
  intro m ρ m' ρ' hpre hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun _ h c => ⟨(h c).1.trans (kernel_result m ρ hpre c), (h c).2⟩)
      (Cert.KernelIdeal.RunValue.run_result m ρ)
  · refine (θ_run Cert.ReferenceIdeal.defs _ _).mono (fun _ h c => ⟨(h c).1.trans ?_, (h c).2⟩)
      (Cert.ReferenceIdeal.RunP.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact Cert.Gcn.ref_eq _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
